-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x128 : Shape := ⟨2, ![8192, 128]⟩
abbrev S4 : Shape := ⟨1, ![4]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  main_v18

def fn {F : FTy → Type} [FloatOps F] (main_arg0 : FVec F S8192x8192 .f32) (main_arg1 : FVec F S8192x128 .f32) (main_arg2 : FVec F S8192x8192 .f32) (main_arg3 : FVec F S4 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S4 .f32 := Host.absf main_arg3
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_v13 main_v16
-- ==== Kernel.lean ====
abbrev S8192x8192 : Shape := ⟨2, ![8192, 8192]⟩
abbrev S8192x128 : Shape := ⟨2, ![8192, 128]⟩
abbrev S4 : Shape := ⟨1, ![4]⟩
abbrev S2048x1024 : Shape := ⟨2, ![2048, 1024]⟩
abbrev S1024x128 : Shape := ⟨2, ![1024, 128]⟩
abbrev S2048x128 : Shape := ⟨2, ![2048, 128]⟩
abbrev S1 : Shape := ⟨1, ![1]⟩
abbrev S_ : Shape := ⟨0, ![]⟩

abbrev nBuf : Space → Nat
  | .hbm => 27
  | .vmem => 28
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S8192x8192, .f32⟩
  | .hbm, ⟨3, _⟩ => ⟨S4, .f32⟩
  | .hbm, ⟨4, _⟩ => ⟨S8192x128, .f32⟩
  | .hbm, ⟨5, _⟩ => ⟨S1, .f32⟩
  | .hbm, ⟨6, _⟩ => ⟨S_, .f32⟩
  | .hbm, ⟨7, _⟩ => ⟨S8192x128, .f32⟩
  | .hbm, ⟨8, _⟩ => ⟨S8192x128, .f32⟩
  | .hbm, ⟨9, _⟩ => ⟨S8192x128, .f32⟩
  | .hbm, ⟨10, _⟩ => ⟨S1, .f32⟩
  | .hbm, ⟨11, _⟩ => ⟨S_, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S1, .f32⟩
  | .hbm, ⟨17, _⟩ => ⟨S_, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S1, .f32⟩
  | .hbm, ⟨23, _⟩ => ⟨S_, .f32⟩
  | .hbm, ⟨24, _⟩ => ⟨S8192x128, .f32⟩
  | .hbm, ⟨25, _⟩ => ⟨S8192x128, .f32⟩
  | .hbm, ⟨26, _⟩ => ⟨S8192x128, .f32⟩
  | .local _ .vmem, ⟨0, _⟩ => ⟨S2048x1024, .f32⟩
  | .local _ .vmem, ⟨1, _⟩ => ⟨S2048x1024, .f32⟩
  | .local _ .vmem, ⟨2, _⟩ => ⟨S1024x128, .f32⟩
  | .local _ .vmem, ⟨3, _⟩ => ⟨S1024x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x1024, .f32⟩
  | .local _ .vmem, ⟨8, _⟩ => ⟨S2048x1024, .f32⟩
  | .local _ .vmem, ⟨9, _⟩ => ⟨S1024x128, .f32⟩
  | .local _ .vmem, ⟨10, _⟩ => ⟨S1024x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x1024, .f32⟩
  | .local _ .vmem, ⟨15, _⟩ => ⟨S2048x1024, .f32⟩
  | .local _ .vmem, ⟨16, _⟩ => ⟨S1024x128, .f32⟩
  | .local _ .vmem, ⟨17, _⟩ => ⟨S1024x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x1024, .f32⟩
  | .local _ .vmem, ⟨22, _⟩ => ⟨S2048x1024, .f32⟩
  | .local _ .vmem, ⟨23, _⟩ => ⟨S1024x128, .f32⟩
  | .local _ .vmem, ⟨24, _⟩ => ⟨S1024x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![4, 8], ![false, false]⟩

def k2_cond2 (i : grid2.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![4, 8], ![false, false]⟩

def k3_cond2 (i : grid3.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

class Facts₀ : Prop where
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  slices_S4_S1_0 : S4.Slices ![0] S1
  shapeCasts_S1_S_ : S1.ShapeCasts S_
  bcast_S_S8192x128 : S_.BroadcastsInDim S8192x128 (![] : Fin 0 → Fin S8192x128.rank)
  shapeCasts_S1024x128_S1024x128 : S1024x128.ShapeCasts S1024x128
  slices_S4_S1_1 : S4.Slices ![1] S1
  slices_S4_S1_2 : S4.Slices ![2] S1
  slices_S4_S1_3 : S4.Slices ![3] S1
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x8192.size a
  hwx0_0 : ∀ i : grid0.Coords, EltTy.bits .f32 = 32 ∨ (Rect.block (s := S8192x8192) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S8192x128.size a
  hwx0_2 : ∀ i : grid0.Coords, EltTy.bits .f32 = 32 ∨ (Rect.block (s := S8192x128) S2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x8192.size a
  hwx1_0 : ∀ i : grid1.Coords, EltTy.bits .f32 = 32 ∨ (Rect.block (s := S8192x8192) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S8192x128.size a
  hwx1_2 : ∀ i : grid1.Coords, EltTy.bits .f32 = 32 ∨ (Rect.block (s := S8192x128) S2048x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x8192.size a
  hwx2_0 : ∀ i : grid2.Coords, EltTy.bits .f32 = 32 ∨ (Rect.block (s := S8192x8192) S2048x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .f32 = 32 ∨ (Rect.block (s := S8192x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S8192x128.size a
  hwx2_2 : ∀ i : grid2.Coords, EltTy.bits .f32 = 32 ∨ (Rect.block (s := S8192x128) S2048x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x1024.size a ≤ S8192x8192.size a
  hwx3_0 : ∀ i : grid3.Coords, EltTy.bits .f32 = 32 ∨ (Rect.block (s := S8192x8192) S2048x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S8192x128.size a
  hwx3_1 : ∀ i : grid3.Coords, EltTy.bits .f32 = 32 ∨ (Rect.block (s := S8192x128) S1024x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x128.size a ≤ S8192x128.size a
  hwx3_2 : ∀ i : grid3.Coords, EltTy.bits .f32 = 32 ∨ (Rect.block (s := S8192x128) S2048x128.size (cc3_transform_2 i) (hinb3_2 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S2048x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg0) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S2048x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_arg0) S2048x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S2048x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x128 : Shape := ⟨2, ![8192, 128]⟩
abbrev S4 : Shape := ⟨1, ![4]⟩
abbrev S1 : Shape := ⟨1, ![1]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S8192x8192, .f32⟩
  | .hbm, ⟨3, _⟩ => ⟨S4, .f32⟩
  | .hbm, ⟨4, _⟩ => ⟨S8192x128, .f32⟩
  | .hbm, ⟨5, _⟩ => ⟨S1, .f32⟩
  | .hbm, ⟨6, _⟩ => ⟨S_, .f32⟩
  | .hbm, ⟨7, _⟩ => ⟨S8192x128, .f32⟩
  | .hbm, ⟨8, _⟩ => ⟨S8192x128, .f32⟩
  | .hbm, ⟨9, _⟩ => ⟨S8192x128, .f32⟩
  | .hbm, ⟨10, _⟩ => ⟨S1, .f32⟩
  | .hbm, ⟨11, _⟩ => ⟨S_, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S1, .f32⟩
  | .hbm, ⟨17, _⟩ => ⟨S_, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S1, .f32⟩
  | .hbm, ⟨23, _⟩ => ⟨S_, .f32⟩
  | .hbm, ⟨24, _⟩ => ⟨S8192x128, .f32⟩
  | .hbm, ⟨25, _⟩ => ⟨S8192x128, .f32⟩
  | .hbm, ⟨26, _⟩ => ⟨S8192x128, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩

abbrev nD : Nat := 1
abbrev τ : Topo := Topo.v7x

variable {F : FTy → Type} [FloatOps F]

class Facts₀ : Prop where
  slices_S4_S1_0 : S4.Slices ![0] S1
  shapeCasts_S1_S_ : S1.ShapeCasts S_
  bcast_S_S8192x128 : S_.BroadcastsInDim S8192x128 (![] : Fin 0 → Fin S8192x128.rank)
  slices_S4_S1_1 : S4.Slices ![1] S1
  slices_S4_S1_2 : S4.Slices ![2] S1
  slices_S4_S1_3 : S4.Slices ![3] S1
  dot_S8192x8192_S8192x128_S8192x128_1_0_0_1_n_n_wf : DotDims.WF S8192x8192 S8192x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.Kernel.R0.Defs.lean ====
/-
  Region 0 of the program: one tiled matrix product on a 4 × 8 grid of points t = 8·i + k (i the row tile of
  2048 rows, k the tile of 1024 along the contracted axis). What the three control cases of the body share:
  the two conditions on the point in closed form over the grid (k = 0, where the accumulator is reset; k = 7,
  where it is copied to the output block), the points where the output window is idle and not written back
  (every point with k ≠ 7), the staging buffers the body is called with, the accumulator's buffer, the class
  invariant with the accumulator's buffer split off the other scoped buffers, and each window's block read off
  the arrays as the region finds them.
-/
import proofs.«132851_j4544075399677_1_alg».proof.Proof.Gen.Kernel.Launch
import proofs.«132851_j4544075399677_1_alg».proof.Proof.Gen.Kernel.Skeleton
import proofs.«132851_j4544075399677_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions on the point -/

/-- The accumulator is reset at this point: the body's first conditional, from the grid coordinates. -/
abbrev isFirst0 (i : grid0.Coords) : Prop :=
  (Scalar.cmpi .ne (Scalar.extui (Scalar.cmpi .eq (BitVec.ofNat 32 (i 1).val) 0#32)) 0#32) = 1#1
/-- It holds exactly at the points with k = 0. -/
theorem hFirst0 : ∀ t : Fin cfg0.N, isFirst0 (grid0.coords t) ↔ t.val % 8 = 0 :=
  (by decide +kernel : ∀ t : Fin grid0.N, isFirst0 (grid0.coords t) ↔ t.val % 8 = 0)

/-- The accumulator is copied to the output block at this point: the body's second conditional. -/
abbrev isLast0 (i : grid0.Coords) : Prop := k0_cond2 i = 1#1
/-- It holds exactly at the points with k = 7. -/
theorem hLast0 : ∀ t : Fin cfg0.N, isLast0 (grid0.coords t) ↔ t.val % 8 = 7 :=
  (by decide +kernel : ∀ t : Fin grid0.N, isLast0 (grid0.coords t) ↔ t.val % 8 = 7)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
/-- Away from k = 7 the body stores nothing into the output block, -/
theorem idle0_2 : ∀ t : Fin cfg0.N, ¬isLast0 (grid0.coords t) → cfg0.idle 2 (grid0.coords t) = true := by decide +kernel
/-- and the block is not written back there. -/
theorem noFlush0_2 : ∀ t : Fin cfg0.N, ¬isLast0 (grid0.coords t) → (cfg0.win 2).flush t = false := by decide +kernel
/-- At k = 7 it stores the whole block. -/
theorem live0_2 : ∀ t : Fin cfg0.N, isLast0 (grid0.coords t) → cfg0.idle 2 (grid0.coords t) = false := by decide +kernel

/-! ## The buffers the body is called with -/

abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev acc0 : Memref sig .tc .vmem S2048x128 .f32 := Memref.whole cc0_scratch0
/-- The views through which the output block's and the accumulator's contents are stated. -/
abbrev VO0 : View sig .tc .vmem S2048x128 .f32 := (Memref.whole cc0_stg2_0 : Memref sig .tc .vmem S2048x128 .f32).view
abbrev VA0 : View sig .tc .vmem S2048x128 .f32 := acc0.view

/-- The class invariant with the accumulator's buffer owned at some contents, every other scoped buffer that is
    no staging buffer of this region unopened, and the generator register at some state. -/
theorem PhiA0_eq (c : Dev nD) :
    (Pipeline.ΦA spec0 c : sProp 𝕄)
      = iprop(iprop((∃ d, owns (c : Thread nD τ) acc0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [acc0, owns_whole]; try rfl

/-! ## The windows' blocks -/

section Blocks
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- So does the right operand's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Blocks

end Cert.Kernel.Hand

end
-- ==== Proof.Kernel.R0.RunA.lean ====
/-
  Region 0, the body at a point with k = 0: the accumulator is reset to zero, the product of the two blocks added to it, the output block left alone.
  The body is run once on whole staging buffers; the pieces each buffer ends with are found by the run itself.
-/
import proofs.«132851_j4544075399677_1_alg».proof.Proof.Kernel.R0.Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At k = 0: from the two operand blocks at `x0`, `x1`, the output's buffer at `xi2` and the accumulator at anything,
    the body runs to the continuation holding the operands and the output's buffer as they were and the accumulator
    with its pieces `LA` written. No piece for the output. -/
noncomputable def bodyRun0_A (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : isFirst0 i) (hc1 : ¬isLast0 i)
    (x0 : Vec F S2048x1024 .f32) (x1 : Vec F S1024x128 .f32) :
    Σ' (L2 : List (View.Piece (Elt F) S2048x128 .f32)), { LA : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LA)) -∗ K ⟨⟩))
          ⊢ wp frame (wpE (defs₀ (F := F)) Variants.none c none) E (cc0__matmul_kernel i arg2 harg2 arg3 harg3 arg4 harg4 arg5 harg5) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%da, %fa, -, HA⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HA

end Cert.Kernel.Hand

end
-- ==== Proof.Kernel.R0.RunB.lean ====
/-
  Region 0, the body at a point with 0 < k < 7: the product of the two blocks is added to the accumulator, the output block left alone.
  The body is run once on whole staging buffers; the pieces each buffer ends with are found by the run itself.
-/
import proofs.«132851_j4544075399677_1_alg».proof.Proof.Kernel.R0.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At 0 < k < 7: from the two operand blocks at `x0`, `x1`, the output's buffer at `xi2` and the accumulator at what
    the point before left (`xa`), the body runs to the continuation holding the operands and the output's buffer as
    they were and the accumulator with its pieces `LA` written. No piece for the output. -/
noncomputable def bodyRun0_B (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst0 i) (hc1 : ¬isLast0 i)
    (x0 : Vec F S2048x1024 .f32) (x1 : Vec F S1024x128 .f32) (xa : Vec F S2048x128 .f32) :
    Σ' (L2 : List (View.Piece (Elt F) S2048x128 .f32)), { LA : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xa
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LA)) -∗ K ⟨⟩))
          ⊢ wp frame (wpE (defs₀ (F := F)) Variants.none c none) E (cc0__matmul_kernel i arg2 harg2 arg3 harg3 arg4 harg4 arg5 harg5) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fa, %hfa, HA⟩, Hk⟩
    obtain rfl := harg2.eq_unread hf0; obtain rfl := harg3.eq_unread hf1; obtain rfl := harg4.eq_unread hf2; obtain rfl := harg5.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HA

end Cert.Kernel.Hand

end
-- ==== Proof.Kernel.R0.RunC.lean ====
/-
  Region 0, the body at a point with k = 7: the product of the two blocks is added to the accumulator and the accumulator copied to the output block.
  The body is run once on whole staging buffers; the pieces each buffer ends with are found by the run itself.
-/
import proofs.«132851_j4544075399677_1_alg».proof.Proof.Kernel.R0.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At k = 7: from the two operand blocks at `x0`, `x1`, the output's buffer at anything and the accumulator at what the
    point before left (`xa`), the body runs to the continuation holding the operands as they were, the output's
    buffer with its pieces `L2` written and the accumulator with its pieces `LA` written. -/
noncomputable def bodyRun0_C (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst0 i) (hc1 : isLast0 i)
    (x0 : Vec F S2048x1024 .f32) (x1 : Vec F S1024x128 .f32) (xa : Vec F S2048x128 .f32) :
    Σ' (L2 : List (View.Piece (Elt F) S2048x128 .f32)), { LA : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xa
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LA)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fa, %hfa, HA⟩, Hk⟩
    obtain rfl := harg2.eq_unread hf0; obtain rfl := harg3.eq_unread hf1; obtain rfl := harg5.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HA

end Cert.Kernel.Hand

end
-- ==== Proof.Kernel.R0.Data.lean ====
/-
  Region 0: what the accumulator and the output block hold after the body, case by case (the pieces each run
  found, read back) and point by point (a recursion on the point: at k = 0 the accumulator restarts from the two
  blocks alone, at every other point it continues from what the point before left; the output block is written
  at k = 7 only); the region's invariant, which carries the accumulator at those contents from one point to the
  next; the pipeline's proof data; and the body obligation at every point, by cases on k.
-/
import proofs.«132851_j4544075399677_1_alg».proof.Proof.Kernel.R0.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

theorem coverA0_A (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : isFirst0 i) (hc1 : ¬isLast0 i) (x0 : Vec F S2048x1024 .f32) (x1 : Vec F S1024x128 .f32) (y : S2048x128.Idx) :
    ∃ pc ∈ (bodyRun0_A c i arg2 harg2 arg3 harg3 arg4 harg4 arg5 harg5 hc0 hc1 x0 x1).2.1, y ∈ pc.1.set :=
  View.cover_of_tiledL (bodyRun0_A c i arg2 harg2 arg3 harg3 arg4 harg4 arg5 harg5 hc0 hc1 x0 x1).2.1 S2048x128.size (by sl_kernel_rfl) y
/-- The accumulator after a point with k = 0. -/
def accAfter0_A (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : isFirst0 i) (hc1 : ¬isLast0 i) (x0 : Vec F S2048x1024 .f32) (x1 : Vec F S1024x128 .f32) : Vec F S2048x128 .f32 :=
  VA0.read (Elt F) (VA0.writes (Elt F) VA0.junk (bodyRun0_A c i arg2 harg2 arg3 harg3 arg4 harg4 arg5 harg5 hc0 hc1 x0 x1).2.1)

theorem coverA0_B (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst0 i) (hc1 : ¬isLast0 i) (x0 : Vec F S2048x1024 .f32) (x1 : Vec F S1024x128 .f32) (xa : Vec F S2048x128 .f32) (y : S2048x128.Idx) :
    ∃ pc ∈ (bodyRun0_B c i arg2 harg2 arg3 harg3 arg4 harg4 arg5 harg5 hc0 hc1 x0 x1 xa).2.1, y ∈ pc.1.set :=
  View.cover_of_tiledL (bodyRun0_B c i arg2 harg2 arg3 harg3 arg4 harg4 arg5 harg5 hc0 hc1 x0 x1 xa).2.1 S2048x128.size (by sl_kernel_rfl) y
/-- The accumulator after a point with 0 < k < 7, from what the point before left. -/
def accAfter0_B (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst0 i) (hc1 : ¬isLast0 i) (x0 : Vec F S2048x1024 .f32) (x1 : Vec F S1024x128 .f32) (xa : Vec F S2048x128 .f32) : Vec F S2048x128 .f32 :=
  VA0.read (Elt F) (VA0.writes (Elt F) VA0.junk (bodyRun0_B c i arg2 harg2 arg3 harg3 arg4 harg4 arg5 harg5 hc0 hc1 x0 x1 xa).2.1)

theorem coverO0_C (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst0 i) (hc1 : isLast0 i) (x0 : Vec F S2048x1024 .f32) (x1 : Vec F S1024x128 .f32) (xa : Vec F S2048x128 .f32) (y : S2048x128.Idx) :
    ∃ pc ∈ (bodyRun0_C c i arg2 harg2 arg3 harg3 arg4 harg4 arg5 harg5 hc0 hc1 x0 x1 xa).1, y ∈ pc.1.set :=
  View.cover_of_tiledL (bodyRun0_C c i arg2 harg2 arg3 harg3 arg4 harg4 arg5 harg5 hc0 hc1 x0 x1 xa).1 S2048x128.size (by sl_kernel_rfl) y
/-- The output block after a point with k = 7. -/
def outAfter0_C (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst0 i) (hc1 : isLast0 i) (x0 : Vec F S2048x1024 .f32) (x1 : Vec F S1024x128 .f32) (xa : Vec F S2048x128 .f32) : Vec F S2048x128 .f32 :=
  VO0.read (Elt F) (VO0.writes (Elt F) VO0.junk (bodyRun0_C c i arg2 harg2 arg3 harg3 arg4 harg4 arg5 harg5 hc0 hc1 x0 x1 xa).1)
theorem coverA0_C (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst0 i) (hc1 : isLast0 i) (x0 : Vec F S2048x1024 .f32) (x1 : Vec F S1024x128 .f32) (xa : Vec F S2048x128 .f32) (y : S2048x128.Idx) :
    ∃ pc ∈ (bodyRun0_C c i arg2 harg2 arg3 harg3 arg4 harg4 arg5 harg5 hc0 hc1 x0 x1 xa).2.1, y ∈ pc.1.set :=
  View.cover_of_tiledL (bodyRun0_C c i arg2 harg2 arg3 harg3 arg4 harg4 arg5 harg5 hc0 hc1 x0 x1 xa).2.1 S2048x128.size (by sl_kernel_rfl) y
/-- The accumulator after a point with k = 7. -/
def accAfter0_C (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst0 i) (hc1 : isLast0 i) (x0 : Vec F S2048x1024 .f32) (x1 : Vec F S1024x128 .f32) (xa : Vec F S2048x128 .f32) : Vec F S2048x128 .f32 :=
  VA0.read (Elt F) (VA0.writes (Elt F) VA0.junk (bodyRun0_C c i arg2 harg2 arg3 harg3 arg4 harg4 arg5 harg5 hc0 hc1 x0 x1 xa).2.1)

/-- The output block at a point where nothing is stored into it: a placeholder nothing consults (the block is
    neither written back there nor read at the next point). -/
def idleOut0 : Vec F S2048x128 .f32 := VO0.read (Elt F) VO0.junk

section Data
variable (V : (c : Dev nD) → (b : Ref sig .tc) → Buf (Elt F) ((c : Thread nD τ).loc b))

/-! ## Point by point -/

/-- What the output's staging buffer and the accumulator hold after the body at position `n`. -/
def outsAt0 (c : Dev nD) : (n : ℕ) → n < cfg0.N → Vec F S2048x128 .f32 × Vec F S2048x128 .f32
  | 0, hn => (idleOut0, accAfter0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) acc0 (Memref.isWhole_whole _) ((hFirst0 ⟨0, hn⟩).mpr (Nat.zero_mod _)) (fun h => (fun h => by (try dsimp only at h); omega) ((hLast0 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (idleOut0, accAfter0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) acc0 (Memref.isWhole_whole _) ((hFirst0 ⟨n + 1, hn⟩).mpr h0) (fun h => h1 ((hLast0 ⟨n + 1, hn⟩).mp h)) (iblk0 V c 0 ⟨n + 1, hn⟩) (iblk0 V c 1 ⟨n + 1, hn⟩))
    else
      if h1 : (n + 1) % 8 = 7 then
        (outAfter0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) acc0 (Memref.isWhole_whole _) (fun h => h0 ((hFirst0 ⟨n + 1, hn⟩).mp h)) ((hLast0 ⟨n + 1, hn⟩).mpr h1) (iblk0 V c 0 ⟨n + 1, hn⟩) (iblk0 V c 1 ⟨n + 1, hn⟩) (outsAt0 c n (Nat.lt_of_succ_lt hn)).2, accAfter0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) acc0 (Memref.isWhole_whole _) (fun h => h0 ((hFirst0 ⟨n + 1, hn⟩).mp h)) ((hLast0 ⟨n + 1, hn⟩).mpr h1) (iblk0 V c 0 ⟨n + 1, hn⟩) (iblk0 V c 1 ⟨n + 1, hn⟩) (outsAt0 c n (Nat.lt_of_succ_lt hn)).2)
      else
        (idleOut0, accAfter0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) acc0 (Memref.isWhole_whole _) (fun h => h0 ((hFirst0 ⟨n + 1, hn⟩).mp h)) (fun h => h1 ((hLast0 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (idleOut0, accAfter0_A c (grid0.coords t) (ms0_0 t) (hs0_0 t) (ms0_1 t) (hs0_1 t) (ms0_2 t) (hs0_2 t) acc0 (Memref.isWhole_whole _) ((hFirst0 t).mpr h0) (fun h => h1 ((hLast0 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (idleOut0, accAfter0_B c (grid0.coords t) (ms0_0 t) (hs0_0 t) (ms0_1 t) (hs0_1 t) (ms0_2 t) (hs0_2 t) acc0 (Memref.isWhole_whole _) (fun h => h0 ((hFirst0 t).mp h)) (fun h => h1 ((hLast0 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (outAfter0_C c (grid0.coords t) (ms0_0 t) (hs0_0 t) (ms0_1 t) (hs0_1 t) (ms0_2 t) (hs0_2 t) acc0 (Memref.isWhole_whole _) (fun h => h0 ((hFirst0 t).mp h)) ((hLast0 t).mpr h1) (iblk0 V c 0 t) (iblk0 V c 1 t) (outsAt0 V c (t.val - 1) (Nat.lt_of_le_of_lt (Nat.sub_le _ _) t.isLt)).2, accAfter0_C c (grid0.coords t) (ms0_0 t) (hs0_0 t) (ms0_1 t) (hs0_1 t) (ms0_2 t) (hs0_2 t) acc0 (Memref.isWhole_whole _) (fun h => h0 ((hFirst0 t).mp h)) ((hLast0 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the region's entry the class invariant (the accumulator at anything); afterwards the
    accumulator at what the point before left, the other scoped buffers unopened, the generator register at some state. -/
def PhiS0 (c : Dev nD) : (n : ℕ) → n ≤ cfg0.N → sProp 𝕄
  | 0, _ => Pipeline.ΦA spec0 c
  | n + 1, hn => iprop(iprop(owns (c : Thread nD τ) acc0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) acc0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) acc0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The arrays as the region finds them; after the body each operand's buffer at its block and the output's at
    `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the operands' buffers hold their blocks; the closed forms say which case the point is in;
    the invariant hands the body the accumulator at what the point before left (at anything at the region's first
    point, and the reset at k = 0 needs nothing of it) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  by_cases h0 : t.val % 8 = 0
  · have h1 : ¬t.val % 8 = 7 := by omega
    rw [Dat.leavesExact_idle (dat0 V c) 2 t (idle0_2 t (fun h => h1 ((hLast0 t).mp h))) (noFlush0_2 t (fun h => h1 ((hLast0 t).mp h)))]
    rw [outsAt0_A V c t h0 h1]
    unfold accAfter0_A; (try dsimp only)
    by_cases hz : t.val = 0
    · rw [PhiS0_castSucc V c t, PhiS0_zero V c _ _ hz, PhiA0_eq]
      iintro ⟨⟨⟨HA, Hrest⟩, Hg⟩, Ho, ⟨%d0, H0⟩, ⟨%d1, H1⟩, ⟨%d2, H2⟩⟩
      iapply ((bodyRun0_A c (grid0.coords t) _ _ _ _ _ _ _ _ ((hFirst0 t).mpr h0) (fun h => h1 ((hLast0 t).mp h)) (iblk0 V c 0 t) (iblk0 V c 1 t)).2.2 _ Set.univ _)
      isplitl [H0]; · iexact H0
      isplitl [H1]; · iexact H1
      isplitl [H2]; · iexact H2
      isplitl [HA]; · iexact HA
      iintro ⟨H0, H1, H2, ⟨%ea, HA⟩⟩
      isplitl [HA Hrest Hg]
      · isplitl [HA Hrest]
        · isplitl [HA]
          · unfold owns; iexists _; isplitr
            swap; · iexact HA
            ipureintro; exact View.read_writes_of_cover _ _ _ _ _ (coverA0_A c _ _ _ _ _ _ _ _ _ _ _ _ _)
          iexact Hrest
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HA, Hrest⟩, Hg⟩, Ho, ⟨%d0, H0⟩, ⟨%d1, H1⟩, ⟨%d2, H2⟩⟩
      iapply ((bodyRun0_A c (grid0.coords t) _ _ _ _ _ _ _ _ ((hFirst0 t).mpr h0) (fun h => h1 ((hLast0 t).mp h)) (iblk0 V c 0 t) (iblk0 V c 1 t)).2.2 _ Set.univ _)
      isplitl [H0]; · iexact H0
      isplitl [H1]; · iexact H1
      isplitl [H2]; · iexact H2
      isplitl [HA]; · iexists _; iexact HA
      iintro ⟨H0, H1, H2, ⟨%ea, HA⟩⟩
      isplitl [HA Hrest Hg]
      · isplitl [HA Hrest]
        · isplitl [HA]
          · unfold owns; iexists _; isplitr
            swap; · iexact HA
            ipureintro; exact View.read_writes_of_cover _ _ _ _ _ (coverA0_A c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := by omega
    by_cases h1 : t.val % 8 = 7
    · rw [show (dat0 V c).leavesExact 2 t = owns (c : Thread nD τ) (ms0_2 t) fullShare ((dat0 V c).after 2 t) from by
        unfold Dat.leavesExact; rw [live0_2 t ((hLast0 t).mpr h1)], after0_2]
      rw [outsAt0_C V c t h0 h1]
      unfold outAfter0_C accAfter0_C; (try dsimp only)
      rw [PhiS0_castSucc V c t, PhiS0_pos V c _ _ hz]
      iintro ⟨⟨⟨HA, Hrest⟩, Hg⟩, Ho, ⟨%d0, H0⟩, ⟨%d1, H1⟩, ⟨%d2, H2⟩⟩
      iapply ((bodyRun0_C c (grid0.coords t) _ _ _ _ _ _ _ _ (fun h => h0 ((hFirst0 t).mp h)) ((hLast0 t).mpr h1) (iblk0 V c 0 t) (iblk0 V c 1 t) _).2.2 Set.univ _)
      isplitl [H0]; · iexact H0
      isplitl [H1]; · iexact H1
      isplitl [H2]; · iexists _; iexact H2
      isplitl [HA]; · iexact HA
      iintro ⟨H0, H1, ⟨%e2, H2⟩, ⟨%ea, HA⟩⟩
      isplitl [HA Hrest Hg]
      · isplitl [HA Hrest]
        · isplitl [HA]
          · unfold owns; iexists _; isplitr
            swap; · iexact HA
            ipureintro; exact View.read_writes_of_cover _ _ _ _ _ (coverA0_C c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverO0_C c _ _ _ _ _ _ _ _ _ _ _ _ _ _)
    · rw [Dat.leavesExact_idle (dat0 V c) 2 t (idle0_2 t (fun h => h1 ((hLast0 t).mp h))) (noFlush0_2 t (fun h => h1 ((hLast0 t).mp h)))]
      rw [outsAt0_B V c t h0 h1]
      unfold accAfter0_B; (try dsimp only)
      rw [PhiS0_castSucc V c t, PhiS0_pos V c _ _ hz]
      iintro ⟨⟨⟨HA, Hrest⟩, Hg⟩, Ho, ⟨%d0, H0⟩, ⟨%d1, H1⟩, ⟨%d2, H2⟩⟩
      iapply ((bodyRun0_B c (grid0.coords t) _ _ _ _ _ _ _ _ (fun h => h0 ((hFirst0 t).mp h)) (fun h => h1 ((hLast0 t).mp h)) (iblk0 V c 0 t) (iblk0 V c 1 t) _).2.2 _ Set.univ _)
      isplitl [H0]; · iexact H0
      isplitl [H1]; · iexact H1
      isplitl [H2]; · iexact H2
      isplitl [HA]; · iexact HA
      iintro ⟨H0, H1, H2, ⟨%ea, HA⟩⟩
      isplitl [HA Hrest Hg]
      · isplitl [HA Hrest]
        · isplitl [HA]
          · unfold owns; iexists _; isplitr
            swap; · iexact HA
            ipureintro; exact View.read_writes_of_cover _ _ _ _ _ (coverA0_B c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HA, Hrest⟩, Hg⟩
  isplitl [HA Hrest]
  · isplitl [HA]; · iexists _; iexact HA
    iexact Hrest
  iexact Hg

end Data

end Cert.Kernel.Hand

end
-- ==== Proof.Kernel.R1.Defs.lean ====
/-
  Region 1 of the program: one tiled matrix product on a 4 × 8 grid of points t = 8·i + k (i the row tile of
  2048 rows, k the tile of 1024 along the contracted axis). What the three control cases of the body share:
  the two conditions on the point in closed form over the grid (k = 0, where the accumulator is reset; k = 7,
  where it is copied to the output block), the points where the output window is idle and not written back
  (every point with k ≠ 7), the staging buffers the body is called with, the accumulator's buffer, the class
  invariant with the accumulator's buffer split off the other scoped buffers, and each window's block read off
  the arrays as the region finds them.
-/
import proofs.«132851_j4544075399677_1_alg».proof.Proof.Gen.Kernel.Launch
import proofs.«132851_j4544075399677_1_alg».proof.Proof.Gen.Kernel.Skeleton
import proofs.«132851_j4544075399677_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions on the point -/

/-- The accumulator is reset at this point: the body's first conditional, from the grid coordinates. -/
abbrev isFirst1 (i : grid1.Coords) : Prop :=
  (Scalar.cmpi .ne (Scalar.extui (Scalar.cmpi .eq (BitVec.ofNat 32 (i 1).val) 0#32)) 0#32) = 1#1
/-- It holds exactly at the points with k = 0. -/
theorem hFirst1 : ∀ t : Fin cfg1.N, isFirst1 (grid1.coords t) ↔ t.val % 8 = 0 :=
  (by decide +kernel : ∀ t : Fin grid1.N, isFirst1 (grid1.coords t) ↔ t.val % 8 = 0)

/-- The accumulator is copied to the output block at this point: the body's second conditional. -/
abbrev isLast1 (i : grid1.Coords) : Prop := k1_cond2 i = 1#1
/-- It holds exactly at the points with k = 7. -/
theorem hLast1 : ∀ t : Fin cfg1.N, isLast1 (grid1.coords t) ↔ t.val % 8 = 7 :=
  (by decide +kernel : ∀ t : Fin grid1.N, isLast1 (grid1.coords t) ↔ t.val % 8 = 7)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
/-- Away from k = 7 the body stores nothing into the output block, -/
theorem idle1_2 : ∀ t : Fin cfg1.N, ¬isLast1 (grid1.coords t) → cfg1.idle 2 (grid1.coords t) = true := by decide +kernel
/-- and the block is not written back there. -/
theorem noFlush1_2 : ∀ t : Fin cfg1.N, ¬isLast1 (grid1.coords t) → (cfg1.win 2).flush t = false := by decide +kernel
/-- At k = 7 it stores the whole block. -/
theorem live1_2 : ∀ t : Fin cfg1.N, isLast1 (grid1.coords t) → cfg1.idle 2 (grid1.coords t) = false := by decide +kernel

/-! ## The buffers the body is called with -/

abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x128 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev acc1 : Memref sig .tc .vmem S2048x128 .f32 := Memref.whole cc1_scratch0
/-- The views through which the output block's and the accumulator's contents are stated. -/
abbrev VO1 : View sig .tc .vmem S2048x128 .f32 := (Memref.whole cc1_stg2_0 : Memref sig .tc .vmem S2048x128 .f32).view
abbrev VA1 : View sig .tc .vmem S2048x128 .f32 := acc1.view

/-- The class invariant with the accumulator's buffer owned at some contents, every other scoped buffer that is
    no staging buffer of this region unopened, and the generator register at some state. -/
theorem PhiA1_eq (c : Dev nD) :
    (Pipeline.ΦA spec1 c : sProp 𝕄)
      = iprop(iprop((∃ d, owns (c : Thread nD τ) acc1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [acc1, owns_whole]; try rfl

/-! ## The windows' blocks -/

section Blocks
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- So does the right operand's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.Kernel.Hand

end
-- ==== Proof.Kernel.R1.RunA.lean ====
/-
  Region 1, the body at a point with k = 0: the accumulator is reset to zero, the product of the two blocks added to it, the output block left alone.
  The body is run once on whole staging buffers; the pieces each buffer ends with are found by the run itself.
-/
import proofs.«132851_j4544075399677_1_alg».proof.Proof.Kernel.R1.Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At k = 0: from the two operand blocks at `x0`, `x1`, the output's buffer at `xi2` and the accumulator at anything,
    the body runs to the continuation holding the operands and the output's buffer as they were and the accumulator
    with its pieces `LA` written. No piece for the output. -/
noncomputable def bodyRun1_A (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : isFirst1 i) (hc1 : ¬isLast1 i)
    (x0 : Vec F S2048x1024 .f32) (x1 : Vec F S1024x128 .f32) :
    Σ' (L2 : List (View.Piece (Elt F) S2048x128 .f32)), { LA : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LA)) -∗ K ⟨⟩))
          ⊢ wp frame (wpE (defs₀ (F := F)) Variants.none c none) E (cc1__matmul_kernel i arg2 harg2 arg3 harg3 arg4 harg4 arg5 harg5) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%da, %fa, -, HA⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HA

end Cert.Kernel.Hand

end
-- ==== Proof.Kernel.R1.RunB.lean ====
/-
  Region 1, the body at a point with 0 < k < 7: the product of the two blocks is added to the accumulator, the output block left alone.
  The body is run once on whole staging buffers; the pieces each buffer ends with are found by the run itself.
-/
import proofs.«132851_j4544075399677_1_alg».proof.Proof.Kernel.R1.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At 0 < k < 7: from the two operand blocks at `x0`, `x1`, the output's buffer at `xi2` and the accumulator at what
    the point before left (`xa`), the body runs to the continuation holding the operands and the output's buffer as
    they were and the accumulator with its pieces `LA` written. No piece for the output. -/
noncomputable def bodyRun1_B (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst1 i) (hc1 : ¬isLast1 i)
    (x0 : Vec F S2048x1024 .f32) (x1 : Vec F S1024x128 .f32) (xa : Vec F S2048x128 .f32) :
    Σ' (L2 : List (View.Piece (Elt F) S2048x128 .f32)), { LA : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xa
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LA)) -∗ K ⟨⟩))
          ⊢ wp frame (wpE (defs₀ (F := F)) Variants.none c none) E (cc1__matmul_kernel i arg2 harg2 arg3 harg3 arg4 harg4 arg5 harg5) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fa, %hfa, HA⟩, Hk⟩
    obtain rfl := harg2.eq_unread hf0; obtain rfl := harg3.eq_unread hf1; obtain rfl := harg4.eq_unread hf2; obtain rfl := harg5.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HA

end Cert.Kernel.Hand

end
-- ==== Proof.Kernel.R1.RunC.lean ====
/-
  Region 1, the body at a point with k = 7: the product of the two blocks is added to the accumulator and the accumulator copied to the output block.
  The body is run once on whole staging buffers; the pieces each buffer ends with are found by the run itself.
-/
import proofs.«132851_j4544075399677_1_alg».proof.Proof.Kernel.R1.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At k = 7: from the two operand blocks at `x0`, `x1`, the output's buffer at anything and the accumulator at what the
    point before left (`xa`), the body runs to the continuation holding the operands as they were, the output's
    buffer with its pieces `L2` written and the accumulator with its pieces `LA` written. -/
noncomputable def bodyRun1_C (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst1 i) (hc1 : isLast1 i)
    (x0 : Vec F S2048x1024 .f32) (x1 : Vec F S1024x128 .f32) (xa : Vec F S2048x128 .f32) :
    Σ' (L2 : List (View.Piece (Elt F) S2048x128 .f32)), { LA : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xa
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LA)) -∗ K ⟨⟩))
          ⊢ wp frame (wpE (defs₀ (F := F)) Variants.none c none) E (cc1__matmul_kernel i arg2 harg2 arg3 harg3 arg4 harg4 arg5 harg5) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fa, %hfa, HA⟩, Hk⟩
    obtain rfl := harg2.eq_unread hf0; obtain rfl := harg3.eq_unread hf1; obtain rfl := harg5.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HA

end Cert.Kernel.Hand

end
-- ==== Proof.Kernel.R1.Data.lean ====
/-
  Region 1: what the accumulator and the output block hold after the body, case by case (the pieces each run
  found, read back) and point by point (a recursion on the point: at k = 0 the accumulator restarts from the two
  blocks alone, at every other point it continues from what the point before left; the output block is written
  at k = 7 only); the region's invariant, which carries the accumulator at those contents from one point to the
  next; the pipeline's proof data; and the body obligation at every point, by cases on k.
-/
import proofs.«132851_j4544075399677_1_alg».proof.Proof.Kernel.R1.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

theorem coverA1_A (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : isFirst1 i) (hc1 : ¬isLast1 i) (x0 : Vec F S2048x1024 .f32) (x1 : Vec F S1024x128 .f32) (y : S2048x128.Idx) :
    ∃ pc ∈ (bodyRun1_A c i arg2 harg2 arg3 harg3 arg4 harg4 arg5 harg5 hc0 hc1 x0 x1).2.1, y ∈ pc.1.set :=
  View.cover_of_tiledL (bodyRun1_A c i arg2 harg2 arg3 harg3 arg4 harg4 arg5 harg5 hc0 hc1 x0 x1).2.1 S2048x128.size (by sl_kernel_rfl) y
/-- The accumulator after a point with k = 0. -/
def accAfter1_A (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : isFirst1 i) (hc1 : ¬isLast1 i) (x0 : Vec F S2048x1024 .f32) (x1 : Vec F S1024x128 .f32) : Vec F S2048x128 .f32 :=
  VA1.read (Elt F) (VA1.writes (Elt F) VA1.junk (bodyRun1_A c i arg2 harg2 arg3 harg3 arg4 harg4 arg5 harg5 hc0 hc1 x0 x1).2.1)

theorem coverA1_B (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst1 i) (hc1 : ¬isLast1 i) (x0 : Vec F S2048x1024 .f32) (x1 : Vec F S1024x128 .f32) (xa : Vec F S2048x128 .f32) (y : S2048x128.Idx) :
    ∃ pc ∈ (bodyRun1_B c i arg2 harg2 arg3 harg3 arg4 harg4 arg5 harg5 hc0 hc1 x0 x1 xa).2.1, y ∈ pc.1.set :=
  View.cover_of_tiledL (bodyRun1_B c i arg2 harg2 arg3 harg3 arg4 harg4 arg5 harg5 hc0 hc1 x0 x1 xa).2.1 S2048x128.size (by sl_kernel_rfl) y
/-- The accumulator after a point with 0 < k < 7, from what the point before left. -/
def accAfter1_B (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst1 i) (hc1 : ¬isLast1 i) (x0 : Vec F S2048x1024 .f32) (x1 : Vec F S1024x128 .f32) (xa : Vec F S2048x128 .f32) : Vec F S2048x128 .f32 :=
  VA1.read (Elt F) (VA1.writes (Elt F) VA1.junk (bodyRun1_B c i arg2 harg2 arg3 harg3 arg4 harg4 arg5 harg5 hc0 hc1 x0 x1 xa).2.1)

theorem coverO1_C (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst1 i) (hc1 : isLast1 i) (x0 : Vec F S2048x1024 .f32) (x1 : Vec F S1024x128 .f32) (xa : Vec F S2048x128 .f32) (y : S2048x128.Idx) :
    ∃ pc ∈ (bodyRun1_C c i arg2 harg2 arg3 harg3 arg4 harg4 arg5 harg5 hc0 hc1 x0 x1 xa).1, y ∈ pc.1.set :=
  View.cover_of_tiledL (bodyRun1_C c i arg2 harg2 arg3 harg3 arg4 harg4 arg5 harg5 hc0 hc1 x0 x1 xa).1 S2048x128.size (by sl_kernel_rfl) y
/-- The output block after a point with k = 7. -/
def outAfter1_C (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst1 i) (hc1 : isLast1 i) (x0 : Vec F S2048x1024 .f32) (x1 : Vec F S1024x128 .f32) (xa : Vec F S2048x128 .f32) : Vec F S2048x128 .f32 :=
  VO1.read (Elt F) (VO1.writes (Elt F) VO1.junk (bodyRun1_C c i arg2 harg2 arg3 harg3 arg4 harg4 arg5 harg5 hc0 hc1 x0 x1 xa).1)
theorem coverA1_C (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst1 i) (hc1 : isLast1 i) (x0 : Vec F S2048x1024 .f32) (x1 : Vec F S1024x128 .f32) (xa : Vec F S2048x128 .f32) (y : S2048x128.Idx) :
    ∃ pc ∈ (bodyRun1_C c i arg2 harg2 arg3 harg3 arg4 harg4 arg5 harg5 hc0 hc1 x0 x1 xa).2.1, y ∈ pc.1.set :=
  View.cover_of_tiledL (bodyRun1_C c i arg2 harg2 arg3 harg3 arg4 harg4 arg5 harg5 hc0 hc1 x0 x1 xa).2.1 S2048x128.size (by sl_kernel_rfl) y
/-- The accumulator after a point with k = 7. -/
def accAfter1_C (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst1 i) (hc1 : isLast1 i) (x0 : Vec F S2048x1024 .f32) (x1 : Vec F S1024x128 .f32) (xa : Vec F S2048x128 .f32) : Vec F S2048x128 .f32 :=
  VA1.read (Elt F) (VA1.writes (Elt F) VA1.junk (bodyRun1_C c i arg2 harg2 arg3 harg3 arg4 harg4 arg5 harg5 hc0 hc1 x0 x1 xa).2.1)

/-- The output block at a point where nothing is stored into it: a placeholder nothing consults (the block is
    neither written back there nor read at the next point). -/
def idleOut1 : Vec F S2048x128 .f32 := VO1.read (Elt F) VO1.junk

section Data
variable (V : (c : Dev nD) → (b : Ref sig .tc) → Buf (Elt F) ((c : Thread nD τ).loc b))

/-! ## Point by point -/

/-- What the output's staging buffer and the accumulator hold after the body at position `n`. -/
def outsAt1 (c : Dev nD) : (n : ℕ) → n < cfg1.N → Vec F S2048x128 .f32 × Vec F S2048x128 .f32
  | 0, hn => (idleOut1, accAfter1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) acc1 (Memref.isWhole_whole _) ((hFirst1 ⟨0, hn⟩).mpr (Nat.zero_mod _)) (fun h => (fun h => by (try dsimp only at h); omega) ((hLast1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (idleOut1, accAfter1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) acc1 (Memref.isWhole_whole _) ((hFirst1 ⟨n + 1, hn⟩).mpr h0) (fun h => h1 ((hLast1 ⟨n + 1, hn⟩).mp h)) (iblk1 V c 0 ⟨n + 1, hn⟩) (iblk1 V c 1 ⟨n + 1, hn⟩))
    else
      if h1 : (n + 1) % 8 = 7 then
        (outAfter1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) acc1 (Memref.isWhole_whole _) (fun h => h0 ((hFirst1 ⟨n + 1, hn⟩).mp h)) ((hLast1 ⟨n + 1, hn⟩).mpr h1) (iblk1 V c 0 ⟨n + 1, hn⟩) (iblk1 V c 1 ⟨n + 1, hn⟩) (outsAt1 c n (Nat.lt_of_succ_lt hn)).2, accAfter1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) acc1 (Memref.isWhole_whole _) (fun h => h0 ((hFirst1 ⟨n + 1, hn⟩).mp h)) ((hLast1 ⟨n + 1, hn⟩).mpr h1) (iblk1 V c 0 ⟨n + 1, hn⟩) (iblk1 V c 1 ⟨n + 1, hn⟩) (outsAt1 c n (Nat.lt_of_succ_lt hn)).2)
      else
        (idleOut1, accAfter1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) acc1 (Memref.isWhole_whole _) (fun h => h0 ((hFirst1 ⟨n + 1, hn⟩).mp h)) (fun h => h1 ((hLast1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (idleOut1, accAfter1_A c (grid1.coords t) (ms1_0 t) (hs1_0 t) (ms1_1 t) (hs1_1 t) (ms1_2 t) (hs1_2 t) acc1 (Memref.isWhole_whole _) ((hFirst1 t).mpr h0) (fun h => h1 ((hLast1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (idleOut1, accAfter1_B c (grid1.coords t) (ms1_0 t) (hs1_0 t) (ms1_1 t) (hs1_1 t) (ms1_2 t) (hs1_2 t) acc1 (Memref.isWhole_whole _) (fun h => h0 ((hFirst1 t).mp h)) (fun h => h1 ((hLast1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (outAfter1_C c (grid1.coords t) (ms1_0 t) (hs1_0 t) (ms1_1 t) (hs1_1 t) (ms1_2 t) (hs1_2 t) acc1 (Memref.isWhole_whole _) (fun h => h0 ((hFirst1 t).mp h)) ((hLast1 t).mpr h1) (iblk1 V c 0 t) (iblk1 V c 1 t) (outsAt1 V c (t.val - 1) (Nat.lt_of_le_of_lt (Nat.sub_le _ _) t.isLt)).2, accAfter1_C c (grid1.coords t) (ms1_0 t) (hs1_0 t) (ms1_1 t) (hs1_1 t) (ms1_2 t) (hs1_2 t) acc1 (Memref.isWhole_whole _) (fun h => h0 ((hFirst1 t).mp h)) ((hLast1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the region's entry the class invariant (the accumulator at anything); afterwards the
    accumulator at what the point before left, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) acc1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) acc1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) acc1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The arrays as the region finds them; after the body each operand's buffer at its block and the output's at
    `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the operands' buffers hold their blocks; the closed forms say which case the point is in;
    the invariant hands the body the accumulator at what the point before left (at anything at the region's first
    point, and the reset at k = 0 needs nothing of it) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  by_cases h0 : t.val % 8 = 0
  · have h1 : ¬t.val % 8 = 7 := by omega
    rw [Dat.leavesExact_idle (dat1 V c) 2 t (idle1_2 t (fun h => h1 ((hLast1 t).mp h))) (noFlush1_2 t (fun h => h1 ((hLast1 t).mp h)))]
    rw [outsAt1_A V c t h0 h1]
    unfold accAfter1_A; (try dsimp only)
    by_cases hz : t.val = 0
    · rw [PhiS1_castSucc V c t, PhiS1_zero V c _ _ hz, PhiA1_eq]
      iintro ⟨⟨⟨HA, Hrest⟩, Hg⟩, Ho, ⟨%d0, H0⟩, ⟨%d1, H1⟩, ⟨%d2, H2⟩⟩
      iapply ((bodyRun1_A c (grid1.coords t) _ _ _ _ _ _ _ _ ((hFirst1 t).mpr h0) (fun h => h1 ((hLast1 t).mp h)) (iblk1 V c 0 t) (iblk1 V c 1 t)).2.2 _ Set.univ _)
      isplitl [H0]; · iexact H0
      isplitl [H1]; · iexact H1
      isplitl [H2]; · iexact H2
      isplitl [HA]; · iexact HA
      iintro ⟨H0, H1, H2, ⟨%ea, HA⟩⟩
      isplitl [HA Hrest Hg]
      · isplitl [HA Hrest]
        · isplitl [HA]
          · unfold owns; iexists _; isplitr
            swap; · iexact HA
            ipureintro; exact View.read_writes_of_cover _ _ _ _ _ (coverA1_A c _ _ _ _ _ _ _ _ _ _ _ _ _)
          iexact Hrest
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HA, Hrest⟩, Hg⟩, Ho, ⟨%d0, H0⟩, ⟨%d1, H1⟩, ⟨%d2, H2⟩⟩
      iapply ((bodyRun1_A c (grid1.coords t) _ _ _ _ _ _ _ _ ((hFirst1 t).mpr h0) (fun h => h1 ((hLast1 t).mp h)) (iblk1 V c 0 t) (iblk1 V c 1 t)).2.2 _ Set.univ _)
      isplitl [H0]; · iexact H0
      isplitl [H1]; · iexact H1
      isplitl [H2]; · iexact H2
      isplitl [HA]; · iexists _; iexact HA
      iintro ⟨H0, H1, H2, ⟨%ea, HA⟩⟩
      isplitl [HA Hrest Hg]
      · isplitl [HA Hrest]
        · isplitl [HA]
          · unfold owns; iexists _; isplitr
            swap; · iexact HA
            ipureintro; exact View.read_writes_of_cover _ _ _ _ _ (coverA1_A c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := by omega
    by_cases h1 : t.val % 8 = 7
    · rw [show (dat1 V c).leavesExact 2 t = owns (c : Thread nD τ) (ms1_2 t) fullShare ((dat1 V c).after 2 t) from by
        unfold Dat.leavesExact; rw [live1_2 t ((hLast1 t).mpr h1)], after1_2]
      rw [outsAt1_C V c t h0 h1]
      unfold outAfter1_C accAfter1_C; (try dsimp only)
      rw [PhiS1_castSucc V c t, PhiS1_pos V c _ _ hz]
      iintro ⟨⟨⟨HA, Hrest⟩, Hg⟩, Ho, ⟨%d0, H0⟩, ⟨%d1, H1⟩, ⟨%d2, H2⟩⟩
      iapply ((bodyRun1_C c (grid1.coords t) _ _ _ _ _ _ _ _ (fun h => h0 ((hFirst1 t).mp h)) ((hLast1 t).mpr h1) (iblk1 V c 0 t) (iblk1 V c 1 t) _).2.2 Set.univ _)
      isplitl [H0]; · iexact H0
      isplitl [H1]; · iexact H1
      isplitl [H2]; · iexists _; iexact H2
      isplitl [HA]; · iexact HA
      iintro ⟨H0, H1, ⟨%e2, H2⟩, ⟨%ea, HA⟩⟩
      isplitl [HA Hrest Hg]
      · isplitl [HA Hrest]
        · isplitl [HA]
          · unfold owns; iexists _; isplitr
            swap; · iexact HA
            ipureintro; exact View.read_writes_of_cover _ _ _ _ _ (coverA1_C c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverO1_C c _ _ _ _ _ _ _ _ _ _ _ _ _ _)
    · rw [Dat.leavesExact_idle (dat1 V c) 2 t (idle1_2 t (fun h => h1 ((hLast1 t).mp h))) (noFlush1_2 t (fun h => h1 ((hLast1 t).mp h)))]
      rw [outsAt1_B V c t h0 h1]
      unfold accAfter1_B; (try dsimp only)
      rw [PhiS1_castSucc V c t, PhiS1_pos V c _ _ hz]
      iintro ⟨⟨⟨HA, Hrest⟩, Hg⟩, Ho, ⟨%d0, H0⟩, ⟨%d1, H1⟩, ⟨%d2, H2⟩⟩
      iapply ((bodyRun1_B c (grid1.coords t) _ _ _ _ _ _ _ _ (fun h => h0 ((hFirst1 t).mp h)) (fun h => h1 ((hLast1 t).mp h)) (iblk1 V c 0 t) (iblk1 V c 1 t) _).2.2 _ Set.univ _)
      isplitl [H0]; · iexact H0
      isplitl [H1]; · iexact H1
      isplitl [H2]; · iexact H2
      isplitl [HA]; · iexact HA
      iintro ⟨H0, H1, H2, ⟨%ea, HA⟩⟩
      isplitl [HA Hrest Hg]
      · isplitl [HA Hrest]
        · isplitl [HA]
          · unfold owns; iexists _; isplitr
            swap; · iexact HA
            ipureintro; exact View.read_writes_of_cover _ _ _ _ _ (coverA1_B c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HA, Hrest⟩, Hg⟩
  isplitl [HA Hrest]
  · isplitl [HA]; · iexists _; iexact HA
    iexact Hrest
  iexact Hg

end Data

end Cert.Kernel.Hand

end
-- ==== Proof.Kernel.R2.Defs.lean ====
/-
  Region 2 of the program: one tiled matrix product on a 4 × 8 grid of points t = 8·i + k (i the row tile of
  2048 rows, k the tile of 1024 along the contracted axis). What the three control cases of the body share:
  the two conditions on the point in closed form over the grid (k = 0, where the accumulator is reset; k = 7,
  where it is copied to the output block), the points where the output window is idle and not written back
  (every point with k ≠ 7), the staging buffers the body is called with, the accumulator's buffer, the class
  invariant with the accumulator's buffer split off the other scoped buffers, and each window's block read off
  the arrays as the region finds them.
-/
import proofs.«132851_j4544075399677_1_alg».proof.Proof.Gen.Kernel.Launch
import proofs.«132851_j4544075399677_1_alg».proof.Proof.Gen.Kernel.Skeleton
import proofs.«132851_j4544075399677_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions on the point -/

/-- The accumulator is reset at this point: the body's first conditional, from the grid coordinates. -/
abbrev isFirst2 (i : grid2.Coords) : Prop :=
  (Scalar.cmpi .ne (Scalar.extui (Scalar.cmpi .eq (BitVec.ofNat 32 (i 1).val) 0#32)) 0#32) = 1#1
/-- It holds exactly at the points with k = 0. -/
theorem hFirst2 : ∀ t : Fin cfg2.N, isFirst2 (grid2.coords t) ↔ t.val % 8 = 0 :=
  (by decide +kernel : ∀ t : Fin grid2.N, isFirst2 (grid2.coords t) ↔ t.val % 8 = 0)

/-- The accumulator is copied to the output block at this point: the body's second conditional. -/
abbrev isLast2 (i : grid2.Coords) : Prop := k2_cond2 i = 1#1
/-- It holds exactly at the points with k = 7. -/
theorem hLast2 : ∀ t : Fin cfg2.N, isLast2 (grid2.coords t) ↔ t.val % 8 = 7 :=
  (by decide +kernel : ∀ t : Fin grid2.N, isLast2 (grid2.coords t) ↔ t.val % 8 = 7)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
/-- Away from k = 7 the body stores nothing into the output block, -/
theorem idle2_2 : ∀ t : Fin cfg2.N, ¬isLast2 (grid2.coords t) → cfg2.idle 2 (grid2.coords t) = true := by decide +kernel
/-- and the block is not written back there. -/
theorem noFlush2_2 : ∀ t : Fin cfg2.N, ¬isLast2 (grid2.coords t) → (cfg2.win 2).flush t = false := by decide +kernel
/-- At k = 7 it stores the whole block. -/
theorem live2_2 : ∀ t : Fin cfg2.N, isLast2 (grid2.coords t) → cfg2.idle 2 (grid2.coords t) = false := by decide +kernel

/-! ## The buffers the body is called with -/

abbrev ms2_0 (t : Fin cfg2.N) : Memref sig .tc .vmem S2048x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x128 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev acc2 : Memref sig .tc .vmem S2048x128 .f32 := Memref.whole cc2_scratch0
/-- The views through which the output block's and the accumulator's contents are stated. -/
abbrev VO2 : View sig .tc .vmem S2048x128 .f32 := (Memref.whole cc2_stg2_0 : Memref sig .tc .vmem S2048x128 .f32).view
abbrev VA2 : View sig .tc .vmem S2048x128 .f32 := acc2.view

/-- The class invariant with the accumulator's buffer owned at some contents, every other scoped buffer that is
    no staging buffer of this region unopened, and the generator register at some state. -/
theorem PhiA2_eq (c : Dev nD) :
    (Pipeline.ΦA spec2 c : sProp 𝕄)
      = iprop(iprop((∃ d, owns (c : Thread nD τ) acc2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [acc2, owns_whole]; try rfl

/-! ## The windows' blocks -/

section Blocks
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's current staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- So does the right operand's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end Blocks

end Cert.Kernel.Hand

end
-- ==== Proof.Kernel.R2.RunA.lean ====
/-
  Region 2, the body at a point with k = 0: the accumulator is reset to zero, the product of the two blocks added to it, the output block left alone.
  The body is run once on whole staging buffers; the pieces each buffer ends with are found by the run itself.
-/
import proofs.«132851_j4544075399677_1_alg».proof.Proof.Kernel.R2.Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At k = 0: from the two operand blocks at `x0`, `x1`, the output's buffer at `xi2` and the accumulator at anything,
    the body runs to the continuation holding the operands and the output's buffer as they were and the accumulator
    with its pieces `LA` written. No piece for the output. -/
noncomputable def bodyRun2_A (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : isFirst2 i) (hc1 : ¬isLast2 i)
    (x0 : Vec F S2048x1024 .f32) (x1 : Vec F S1024x128 .f32) :
    Σ' (L2 : List (View.Piece (Elt F) S2048x128 .f32)), { LA : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LA)) -∗ K ⟨⟩))
          ⊢ wp frame (wpE (defs₀ (F := F)) Variants.none c none) E (cc2__matmul_kernel i arg2 harg2 arg3 harg3 arg4 harg4 arg5 harg5) K } := by
  refine ⟨[], ?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%da, %fa, -, HA⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HA

end Cert.Kernel.Hand

end
-- ==== Proof.Kernel.R2.RunB.lean ====
/-
  Region 2, the body at a point with 0 < k < 7: the product of the two blocks is added to the accumulator, the output block left alone.
  The body is run once on whole staging buffers; the pieces each buffer ends with are found by the run itself.
-/
import proofs.«132851_j4544075399677_1_alg».proof.Proof.Kernel.R2.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At 0 < k < 7: from the two operand blocks at `x0`, `x1`, the output's buffer at `xi2` and the accumulator at what
    the point before left (`xa`), the body runs to the continuation holding the operands and the output's buffer as
    they were and the accumulator with its pieces `LA` written. No piece for the output. -/
noncomputable def bodyRun2_B (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst2 i) (hc1 : ¬isLast2 i)
    (x0 : Vec F S2048x1024 .f32) (x1 : Vec F S1024x128 .f32) (xa : Vec F S2048x128 .f32) :
    Σ' (L2 : List (View.Piece (Elt F) S2048x128 .f32)), { LA : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xa
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LA)) -∗ K ⟨⟩))
          ⊢ wp frame (wpE (defs₀ (F := F)) Variants.none c none) E (cc2__matmul_kernel i arg2 harg2 arg3 harg3 arg4 harg4 arg5 harg5) K } := by
  refine ⟨[], ?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%fa, %hfa, HA⟩, Hk⟩
    obtain rfl := harg2.eq_unread hf0; obtain rfl := harg3.eq_unread hf1; obtain rfl := harg4.eq_unread hf2; obtain rfl := harg5.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HA

end Cert.Kernel.Hand

end
-- ==== Proof.Kernel.R2.RunC.lean ====
/-
  Region 2, the body at a point with k = 7: the product of the two blocks is added to the accumulator and the accumulator copied to the output block.
  The body is run once on whole staging buffers; the pieces each buffer ends with are found by the run itself.
-/
import proofs.«132851_j4544075399677_1_alg».proof.Proof.Kernel.R2.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At k = 7: from the two operand blocks at `x0`, `x1`, the output's buffer at anything and the accumulator at what the
    point before left (`xa`), the body runs to the continuation holding the operands as they were, the output's
    buffer with its pieces `L2` written and the accumulator with its pieces `LA` written. -/
noncomputable def bodyRun2_C (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst2 i) (hc1 : isLast2 i)
    (x0 : Vec F S2048x1024 .f32) (x1 : Vec F S1024x128 .f32) (xa : Vec F S2048x128 .f32) :
    Σ' (L2 : List (View.Piece (Elt F) S2048x128 .f32)), { LA : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xa
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LA)) -∗ K ⟨⟩))
          ⊢ wp frame (wpE (defs₀ (F := F)) Variants.none c none) E (cc2__matmul_kernel i arg2 harg2 arg3 harg3 arg4 harg4 arg5 harg5) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%d2, %f2, -, H2⟩, ⟨%fa, %hfa, HA⟩, Hk⟩
    obtain rfl := harg2.eq_unread hf0; obtain rfl := harg3.eq_unread hf1; obtain rfl := harg5.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HA

end Cert.Kernel.Hand

end
-- ==== Proof.Kernel.R2.Data.lean ====
/-
  Region 2: what the accumulator and the output block hold after the body, case by case (the pieces each run
  found, read back) and point by point (a recursion on the point: at k = 0 the accumulator restarts from the two
  blocks alone, at every other point it continues from what the point before left; the output block is written
  at k = 7 only); the region's invariant, which carries the accumulator at those contents from one point to the
  next; the pipeline's proof data; and the body obligation at every point, by cases on k.
-/
import proofs.«132851_j4544075399677_1_alg».proof.Proof.Kernel.R2.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

theorem coverA2_A (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : isFirst2 i) (hc1 : ¬isLast2 i) (x0 : Vec F S2048x1024 .f32) (x1 : Vec F S1024x128 .f32) (y : S2048x128.Idx) :
    ∃ pc ∈ (bodyRun2_A c i arg2 harg2 arg3 harg3 arg4 harg4 arg5 harg5 hc0 hc1 x0 x1).2.1, y ∈ pc.1.set :=
  View.cover_of_tiledL (bodyRun2_A c i arg2 harg2 arg3 harg3 arg4 harg4 arg5 harg5 hc0 hc1 x0 x1).2.1 S2048x128.size (by sl_kernel_rfl) y
/-- The accumulator after a point with k = 0. -/
def accAfter2_A (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : isFirst2 i) (hc1 : ¬isLast2 i) (x0 : Vec F S2048x1024 .f32) (x1 : Vec F S1024x128 .f32) : Vec F S2048x128 .f32 :=
  VA2.read (Elt F) (VA2.writes (Elt F) VA2.junk (bodyRun2_A c i arg2 harg2 arg3 harg3 arg4 harg4 arg5 harg5 hc0 hc1 x0 x1).2.1)

theorem coverA2_B (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst2 i) (hc1 : ¬isLast2 i) (x0 : Vec F S2048x1024 .f32) (x1 : Vec F S1024x128 .f32) (xa : Vec F S2048x128 .f32) (y : S2048x128.Idx) :
    ∃ pc ∈ (bodyRun2_B c i arg2 harg2 arg3 harg3 arg4 harg4 arg5 harg5 hc0 hc1 x0 x1 xa).2.1, y ∈ pc.1.set :=
  View.cover_of_tiledL (bodyRun2_B c i arg2 harg2 arg3 harg3 arg4 harg4 arg5 harg5 hc0 hc1 x0 x1 xa).2.1 S2048x128.size (by sl_kernel_rfl) y
/-- The accumulator after a point with 0 < k < 7, from what the point before left. -/
def accAfter2_B (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst2 i) (hc1 : ¬isLast2 i) (x0 : Vec F S2048x1024 .f32) (x1 : Vec F S1024x128 .f32) (xa : Vec F S2048x128 .f32) : Vec F S2048x128 .f32 :=
  VA2.read (Elt F) (VA2.writes (Elt F) VA2.junk (bodyRun2_B c i arg2 harg2 arg3 harg3 arg4 harg4 arg5 harg5 hc0 hc1 x0 x1 xa).2.1)

theorem coverO2_C (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst2 i) (hc1 : isLast2 i) (x0 : Vec F S2048x1024 .f32) (x1 : Vec F S1024x128 .f32) (xa : Vec F S2048x128 .f32) (y : S2048x128.Idx) :
    ∃ pc ∈ (bodyRun2_C c i arg2 harg2 arg3 harg3 arg4 harg4 arg5 harg5 hc0 hc1 x0 x1 xa).1, y ∈ pc.1.set :=
  View.cover_of_tiledL (bodyRun2_C c i arg2 harg2 arg3 harg3 arg4 harg4 arg5 harg5 hc0 hc1 x0 x1 xa).1 S2048x128.size (by sl_kernel_rfl) y
/-- The output block after a point with k = 7. -/
def outAfter2_C (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst2 i) (hc1 : isLast2 i) (x0 : Vec F S2048x1024 .f32) (x1 : Vec F S1024x128 .f32) (xa : Vec F S2048x128 .f32) : Vec F S2048x128 .f32 :=
  VO2.read (Elt F) (VO2.writes (Elt F) VO2.junk (bodyRun2_C c i arg2 harg2 arg3 harg3 arg4 harg4 arg5 harg5 hc0 hc1 x0 x1 xa).1)
theorem coverA2_C (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst2 i) (hc1 : isLast2 i) (x0 : Vec F S2048x1024 .f32) (x1 : Vec F S1024x128 .f32) (xa : Vec F S2048x128 .f32) (y : S2048x128.Idx) :
    ∃ pc ∈ (bodyRun2_C c i arg2 harg2 arg3 harg3 arg4 harg4 arg5 harg5 hc0 hc1 x0 x1 xa).2.1, y ∈ pc.1.set :=
  View.cover_of_tiledL (bodyRun2_C c i arg2 harg2 arg3 harg3 arg4 harg4 arg5 harg5 hc0 hc1 x0 x1 xa).2.1 S2048x128.size (by sl_kernel_rfl) y
/-- The accumulator after a point with k = 7. -/
def accAfter2_C (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst2 i) (hc1 : isLast2 i) (x0 : Vec F S2048x1024 .f32) (x1 : Vec F S1024x128 .f32) (xa : Vec F S2048x128 .f32) : Vec F S2048x128 .f32 :=
  VA2.read (Elt F) (VA2.writes (Elt F) VA2.junk (bodyRun2_C c i arg2 harg2 arg3 harg3 arg4 harg4 arg5 harg5 hc0 hc1 x0 x1 xa).2.1)

/-- The output block at a point where nothing is stored into it: a placeholder nothing consults (the block is
    neither written back there nor read at the next point). -/
def idleOut2 : Vec F S2048x128 .f32 := VO2.read (Elt F) VO2.junk

section Data
variable (V : (c : Dev nD) → (b : Ref sig .tc) → Buf (Elt F) ((c : Thread nD τ).loc b))

/-! ## Point by point -/

/-- What the output's staging buffer and the accumulator hold after the body at position `n`. -/
def outsAt2 (c : Dev nD) : (n : ℕ) → n < cfg2.N → Vec F S2048x128 .f32 × Vec F S2048x128 .f32
  | 0, hn => (idleOut2, accAfter2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) acc2 (Memref.isWhole_whole _) ((hFirst2 ⟨0, hn⟩).mpr (Nat.zero_mod _)) (fun h => (fun h => by (try dsimp only at h); omega) ((hLast2 ⟨0, hn⟩).mp h)) (iblk2 V c 0 ⟨0, hn⟩) (iblk2 V c 1 ⟨0, hn⟩))
  | n + 1, hn =>
    if h0 : (n + 1) % 8 = 0 then
      if h1 : (n + 1) % 8 = 7 then
        False.elim (by omega)
      else
        (idleOut2, accAfter2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) acc2 (Memref.isWhole_whole _) ((hFirst2 ⟨n + 1, hn⟩).mpr h0) (fun h => h1 ((hLast2 ⟨n + 1, hn⟩).mp h)) (iblk2 V c 0 ⟨n + 1, hn⟩) (iblk2 V c 1 ⟨n + 1, hn⟩))
    else
      if h1 : (n + 1) % 8 = 7 then
        (outAfter2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) acc2 (Memref.isWhole_whole _) (fun h => h0 ((hFirst2 ⟨n + 1, hn⟩).mp h)) ((hLast2 ⟨n + 1, hn⟩).mpr h1) (iblk2 V c 0 ⟨n + 1, hn⟩) (iblk2 V c 1 ⟨n + 1, hn⟩) (outsAt2 c n (Nat.lt_of_succ_lt hn)).2, accAfter2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) acc2 (Memref.isWhole_whole _) (fun h => h0 ((hFirst2 ⟨n + 1, hn⟩).mp h)) ((hLast2 ⟨n + 1, hn⟩).mpr h1) (iblk2 V c 0 ⟨n + 1, hn⟩) (iblk2 V c 1 ⟨n + 1, hn⟩) (outsAt2 c n (Nat.lt_of_succ_lt hn)).2)
      else
        (idleOut2, accAfter2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) acc2 (Memref.isWhole_whole _) (fun h => h0 ((hFirst2 ⟨n + 1, hn⟩).mp h)) (fun h => h1 ((hLast2 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 8 = 0) (h1 : ¬t.val % 8 = 7) :
    outsAt2 V c t.val t.isLt = (idleOut2, accAfter2_A c (grid2.coords t) (ms2_0 t) (hs2_0 t) (ms2_1 t) (hs2_1 t) (ms2_2 t) (hs2_2 t) acc2 (Memref.isWhole_whole _) ((hFirst2 t).mpr h0) (fun h => h1 ((hLast2 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = (idleOut2, accAfter2_B c (grid2.coords t) (ms2_0 t) (hs2_0 t) (ms2_1 t) (hs2_1 t) (ms2_2 t) (hs2_2 t) acc2 (Memref.isWhole_whole _) (fun h => h0 ((hFirst2 t).mp h)) (fun h => h1 ((hLast2 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = (outAfter2_C c (grid2.coords t) (ms2_0 t) (hs2_0 t) (ms2_1 t) (hs2_1 t) (ms2_2 t) (hs2_2 t) acc2 (Memref.isWhole_whole _) (fun h => h0 ((hFirst2 t).mp h)) ((hLast2 t).mpr h1) (iblk2 V c 0 t) (iblk2 V c 1 t) (outsAt2 V c (t.val - 1) (Nat.lt_of_le_of_lt (Nat.sub_le _ _) t.isLt)).2, accAfter2_C c (grid2.coords t) (ms2_0 t) (hs2_0 t) (ms2_1 t) (hs2_1 t) (ms2_2 t) (hs2_2 t) acc2 (Memref.isWhole_whole _) (fun h => h0 ((hFirst2 t).mp h)) ((hLast2 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the region's entry the class invariant (the accumulator at anything); afterwards the
    accumulator at what the point before left, the other scoped buffers unopened, the generator register at some state. -/
def PhiS2 (c : Dev nD) : (n : ℕ) → n ≤ cfg2.N → sProp 𝕄
  | 0, _ => Pipeline.ΦA spec2 c
  | n + 1, hn => iprop(iprop(owns (c : Thread nD τ) acc2 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) acc2 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) acc2 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

/-- The arrays as the region finds them; after the body each operand's buffer at its block and the output's at
    `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the operands' buffers hold their blocks; the closed forms say which case the point is in;
    the invariant hands the body the accumulator at what the point before left (at anything at the region's first
    point, and the reset at k = 0 needs nothing of it) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  by_cases h0 : t.val % 8 = 0
  · have h1 : ¬t.val % 8 = 7 := by omega
    rw [Dat.leavesExact_idle (dat2 V c) 2 t (idle2_2 t (fun h => h1 ((hLast2 t).mp h))) (noFlush2_2 t (fun h => h1 ((hLast2 t).mp h)))]
    rw [outsAt2_A V c t h0 h1]
    unfold accAfter2_A; (try dsimp only)
    by_cases hz : t.val = 0
    · rw [PhiS2_castSucc V c t, PhiS2_zero V c _ _ hz, PhiA2_eq]
      iintro ⟨⟨⟨HA, Hrest⟩, Hg⟩, Ho, ⟨%d0, H0⟩, ⟨%d1, H1⟩, ⟨%d2, H2⟩⟩
      iapply ((bodyRun2_A c (grid2.coords t) _ _ _ _ _ _ _ _ ((hFirst2 t).mpr h0) (fun h => h1 ((hLast2 t).mp h)) (iblk2 V c 0 t) (iblk2 V c 1 t)).2.2 _ Set.univ _)
      isplitl [H0]; · iexact H0
      isplitl [H1]; · iexact H1
      isplitl [H2]; · iexact H2
      isplitl [HA]; · iexact HA
      iintro ⟨H0, H1, H2, ⟨%ea, HA⟩⟩
      isplitl [HA Hrest Hg]
      · isplitl [HA Hrest]
        · isplitl [HA]
          · unfold owns; iexists _; isplitr
            swap; · iexact HA
            ipureintro; exact View.read_writes_of_cover _ _ _ _ _ (coverA2_A c _ _ _ _ _ _ _ _ _ _ _ _ _)
          iexact Hrest
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HA, Hrest⟩, Hg⟩, Ho, ⟨%d0, H0⟩, ⟨%d1, H1⟩, ⟨%d2, H2⟩⟩
      iapply ((bodyRun2_A c (grid2.coords t) _ _ _ _ _ _ _ _ ((hFirst2 t).mpr h0) (fun h => h1 ((hLast2 t).mp h)) (iblk2 V c 0 t) (iblk2 V c 1 t)).2.2 _ Set.univ _)
      isplitl [H0]; · iexact H0
      isplitl [H1]; · iexact H1
      isplitl [H2]; · iexact H2
      isplitl [HA]; · iexists _; iexact HA
      iintro ⟨H0, H1, H2, ⟨%ea, HA⟩⟩
      isplitl [HA Hrest Hg]
      · isplitl [HA Hrest]
        · isplitl [HA]
          · unfold owns; iexists _; isplitr
            swap; · iexact HA
            ipureintro; exact View.read_writes_of_cover _ _ _ _ _ (coverA2_A c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := by omega
    by_cases h1 : t.val % 8 = 7
    · rw [show (dat2 V c).leavesExact 2 t = owns (c : Thread nD τ) (ms2_2 t) fullShare ((dat2 V c).after 2 t) from by
        unfold Dat.leavesExact; rw [live2_2 t ((hLast2 t).mpr h1)], after2_2]
      rw [outsAt2_C V c t h0 h1]
      unfold outAfter2_C accAfter2_C; (try dsimp only)
      rw [PhiS2_castSucc V c t, PhiS2_pos V c _ _ hz]
      iintro ⟨⟨⟨HA, Hrest⟩, Hg⟩, Ho, ⟨%d0, H0⟩, ⟨%d1, H1⟩, ⟨%d2, H2⟩⟩
      iapply ((bodyRun2_C c (grid2.coords t) _ _ _ _ _ _ _ _ (fun h => h0 ((hFirst2 t).mp h)) ((hLast2 t).mpr h1) (iblk2 V c 0 t) (iblk2 V c 1 t) _).2.2 Set.univ _)
      isplitl [H0]; · iexact H0
      isplitl [H1]; · iexact H1
      isplitl [H2]; · iexists _; iexact H2
      isplitl [HA]; · iexact HA
      iintro ⟨H0, H1, ⟨%e2, H2⟩, ⟨%ea, HA⟩⟩
      isplitl [HA Hrest Hg]
      · isplitl [HA Hrest]
        · isplitl [HA]
          · unfold owns; iexists _; isplitr
            swap; · iexact HA
            ipureintro; exact View.read_writes_of_cover _ _ _ _ _ (coverA2_C c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverO2_C c _ _ _ _ _ _ _ _ _ _ _ _ _ _)
    · rw [Dat.leavesExact_idle (dat2 V c) 2 t (idle2_2 t (fun h => h1 ((hLast2 t).mp h))) (noFlush2_2 t (fun h => h1 ((hLast2 t).mp h)))]
      rw [outsAt2_B V c t h0 h1]
      unfold accAfter2_B; (try dsimp only)
      rw [PhiS2_castSucc V c t, PhiS2_pos V c _ _ hz]
      iintro ⟨⟨⟨HA, Hrest⟩, Hg⟩, Ho, ⟨%d0, H0⟩, ⟨%d1, H1⟩, ⟨%d2, H2⟩⟩
      iapply ((bodyRun2_B c (grid2.coords t) _ _ _ _ _ _ _ _ (fun h => h0 ((hFirst2 t).mp h)) (fun h => h1 ((hLast2 t).mp h)) (iblk2 V c 0 t) (iblk2 V c 1 t) _).2.2 _ Set.univ _)
      isplitl [H0]; · iexact H0
      isplitl [H1]; · iexact H1
      isplitl [H2]; · iexact H2
      isplitl [HA]; · iexact HA
      iintro ⟨H0, H1, H2, ⟨%ea, HA⟩⟩
      isplitl [HA Hrest Hg]
      · isplitl [HA Hrest]
        · isplitl [HA]
          · unfold owns; iexists _; isplitr
            swap; · iexact HA
            ipureintro; exact View.read_writes_of_cover _ _ _ _ _ (coverA2_B c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the accumulator's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega), PhiA2_eq]
  iintro ⟨⟨HA, Hrest⟩, Hg⟩
  isplitl [HA Hrest]
  · isplitl [HA]; · iexists _; iexact HA
    iexact Hrest
  iexact Hg

end Data

end Cert.Kernel.Hand

end
-- ==== Proof.Kernel.R3.Defs.lean ====
/-
  Region 3 of the program: one tiled matrix product on a 4 × 8 grid of points t = 8·i + k (i the row tile of
  2048 rows, k the tile of 1024 along the contracted axis). What the three control cases of the body share:
  the two conditions on the point in closed form over the grid (k = 0, where the accumulator is reset; k = 7,
  where it is copied to the output block), the points where the output window is idle and not written back
  (every point with k ≠ 7), the staging buffers the body is called with, the accumulator's buffer, the class
  invariant with the accumulator's buffer split off the other scoped buffers, and each window's block read off
  the arrays as the region finds them.
-/
import proofs.«132851_j4544075399677_1_alg».proof.Proof.Gen.Kernel.Launch
import proofs.«132851_j4544075399677_1_alg».proof.Proof.Gen.Kernel.Skeleton
import proofs.«132851_j4544075399677_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions on the point -/

/-- The accumulator is reset at this point: the body's first conditional, from the grid coordinates. -/
abbrev isFirst3 (i : grid3.Coords) : Prop :=
  (Scalar.cmpi .ne (Scalar.extui (Scalar.cmpi .eq (BitVec.ofNat 32 (i 1).val) 0#32)) 0#32) = 1#1
/-- It holds exactly at the points with k = 0. -/
theorem hFirst3 : ∀ t : Fin cfg3.N, isFirst3 (grid3.coords t) ↔ t.val % 8 = 0 :=
  (by decide +kernel : ∀ t : Fin grid3.N, isFirst3 (grid3.coords t) ↔ t.val % 8 = 0)

/-- The accumulator is copied to the output block at this point: the body's second conditional. -/
abbrev isLast3 (i : grid3.Coords) : Prop := k3_cond2 i = 1#1
/-- It holds exactly at the points with k = 7. -/
theorem hLast3 : ∀ t : Fin cfg3.N, isLast3 (grid3.coords t) ↔ t.val % 8 = 7 :=
  (by decide +kernel : ∀ t : Fin grid3.N, isLast3 (grid3.coords t) ↔ t.val % 8 = 7)

/-! ## Where the windows are idle -/

theorem live3_0 : ∀ t : Fin cfg3.N, cfg3.idle 0 (grid3.coords t) = false := by decide +kernel
theorem live3_1 : ∀ t : Fin cfg3.N, cfg3.idle 1 (grid3.coords t) = false := by decide +kernel
/-- Away from k = 7 the body stores nothing into the output block, -/
theorem idle3_2 : ∀ t : Fin cfg3.N, ¬isLast3 (grid3.coords t) → cfg3.idle 2 (grid3.coords t) = true := by decide +kernel
/-- and the block is not written back there. -/
theorem noFlush3_2 : ∀ t : Fin cfg3.N, ¬isLast3 (grid3.coords t) → (cfg3.win 2).flush t = false := by decide +kernel
/-- At k = 7 it stores the whole block. -/
theorem live3_2 : ∀ t : Fin cfg3.N, isLast3 (grid3.coords t) → cfg3.idle 2 (grid3.coords t) = false := by decide +kernel

/-! ## The buffers the body is called with -/

abbrev ms3_0 (t : Fin cfg3.N) : Memref sig .tc .vmem S2048x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x128 .f32 := win3_2.stage (cfg3.slots t 2)
abbrev hs3_2 (t : Fin cfg3.N) : (ms3_2 t).IsWhole := hstage3_2 ((cfg3.slots t 2).cast nbuf3_2)
/-- The accumulator: a whole scoped buffer of the kernel's own. -/
abbrev acc3 : Memref sig .tc .vmem S2048x128 .f32 := Memref.whole cc3_scratch0
/-- The views through which the output block's and the accumulator's contents are stated. -/
abbrev VO3 : View sig .tc .vmem S2048x128 .f32 := (Memref.whole cc3_stg2_0 : Memref sig .tc .vmem S2048x128 .f32).view
abbrev VA3 : View sig .tc .vmem S2048x128 .f32 := acc3.view

/-- The class invariant with the accumulator's buffer owned at some contents, every other scoped buffer that is
    no staging buffer of this region unopened, and the generator register at some state. -/
theorem PhiA3_eq (c : Dev nD) :
    (Pipeline.ΦA spec3 c : sProp 𝕄)
      = iprop(iprop((∃ d, owns (c : Thread nD τ) acc3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA
  rw [Pipeline.scopedRest_split_of_list spec3 c [cc3_scratch0] (by decide) (by decide)]
  simp only [acc3, owns_whole]; try rfl

/-! ## The windows' blocks -/

section Blocks
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left operand's current staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- So does the right operand's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

end Blocks

end Cert.Kernel.Hand

end
-- ==== Proof.Kernel.R3.RunA.lean ====
/-
  Region 3, the body at a point with k = 0: the accumulator is reset to zero, the product of the two blocks added to it, the output block left alone.
  The body is run once on whole staging buffers; the pieces each buffer ends with are found by the run itself.
-/
import proofs.«132851_j4544075399677_1_alg».proof.Proof.Kernel.R3.Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At k = 0: from the two operand blocks at `x0`, `x1`, the output's buffer at `xi2` and the accumulator at anything,
    the body runs to the continuation holding the operands and the output's buffer as they were and the accumulator
    with its pieces `LA` written. No piece for the output. -/
noncomputable def bodyRun3_A (c : Dev nD) (i : grid3.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : isFirst3 i) (hc1 : ¬isLast3 i)
    (x0 : Vec F S2048x1024 .f32) (x1 : Vec F S1024x128 .f32) :
    Σ' (L2 : List (View.Piece (Elt F) S2048x128 .f32)), { LA : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LA)) -∗ K ⟨⟩))
          ⊢ wp frame (wpE (defs₀ (F := F)) Variants.none c none) E (cc3__matmul_kernel i arg2 harg2 arg3 harg3 arg4 harg4 arg5 harg5) K } := by
  refine ⟨[], ?_, fun xi2 E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%da, %fa, -, HA⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HA

end Cert.Kernel.Hand

end
-- ==== Proof.Kernel.R3.RunB.lean ====
/-
  Region 3, the body at a point with 0 < k < 7: the product of the two blocks is added to the accumulator, the output block left alone.
  The body is run once on whole staging buffers; the pieces each buffer ends with are found by the run itself.
-/
import proofs.«132851_j4544075399677_1_alg».proof.Proof.Kernel.R3.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At 0 < k < 7: from the two operand blocks at `x0`, `x1`, the output's buffer at `xi2` and the accumulator at what
    the point before left (`xa`), the body runs to the continuation holding the operands and the output's buffer as
    they were and the accumulator with its pieces `LA` written. No piece for the output. -/
noncomputable def bodyRun3_B (c : Dev nD) (i : grid3.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst3 i) (hc1 : ¬isLast3 i)
    (x0 : Vec F S2048x1024 .f32) (x1 : Vec F S1024x128 .f32) (xa : Vec F S2048x128 .f32) :
    Σ' (L2 : List (View.Piece (Elt F) S2048x128 .f32)), { LA : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xa
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LA)) -∗ K ⟨⟩))
          ⊢ wp frame (wpE (defs₀ (F := F)) Variants.none c none) E (cc3__matmul_kernel i arg2 harg2 arg3 harg3 arg4 harg4 arg5 harg5) K } := by
  refine ⟨[], ?_, fun xi2 E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%fa, %hfa, HA⟩, Hk⟩
    obtain rfl := harg2.eq_unread hf0; obtain rfl := harg3.eq_unread hf1; obtain rfl := harg4.eq_unread hf2; obtain rfl := harg5.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HA

end Cert.Kernel.Hand

end
-- ==== Proof.Kernel.R3.RunC.lean ====
/-
  Region 3, the body at a point with k = 7: the product of the two blocks is added to the accumulator and the accumulator copied to the output block.
  The body is run once on whole staging buffers; the pieces each buffer ends with are found by the run itself.
-/
import proofs.«132851_j4544075399677_1_alg».proof.Proof.Kernel.R3.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At k = 7: from the two operand blocks at `x0`, `x1`, the output's buffer at anything and the accumulator at what the
    point before left (`xa`), the body runs to the continuation holding the operands as they were, the output's
    buffer with its pieces `L2` written and the accumulator with its pieces `LA` written. -/
noncomputable def bodyRun3_C (c : Dev nD) (i : grid3.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst3 i) (hc1 : isLast3 i)
    (x0 : Vec F S2048x1024 .f32) (x1 : Vec F S1024x128 .f32) (xa : Vec F S2048x128 .f32) :
    Σ' (L2 : List (View.Piece (Elt F) S2048x128 .f32)), { LA : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xa
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LA)) -∗ K ⟨⟩))
          ⊢ wp frame (wpE (defs₀ (F := F)) Variants.none c none) E (cc3__matmul_kernel i arg2 harg2 arg3 harg3 arg4 harg4 arg5 harg5) K } := by
  refine ⟨?_, ?_, fun E K => ?run⟩
  case run =>
    simp only [cc3__matmul_kernel_eq_skeleton]; unfold cc3__matmul_kernel_skel
    unfold owns
    iintro ⟨⟨%f0, %hf0, H0⟩, ⟨%f1, %hf1, H1⟩, ⟨%d2, %f2, -, H2⟩, ⟨%fa, %hfa, HA⟩, Hk⟩
    obtain rfl := harg2.eq_unread hf0; obtain rfl := harg3.eq_unread hf1; obtain rfl := harg5.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HA

end Cert.Kernel.Hand

end
-- ==== Proof.Kernel.R3.Data.lean ====
/-
  Region 3: what the accumulator and the output block hold after the body, case by case (the pieces each run
  found, read back) and point by point (a recursion on the point: at k = 0 the accumulator restarts from the two
  blocks alone, at every other point it continues from what the point before left; the output block is written
  at k = 7 only); the region's invariant, which carries the accumulator at those contents from one point to the
  next; the pipeline's proof data; and the body obligation at every point, by cases on k.
-/
import proofs.«132851_j4544075399677_1_alg».proof.Proof.Kernel.R3.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

theorem coverA3_A (c : Dev nD) (i : grid3.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : isFirst3 i) (hc1 : ¬isLast3 i) (x0 : Vec F S2048x1024 .f32) (x1 : Vec F S1024x128 .f32) (y : S2048x128.Idx) :
    ∃ pc ∈ (bodyRun3_A c i arg2 harg2 arg3 harg3 arg4 harg4 arg5 harg5 hc0 hc1 x0 x1).2.1, y ∈ pc.1.set :=
  View.cover_of_tiledL (bodyRun3_A c i arg2 harg2 arg3 harg3 arg4 harg4 arg5 harg5 hc0 hc1 x0 x1).2.1 S2048x128.size (by sl_kernel_rfl) y
/-- The accumulator after a point with k = 0. -/
def accAfter3_A (c : Dev nD) (i : grid3.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : isFirst3 i) (hc1 : ¬isLast3 i) (x0 : Vec F S2048x1024 .f32) (x1 : Vec F S1024x128 .f32) : Vec F S2048x128 .f32 :=
  VA3.read (Elt F) (VA3.writes (Elt F) VA3.junk (bodyRun3_A c i arg2 harg2 arg3 harg3 arg4 harg4 arg5 harg5 hc0 hc1 x0 x1).2.1)

theorem coverA3_B (c : Dev nD) (i : grid3.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst3 i) (hc1 : ¬isLast3 i) (x0 : Vec F S2048x1024 .f32) (x1 : Vec F S1024x128 .f32) (xa : Vec F S2048x128 .f32) (y : S2048x128.Idx) :
    ∃ pc ∈ (bodyRun3_B c i arg2 harg2 arg3 harg3 arg4 harg4 arg5 harg5 hc0 hc1 x0 x1 xa).2.1, y ∈ pc.1.set :=
  View.cover_of_tiledL (bodyRun3_B c i arg2 harg2 arg3 harg3 arg4 harg4 arg5 harg5 hc0 hc1 x0 x1 xa).2.1 S2048x128.size (by sl_kernel_rfl) y
/-- The accumulator after a point with 0 < k < 7, from what the point before left. -/
def accAfter3_B (c : Dev nD) (i : grid3.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst3 i) (hc1 : ¬isLast3 i) (x0 : Vec F S2048x1024 .f32) (x1 : Vec F S1024x128 .f32) (xa : Vec F S2048x128 .f32) : Vec F S2048x128 .f32 :=
  VA3.read (Elt F) (VA3.writes (Elt F) VA3.junk (bodyRun3_B c i arg2 harg2 arg3 harg3 arg4 harg4 arg5 harg5 hc0 hc1 x0 x1 xa).2.1)

theorem coverO3_C (c : Dev nD) (i : grid3.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst3 i) (hc1 : isLast3 i) (x0 : Vec F S2048x1024 .f32) (x1 : Vec F S1024x128 .f32) (xa : Vec F S2048x128 .f32) (y : S2048x128.Idx) :
    ∃ pc ∈ (bodyRun3_C c i arg2 harg2 arg3 harg3 arg4 harg4 arg5 harg5 hc0 hc1 x0 x1 xa).1, y ∈ pc.1.set :=
  View.cover_of_tiledL (bodyRun3_C c i arg2 harg2 arg3 harg3 arg4 harg4 arg5 harg5 hc0 hc1 x0 x1 xa).1 S2048x128.size (by sl_kernel_rfl) y
/-- The output block after a point with k = 7. -/
def outAfter3_C (c : Dev nD) (i : grid3.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst3 i) (hc1 : isLast3 i) (x0 : Vec F S2048x1024 .f32) (x1 : Vec F S1024x128 .f32) (xa : Vec F S2048x128 .f32) : Vec F S2048x128 .f32 :=
  VO3.read (Elt F) (VO3.writes (Elt F) VO3.junk (bodyRun3_C c i arg2 harg2 arg3 harg3 arg4 harg4 arg5 harg5 hc0 hc1 x0 x1 xa).1)
theorem coverA3_C (c : Dev nD) (i : grid3.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst3 i) (hc1 : isLast3 i) (x0 : Vec F S2048x1024 .f32) (x1 : Vec F S1024x128 .f32) (xa : Vec F S2048x128 .f32) (y : S2048x128.Idx) :
    ∃ pc ∈ (bodyRun3_C c i arg2 harg2 arg3 harg3 arg4 harg4 arg5 harg5 hc0 hc1 x0 x1 xa).2.1, y ∈ pc.1.set :=
  View.cover_of_tiledL (bodyRun3_C c i arg2 harg2 arg3 harg3 arg4 harg4 arg5 harg5 hc0 hc1 x0 x1 xa).2.1 S2048x128.size (by sl_kernel_rfl) y
/-- The accumulator after a point with k = 7. -/
def accAfter3_C (c : Dev nD) (i : grid3.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst3 i) (hc1 : isLast3 i) (x0 : Vec F S2048x1024 .f32) (x1 : Vec F S1024x128 .f32) (xa : Vec F S2048x128 .f32) : Vec F S2048x128 .f32 :=
  VA3.read (Elt F) (VA3.writes (Elt F) VA3.junk (bodyRun3_C c i arg2 harg2 arg3 harg3 arg4 harg4 arg5 harg5 hc0 hc1 x0 x1 xa).2.1)

/-- The output block at a point where nothing is stored into it: a placeholder nothing consults (the block is
    neither written back there nor read at the next point). -/
def idleOut3 : Vec F S2048x128 .f32 := VO3.read (Elt F) VO3.junk

section Data
variable (V : (c : Dev nD) → (b : Ref sig .tc) → Buf (Elt F) ((c : Thread nD τ).loc b))

/-! ## Point by point -/

/-- What the output's staging buffer and the accumulator hold after the body at position `n`. -/
def outsAt3 (c : Dev nD) : (n : ℕ) → n < cfg3.N → Vec F S2048x128 .f32 × Vec F S2048x128 .f32
  | 0, hn => (idleOut3, accAfter3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) acc3 (Memref.isWhole_whole _) ((hFirst3 ⟨0, hn⟩).mpr (Nat.zero_mod _)) (fun h => (fun h => by (try dsimp only at h); omega) ((hLast3 ⟨0, hn⟩).mp h)) (iblk3 V c 0 ⟨0, hn⟩) (iblk3 V c 1 ⟨0, hn⟩))
  | n + 1, hn =>
    if h0 : (n + 1) % 8 = 0 then
      if h1 : (n + 1) % 8 = 7 then
        False.elim (by omega)
      else
        (idleOut3, accAfter3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) acc3 (Memref.isWhole_whole _) ((hFirst3 ⟨n + 1, hn⟩).mpr h0) (fun h => h1 ((hLast3 ⟨n + 1, hn⟩).mp h)) (iblk3 V c 0 ⟨n + 1, hn⟩) (iblk3 V c 1 ⟨n + 1, hn⟩))
    else
      if h1 : (n + 1) % 8 = 7 then
        (outAfter3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) acc3 (Memref.isWhole_whole _) (fun h => h0 ((hFirst3 ⟨n + 1, hn⟩).mp h)) ((hLast3 ⟨n + 1, hn⟩).mpr h1) (iblk3 V c 0 ⟨n + 1, hn⟩) (iblk3 V c 1 ⟨n + 1, hn⟩) (outsAt3 c n (Nat.lt_of_succ_lt hn)).2, accAfter3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) acc3 (Memref.isWhole_whole _) (fun h => h0 ((hFirst3 ⟨n + 1, hn⟩).mp h)) ((hLast3 ⟨n + 1, hn⟩).mpr h1) (iblk3 V c 0 ⟨n + 1, hn⟩) (iblk3 V c 1 ⟨n + 1, hn⟩) (outsAt3 c n (Nat.lt_of_succ_lt hn)).2)
      else
        (idleOut3, accAfter3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) acc3 (Memref.isWhole_whole _) (fun h => h0 ((hFirst3 ⟨n + 1, hn⟩).mp h)) (fun h => h1 ((hLast3 ⟨n + 1, hn⟩).mp h)) (iblk3 V c 0 ⟨n + 1, hn⟩) (iblk3 V c 1 ⟨n + 1, hn⟩) (outsAt3 c n (Nat.lt_of_succ_lt hn)).2)

theorem outsAt3_A (c : Dev nD) (t : Fin cfg3.N) (h0 : t.val % 8 = 0) (h1 : ¬t.val % 8 = 7) :
    outsAt3 V c t.val t.isLt = (idleOut3, accAfter3_A c (grid3.coords t) (ms3_0 t) (hs3_0 t) (ms3_1 t) (hs3_1 t) (ms3_2 t) (hs3_2 t) acc3 (Memref.isWhole_whole _) ((hFirst3 t).mpr h0) (fun h => h1 ((hLast3 t).mp h)) (iblk3 V c 0 t) (iblk3 V c 1 t)) := by
  obtain ⟨n, hn⟩ := t
  cases n with
  | zero => exact rfl
  | succ n => exact (dif_pos h0).trans ((dif_neg h1).trans rfl)

theorem outsAt3_B (c : Dev nD) (t : Fin cfg3.N) (h0 : ¬t.val % 8 = 0) (h1 : ¬t.val % 8 = 7) :
    outsAt3 V c t.val t.isLt = (idleOut3, accAfter3_B c (grid3.coords t) (ms3_0 t) (hs3_0 t) (ms3_1 t) (hs3_1 t) (ms3_2 t) (hs3_2 t) acc3 (Memref.isWhole_whole _) (fun h => h0 ((hFirst3 t).mp h)) (fun h => h1 ((hLast3 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 8 = 0) (h1 : t.val % 8 = 7) :
    outsAt3 V c t.val t.isLt = (outAfter3_C c (grid3.coords t) (ms3_0 t) (hs3_0 t) (ms3_1 t) (hs3_1 t) (ms3_2 t) (hs3_2 t) acc3 (Memref.isWhole_whole _) (fun h => h0 ((hFirst3 t).mp h)) ((hLast3 t).mpr h1) (iblk3 V c 0 t) (iblk3 V c 1 t) (outsAt3 V c (t.val - 1) (Nat.lt_of_le_of_lt (Nat.sub_le _ _) t.isLt)).2, accAfter3_C c (grid3.coords t) (ms3_0 t) (hs3_0 t) (ms3_1 t) (hs3_1 t) (ms3_2 t) (hs3_2 t) acc3 (Memref.isWhole_whole _) (fun h => h0 ((hFirst3 t).mp h)) ((hLast3 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the region's entry the class invariant (the accumulator at anything); afterwards the
    accumulator at what the point before left, the other scoped buffers unopened, the generator register at some state. -/
def PhiS3 (c : Dev nD) : (n : ℕ) → n ≤ cfg3.N → sProp 𝕄
  | 0, _ => Pipeline.ΦA spec3 c
  | n + 1, hn => iprop(iprop(owns (c : Thread nD τ) acc3 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) acc3 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) acc3 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The arrays as the region finds them; after the body each operand's buffer at its block and the output's at
    `outsAt3`; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the operands' buffers hold their blocks; the closed forms say which case the point is in;
    the invariant hands the body the accumulator at what the point before left (at anything at the region's first
    point, and the reset at k = 0 needs nothing of it) and takes it back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 32 := lt_of_lt_of_eq t.isLt (show cfg3.N = 32 from N_3)
  rw [show (dat3 V c).leavesExact 0 t = owns (c : Thread nD τ) (ms3_0 t) fullShare ((dat3 V c).after 0 t) from by
    unfold Dat.leavesExact; rw [live3_0 t], after3_0]
  rw [show (dat3 V c).leavesExact 1 t = owns (c : Thread nD τ) (ms3_1 t) fullShare ((dat3 V c).after 1 t) from by
    unfold Dat.leavesExact; rw [live3_1 t], after3_1]
  by_cases h0 : t.val % 8 = 0
  · have h1 : ¬t.val % 8 = 7 := by omega
    rw [Dat.leavesExact_idle (dat3 V c) 2 t (idle3_2 t (fun h => h1 ((hLast3 t).mp h))) (noFlush3_2 t (fun h => h1 ((hLast3 t).mp h)))]
    rw [outsAt3_A V c t h0 h1]
    unfold accAfter3_A; (try dsimp only)
    by_cases hz : t.val = 0
    · rw [PhiS3_castSucc V c t, PhiS3_zero V c _ _ hz, PhiA3_eq]
      iintro ⟨⟨⟨HA, Hrest⟩, Hg⟩, Ho, ⟨%d0, H0⟩, ⟨%d1, H1⟩, ⟨%d2, H2⟩⟩
      iapply ((bodyRun3_A c (grid3.coords t) _ _ _ _ _ _ _ _ ((hFirst3 t).mpr h0) (fun h => h1 ((hLast3 t).mp h)) (iblk3 V c 0 t) (iblk3 V c 1 t)).2.2 _ Set.univ _)
      isplitl [H0]; · iexact H0
      isplitl [H1]; · iexact H1
      isplitl [H2]; · iexact H2
      isplitl [HA]; · iexact HA
      iintro ⟨H0, H1, H2, ⟨%ea, HA⟩⟩
      isplitl [HA Hrest Hg]
      · isplitl [HA Hrest]
        · isplitl [HA]
          · unfold owns; iexists _; isplitr
            swap; · iexact HA
            ipureintro; exact View.read_writes_of_cover _ _ _ _ _ (coverA3_A c _ _ _ _ _ _ _ _ _ _ _ _ _)
          iexact Hrest
        iexact Hg
      isplitl [Ho]; · iexact Ho
      isplitl [H0]; · iexact H0
      isplitl [H1]; · iexact H1
      iexists _; iexact H2
    · rw [PhiS3_castSucc V c t, PhiS3_pos V c _ _ hz]
      iintro ⟨⟨⟨HA, Hrest⟩, Hg⟩, Ho, ⟨%d0, H0⟩, ⟨%d1, H1⟩, ⟨%d2, H2⟩⟩
      iapply ((bodyRun3_A c (grid3.coords t) _ _ _ _ _ _ _ _ ((hFirst3 t).mpr h0) (fun h => h1 ((hLast3 t).mp h)) (iblk3 V c 0 t) (iblk3 V c 1 t)).2.2 _ Set.univ _)
      isplitl [H0]; · iexact H0
      isplitl [H1]; · iexact H1
      isplitl [H2]; · iexact H2
      isplitl [HA]; · iexists _; iexact HA
      iintro ⟨H0, H1, H2, ⟨%ea, HA⟩⟩
      isplitl [HA Hrest Hg]
      · isplitl [HA Hrest]
        · isplitl [HA]
          · unfold owns; iexists _; isplitr
            swap; · iexact HA
            ipureintro; exact View.read_writes_of_cover _ _ _ _ _ (coverA3_A c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := by omega
    by_cases h1 : t.val % 8 = 7
    · rw [show (dat3 V c).leavesExact 2 t = owns (c : Thread nD τ) (ms3_2 t) fullShare ((dat3 V c).after 2 t) from by
        unfold Dat.leavesExact; rw [live3_2 t ((hLast3 t).mpr h1)], after3_2]
      rw [outsAt3_C V c t h0 h1]
      unfold outAfter3_C accAfter3_C; (try dsimp only)
      rw [PhiS3_castSucc V c t, PhiS3_pos V c _ _ hz]
      iintro ⟨⟨⟨HA, Hrest⟩, Hg⟩, Ho, ⟨%d0, H0⟩, ⟨%d1, H1⟩, ⟨%d2, H2⟩⟩
      iapply ((bodyRun3_C c (grid3.coords t) _ _ _ _ _ _ _ _ (fun h => h0 ((hFirst3 t).mp h)) ((hLast3 t).mpr h1) (iblk3 V c 0 t) (iblk3 V c 1 t) _).2.2 Set.univ _)
      isplitl [H0]; · iexact H0
      isplitl [H1]; · iexact H1
      isplitl [H2]; · iexists _; iexact H2
      isplitl [HA]; · iexact HA
      iintro ⟨H0, H1, ⟨%e2, H2⟩, ⟨%ea, HA⟩⟩
      isplitl [HA Hrest Hg]
      · isplitl [HA Hrest]
        · isplitl [HA]
          · unfold owns; iexists _; isplitr
            swap; · iexact HA
            ipureintro; exact View.read_writes_of_cover _ _ _ _ _ (coverA3_C c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverO3_C c _ _ _ _ _ _ _ _ _ _ _ _ _ _)
    · rw [Dat.leavesExact_idle (dat3 V c) 2 t (idle3_2 t (fun h => h1 ((hLast3 t).mp h))) (noFlush3_2 t (fun h => h1 ((hLast3 t).mp h)))]
      rw [outsAt3_B V c t h0 h1]
      unfold accAfter3_B; (try dsimp only)
      rw [PhiS3_castSucc V c t, PhiS3_pos V c _ _ hz]
      iintro ⟨⟨⟨HA, Hrest⟩, Hg⟩, Ho, ⟨%d0, H0⟩, ⟨%d1, H1⟩, ⟨%d2, H2⟩⟩
      iapply ((bodyRun3_B c (grid3.coords t) _ _ _ _ _ _ _ _ (fun h => h0 ((hFirst3 t).mp h)) (fun h => h1 ((hLast3 t).mp h)) (iblk3 V c 0 t) (iblk3 V c 1 t) _).2.2 _ Set.univ _)
      isplitl [H0]; · iexact H0
      isplitl [H1]; · iexact H1
      isplitl [H2]; · iexact H2
      isplitl [HA]; · iexact HA
      iintro ⟨H0, H1, H2, ⟨%ea, HA⟩⟩
      isplitl [HA Hrest Hg]
      · isplitl [HA Hrest]
        · isplitl [HA]
          · unfold owns; iexists _; isplitr
            swap; · iexact HA
            ipureintro; exact View.read_writes_of_cover _ _ _ _ _ (coverA3_B c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class invariant back: the accumulator's named contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 32 := N_3; omega), PhiA3_eq]
  iintro ⟨⟨HA, Hrest⟩, Hg⟩
  isplitl [HA Hrest]
  · isplitl [HA]; · iexists _; iexact HA
    iexact Hrest
  iexact Hg

end Data

end Cert.Kernel.Hand

end
-- ==== Proof.Kernel.Run.lean ====
/-
  The whole program as eight segments — a region, then the host operations that scale its result and add it to
  the running sum, four times over — run from the launch to the return. The contents of every unscoped buffer at
  each segment boundary are a fold from the launch memory: a region replaces its result array by what its
  write-backs leave and keeps every other buffer; a stretch of host operations applies them in order. Each region is
  entered from the boundary before it and left at the one after it; the run ends with every unscoped buffer at
  the last boundary's contents.
-/
import proofs.«132851_j4544075399677_1_alg».proof.Proof.Kernel.R0.Data
import proofs.«132851_j4544075399677_1_alg».proof.Proof.Kernel.R1.Data
import proofs.«132851_j4544075399677_1_alg».proof.Proof.Kernel.R2.Data
import proofs.«132851_j4544075399677_1_alg».proof.Proof.Kernel.R3.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch: region 0's entry. -/
abbrev WE0 : Dev nD → Valuation τ sig (Elt F) := fun c b => (s₀ m ρ).mem ((c : Dev nD), b)
abbrev VE0 : (c : Dev nD) → (b : Ref sig .tc) → Buf (Elt F) ((c : Thread nD τ).loc b) := fun c b => WE0 m ρ c b

/-- At region 0's exit: its arrays at what the pipeline leaves (the operands as entered, the result's blocks as
    written back), every other buffer as entered. -/
def WX0 (c : Dev nD) : Valuation τ sig (Elt F) :=
  Pipeline.withArrays spec0 c (WE0 m ρ c) fun w => (dat0 (VE0 m ρ) c).arrAt w cfg0.N
theorem WX0_arr (c : Dev nD) (w : Fin cfg0.W) :
    WX0 m ρ c (Proc.devRef .tc (Pipeline.arrRef spec0 w)) = (dat0 (VE0 m ρ) c).arrAt w cfg0.N := by
  unfold WX0; exact Pipeline.withArrays_arr spec0 launch0.win.arr_inj c _ _ w
theorem WX0_of_ne (c : Dev nD) (b : Ref sig .tc) (hb : ∀ w, Pipeline.arrRef spec0 w ≠ b) :
    WX0 m ρ c (Proc.devRef .tc b) = WE0 m ρ c (Proc.devRef .tc b) := by
  unfold WX0; exact Pipeline.withArrays_of_ne spec0 c _ _ b hb
abbrev VX0 : (c : Dev nD) → (b : Ref sig .tc) → Buf (Elt F) ((c : Thread nD τ).loc b) := fun c b => WX0 m ρ c b
theorem hF0 (c : Dev nD) (w : Fin cfg0.W) : (dat0 (VE0 m ρ) c).arrAt w cfg0.N = VX0 m ρ c (Pipeline.arrRef spec0 w) :=
  (WX0_arr m ρ c w).symm
theorem hrest0 (c : Dev nD) : ∀ b, b ∉ Finset.univ.image (Pipeline.arrRef spec0) → VX0 m ρ c b = VE0 m ρ c b :=
  fun b hb => WX0_of_ne m ρ c b fun w e => hb (Finset.mem_image.mpr ⟨w, Finset.mem_univ _, e⟩)

/-- After the host operations that follow region 0: region 1's entry. -/
abbrev WE1 : Dev nD → Valuation τ sig (Elt F) := fun c => StableHlo.after hostOps1 (WX0 m ρ c)
abbrev VE1 : (c : Dev nD) → (b : Ref sig .tc) → Buf (Elt F) ((c : Thread nD τ).loc b) := fun c b => WE1 m ρ c b

/-- At region 1's exit: its arrays at what the pipeline leaves (the operands as entered, the result's blocks as
    written back), every other buffer as entered. -/
def WX1 (c : Dev nD) : Valuation τ sig (Elt F) :=
  Pipeline.withArrays spec1 c (WE1 m ρ c) fun w => (dat1 (VE1 m ρ) c).arrAt w cfg1.N
theorem WX1_arr (c : Dev nD) (w : Fin cfg1.W) :
    WX1 m ρ c (Proc.devRef .tc (Pipeline.arrRef spec1 w)) = (dat1 (VE1 m ρ) c).arrAt w cfg1.N := by
  unfold WX1; exact Pipeline.withArrays_arr spec1 launch1.win.arr_inj c _ _ w
theorem WX1_of_ne (c : Dev nD) (b : Ref sig .tc) (hb : ∀ w, Pipeline.arrRef spec1 w ≠ b) :
    WX1 m ρ c (Proc.devRef .tc b) = WE1 m ρ c (Proc.devRef .tc b) := by
  unfold WX1; exact Pipeline.withArrays_of_ne spec1 c _ _ b hb
abbrev VX1 : (c : Dev nD) → (b : Ref sig .tc) → Buf (Elt F) ((c : Thread nD τ).loc b) := fun c b => WX1 m ρ c b
theorem hF1 (c : Dev nD) (w : Fin cfg1.W) : (dat1 (VE1 m ρ) c).arrAt w cfg1.N = VX1 m ρ c (Pipeline.arrRef spec1 w) :=
  (WX1_arr m ρ c w).symm
theorem hrest1 (c : Dev nD) : ∀ b, b ∉ Finset.univ.image (Pipeline.arrRef spec1) → VX1 m ρ c b = VE1 m ρ c b :=
  fun b hb => WX1_of_ne m ρ c b fun w e => hb (Finset.mem_image.mpr ⟨w, Finset.mem_univ _, e⟩)

/-- After the host operations that follow region 1: region 2's entry. -/
abbrev WE2 : Dev nD → Valuation τ sig (Elt F) := fun c => StableHlo.after hostOps2 (WX1 m ρ c)
abbrev VE2 : (c : Dev nD) → (b : Ref sig .tc) → Buf (Elt F) ((c : Thread nD τ).loc b) := fun c b => WE2 m ρ c b

/-- At region 2's exit: its arrays at what the pipeline leaves (the operands as entered, the result's blocks as
    written back), every other buffer as entered. -/
def WX2 (c : Dev nD) : Valuation τ sig (Elt F) :=
  Pipeline.withArrays spec2 c (WE2 m ρ c) fun w => (dat2 (VE2 m ρ) c).arrAt w cfg2.N
theorem WX2_arr (c : Dev nD) (w : Fin cfg2.W) :
    WX2 m ρ c (Proc.devRef .tc (Pipeline.arrRef spec2 w)) = (dat2 (VE2 m ρ) c).arrAt w cfg2.N := by
  unfold WX2; exact Pipeline.withArrays_arr spec2 launch2.win.arr_inj c _ _ w
theorem WX2_of_ne (c : Dev nD) (b : Ref sig .tc) (hb : ∀ w, Pipeline.arrRef spec2 w ≠ b) :
    WX2 m ρ c (Proc.devRef .tc b) = WE2 m ρ c (Proc.devRef .tc b) := by
  unfold WX2; exact Pipeline.withArrays_of_ne spec2 c _ _ b hb
abbrev VX2 : (c : Dev nD) → (b : Ref sig .tc) → Buf (Elt F) ((c : Thread nD τ).loc b) := fun c b => WX2 m ρ c b
theorem hF2 (c : Dev nD) (w : Fin cfg2.W) : (dat2 (VE2 m ρ) c).arrAt w cfg2.N = VX2 m ρ c (Pipeline.arrRef spec2 w) :=
  (WX2_arr m ρ c w).symm
theorem hrest2 (c : Dev nD) : ∀ b, b ∉ Finset.univ.image (Pipeline.arrRef spec2) → VX2 m ρ c b = VE2 m ρ c b :=
  fun b hb => WX2_of_ne m ρ c b fun w e => hb (Finset.mem_image.mpr ⟨w, Finset.mem_univ _, e⟩)

/-- After the host operations that follow region 2: region 3's entry. -/
abbrev WE3 : Dev nD → Valuation τ sig (Elt F) := fun c => StableHlo.after hostOps3 (WX2 m ρ c)
abbrev VE3 : (c : Dev nD) → (b : Ref sig .tc) → Buf (Elt F) ((c : Thread nD τ).loc b) := fun c b => WE3 m ρ c b

/-- At region 3's exit: its arrays at what the pipeline leaves (the operands as entered, the result's blocks as
    written back), every other buffer as entered. -/
def WX3 (c : Dev nD) : Valuation τ sig (Elt F) :=
  Pipeline.withArrays spec3 c (WE3 m ρ c) fun w => (dat3 (VE3 m ρ) c).arrAt w cfg3.N
theorem WX3_arr (c : Dev nD) (w : Fin cfg3.W) :
    WX3 m ρ c (Proc.devRef .tc (Pipeline.arrRef spec3 w)) = (dat3 (VE3 m ρ) c).arrAt w cfg3.N := by
  unfold WX3; exact Pipeline.withArrays_arr spec3 launch3.win.arr_inj c _ _ w
theorem WX3_of_ne (c : Dev nD) (b : Ref sig .tc) (hb : ∀ w, Pipeline.arrRef spec3 w ≠ b) :
    WX3 m ρ c (Proc.devRef .tc b) = WE3 m ρ c (Proc.devRef .tc b) := by
  unfold WX3; exact Pipeline.withArrays_of_ne spec3 c _ _ b hb
abbrev VX3 : (c : Dev nD) → (b : Ref sig .tc) → Buf (Elt F) ((c : Thread nD τ).loc b) := fun c b => WX3 m ρ c b
theorem hF3 (c : Dev nD) (w : Fin cfg3.W) : (dat3 (VE3 m ρ) c).arrAt w cfg3.N = VX3 m ρ c (Pipeline.arrRef spec3 w) :=
  (WX3_arr m ρ c w).symm
theorem hrest3 (c : Dev nD) : ∀ b, b ∉ Finset.univ.image (Pipeline.arrRef spec3) → VX3 m ρ c b = VE3 m ρ c b :=
  fun b hb => WX3_of_ne m ρ c b fun w e => hb (Finset.mem_image.mpr ⟨w, Finset.mem_univ _, e⟩)

/-- After the last stretch of host operations: the contents the program returns with. -/
abbrev WF : Dev nD → Valuation τ sig (Elt F) := fun c => StableHlo.after hostOps4 (WX3 m ρ c)

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (VE0 m ρ) c
  | ⟨1, _⟩ => fun c => dat1 (VE1 m ρ) c
  | ⟨2, _⟩ => fun c => dat2 (VE2 m ρ) c
  | ⟨3, _⟩ => fun c => dat3 (VE3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_noalloc : (hostOps1 : List (HloOp τ sig (Elt F))).Forall fun op => op.fresh = ∅ := by
  simp only [List.Forall]; repeat' constructor
theorem hostOps2_noalloc : (hostOps2 : List (HloOp τ sig (Elt F))).Forall fun op => op.fresh = ∅ := by
  simp only [List.Forall]; repeat' constructor
theorem hostOps3_noalloc : (hostOps3 : List (HloOp τ sig (Elt F))).Forall fun op => op.fresh = ∅ := by
  simp only [List.Forall]; repeat' constructor
theorem hostOps4_noalloc : (hostOps4 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (WF m ρ c) ∗ ∃ r, prngReg c r)

/-! ## The regions as segments -/

set_option backward.isDefEq.respectTransparency.types false in
/-- Region 0 over the thread state: entered from every unscoped buffer at `WE0`, left at `WX0`. Its arrays are
    split out of the unscoped buffers and put back at the exit contents; the generator register and the scoped
    buffers go into the invariant and come back out of it; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m ρ) c).loose
  hwaits := Pipeline.hwaits_of_owed_zero _ _ _ _ L lv 0 fun _ _ => rfl
  pre c := iprop(StableHlo.held (c : Thread nD τ) (Pipeline.ucRefs τ sig) (WE0 m ρ c) ∗ R c)
  post c := iprop(StableHlo.held (c : Thread nD τ) (Pipeline.ucRefs τ sig) (WX0 m ρ c) ∗ R c)
  X c := iprop(∃ r, prngReg c r)
  Y c := iprop(∃ r, prngReg c r)
  Z c := Pipeline.unscopedRest (Ix := Unit) (Name := ℕ) (U := UR sig nD τ) (Lvl := ℕ) spec0 c (VE0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VE0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = PhiS0 (VE0 m ρ) c 0 (Nat.zero_le _) from rfl, PhiS0_zero (VE0 m ρ) c 0 _ rfl]
    unfold Pipeline.ΦA
    iintro ⟨Hp, -, Hr⟩
    isplitl [Hr]; · iexact Hr
    iexact Hp
  hout c := by
    rw [Pipeline.ownSems0_none]
    rw [show (pdats m ρ 0 c).Φ (Fin.last _) = (dat0 (VE0 m ρ) c).Φ (Fin.last cfg0.N) from rfl]
    have h := hout0 (VE0 m ρ) c
    unfold Pipeline.ΦA at h
    iintro Hphi
    ihave H := h $$ Hphi
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VE0 m ρ c) (VX0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `WE1`, left at `WX1`. Its arrays are
    split out of the unscoped buffers and put back at the exit contents; the generator register and the scoped
    buffers go into the invariant and come back out of it; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m ρ) c).loose
  hwaits := Pipeline.hwaits_of_owed_zero _ _ _ _ L lv 1 fun _ _ => rfl
  pre c := iprop(StableHlo.held (c : Thread nD τ) (Pipeline.ucRefs τ sig) (WE1 m ρ c) ∗ R c)
  post c := iprop(StableHlo.held (c : Thread nD τ) (Pipeline.ucRefs τ sig) (WX1 m ρ c) ∗ R c)
  X c := iprop(∃ r, prngReg c r)
  Y c := iprop(∃ r, prngReg c r)
  Z c := Pipeline.unscopedRest (Ix := Unit) (Name := ℕ) (U := UR sig nD τ) (Lvl := ℕ) spec1 c (VE1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VE1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = PhiS1 (VE1 m ρ) c 0 (Nat.zero_le _) from rfl, PhiS1_zero (VE1 m ρ) c 0 _ rfl]
    unfold Pipeline.ΦA
    iintro ⟨Hp, -, Hr⟩
    isplitl [Hr]; · iexact Hr
    iexact Hp
  hout c := by
    rw [Pipeline.ownSems0_none]
    rw [show (pdats m ρ 1 c).Φ (Fin.last _) = (dat1 (VE1 m ρ) c).Φ (Fin.last cfg1.N) from rfl]
    have h := hout1 (VE1 m ρ) c
    unfold Pipeline.ΦA at h
    iintro Hphi
    ihave H := h $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VE1 m ρ c) (VX1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `WE2`, left at `WX2`. Its arrays are
    split out of the unscoped buffers and put back at the exit contents; the generator register and the scoped
    buffers go into the invariant and come back out of it; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VE2 m ρ) c).loose
  hwaits := Pipeline.hwaits_of_owed_zero _ _ _ _ L lv 2 fun _ _ => rfl
  pre c := iprop(StableHlo.held (c : Thread nD τ) (Pipeline.ucRefs τ sig) (WE2 m ρ c) ∗ R c)
  post c := iprop(StableHlo.held (c : Thread nD τ) (Pipeline.ucRefs τ sig) (WX2 m ρ c) ∗ R c)
  X c := iprop(∃ r, prngReg c r)
  Y c := iprop(∃ r, prngReg c r)
  Z c := Pipeline.unscopedRest (Ix := Unit) (Name := ℕ) (U := UR sig nD τ) (Lvl := ℕ) spec2 c (VE2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (VE2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = PhiS2 (VE2 m ρ) c 0 (Nat.zero_le _) from rfl, PhiS2_zero (VE2 m ρ) c 0 _ rfl]
    unfold Pipeline.ΦA
    iintro ⟨Hp, -, Hr⟩
    isplitl [Hr]; · iexact Hr
    iexact Hp
  hout c := by
    rw [Pipeline.ownSems0_none]
    rw [show (pdats m ρ 2 c).Φ (Fin.last _) = (dat2 (VE2 m ρ) c).Φ (Fin.last cfg2.N) from rfl]
    have h := hout2 (VE2 m ρ) c
    unfold Pipeline.ΦA at h
    iintro Hphi
    ihave H := h $$ Hphi
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (VE2 m ρ c) (VX2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `WE3`, left at `WX3`. Its arrays are
    split out of the unscoped buffers and put back at the exit contents; the generator register and the scoped
    buffers go into the invariant and come back out of it; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VE3 m ρ) c).loose
  hwaits := Pipeline.hwaits_of_owed_zero _ _ _ _ L lv 3 fun _ _ => rfl
  pre c := iprop(StableHlo.held (c : Thread nD τ) (Pipeline.ucRefs τ sig) (WE3 m ρ c) ∗ R c)
  post c := iprop(StableHlo.held (c : Thread nD τ) (Pipeline.ucRefs τ sig) (WX3 m ρ c) ∗ R c)
  X c := iprop(∃ r, prngReg c r)
  Y c := iprop(∃ r, prngReg c r)
  Z c := Pipeline.unscopedRest (Ix := Unit) (Name := ℕ) (U := UR sig nD τ) (Lvl := ℕ) spec3 c (VE3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (VE3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = PhiS3 (VE3 m ρ) c 0 (Nat.zero_le _) from rfl, PhiS3_zero (VE3 m ρ) c 0 _ rfl]
    unfold Pipeline.ΦA
    iintro ⟨Hp, -, Hr⟩
    isplitl [Hr]; · iexact Hr
    iexact Hp
  hout c := by
    rw [Pipeline.ownSems0_none]
    rw [show (pdats m ρ 3 c).Φ (Fin.last _) = (dat3 (VE3 m ρ) c).Φ (Fin.last cfg3.N) from rfl]
    have h := hout3 (VE3 m ρ) c
    unfold Pipeline.ΦA at h
    iintro Hphi
    ihave H := h $$ Hphi
    icases H with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (VE3 m ρ c) (VX3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .region (reg0 m ρ),
    .host (hseg hostOps1 hostOps1_sub hostOps1_noalloc (WX0 m ρ)),
    .region (reg1 m ρ),
    .host (hseg hostOps2 hostOps2_sub hostOps2_noalloc (WX1 m ρ)),
    .region (reg2 m ρ),
    .host (hseg hostOps3 hostOps3_sub hostOps3_noalloc (WX2 m ρ)),
    .region (reg3 m ρ),
    .host (hseg hostOps4 hostOps4_sub hostOps4_noalloc (WX3 m ρ)) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state has every unscoped buffer at the last boundary's contents `WF`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = WF m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (WE0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (WF m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (WE0 m ρ c)
        from Pipeline.unscopedBufs_held c (WE0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = WF m ρ c b)
    (hfin := fun c s' => by
      iintro ⟨⟨Hh, -⟩, HSI⟩
      unfold StableHlo.held
      imodintro
      iapply (pointsTo_read_all (Pipeline.ucRefs τ sig) (fun b => (((c : Thread nD τ)).1, b)) (WF m ρ c) s')
      isplitl [Hh] <;> iassumption)
    (hQ := fun s h => h)

end Cert.Kernel.Hand

end
-- ==== Proof.Kernel.Args.lean ====
/-
  The argument arrays stay as launched, at every segment boundary. The fold of buffer contents through the eight
  segments, read at an argument's buffer, walks back to the launch memory: a stretch of host operations writes only
  its own results, and a region changes only its result array (an argument it reads through an input window comes
  back as it was). Hence the frame: the program runs to the end, nothing faults, and its four arguments are unchanged.
-/
import proofs.«132851_j4544075399677_1_alg».proof.Proof.Kernel.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### `main_arg0` at every boundary: as launched -/

theorem WX0_arg0 (c : Dev nD) : WX0 m ρ c (Proc.devRef .tc main_arg0) = m ((c : Thread nD τ).loc main_arg0) :=
  ((WX0_arr m ρ c 0).trans (((dat0 (VE0 m ρ) c).arrAt_in 0 rfl _).trans (A_eq0 (VE0 m ρ) c 0))).trans rfl
theorem WE1_arg0 (c : Dev nD) : WE1 m ρ c (Proc.devRef .tc main_arg0) = m ((c : Thread nD τ).loc main_arg0) :=
  (StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX0_arg0 m ρ c)
theorem WX1_arg0 (c : Dev nD) : WX1 m ρ c (Proc.devRef .tc main_arg0) = m ((c : Thread nD τ).loc main_arg0) :=
  ((WX1_arr m ρ c 0).trans (((dat1 (VE1 m ρ) c).arrAt_in 0 rfl _).trans (A_eq1 (VE1 m ρ) c 0))).trans (WE1_arg0 m ρ c)
theorem WE2_arg0 (c : Dev nD) : WE2 m ρ c (Proc.devRef .tc main_arg0) = m ((c : Thread nD τ).loc main_arg0) :=
  (StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX1_arg0 m ρ c)
theorem WX2_arg0 (c : Dev nD) : WX2 m ρ c (Proc.devRef .tc main_arg0) = m ((c : Thread nD τ).loc main_arg0) :=
  ((WX2_arr m ρ c 0).trans (((dat2 (VE2 m ρ) c).arrAt_in 0 rfl _).trans (A_eq2 (VE2 m ρ) c 0))).trans (WE2_arg0 m ρ c)
theorem WE3_arg0 (c : Dev nD) : WE3 m ρ c (Proc.devRef .tc main_arg0) = m ((c : Thread nD τ).loc main_arg0) :=
  (StableHlo.after_of_forall_not_mem (b := Proc.devRef .tc main_arg0) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX2_arg0 m ρ c)
theorem WX3_arg0 (c : Dev nD) : WX3 m ρ c (Proc.devRef .tc main_arg0) = m ((c : Thread nD τ).loc main_arg0) :=
  ((WX3_arr m ρ c 0).trans (((dat3 (VE3 m ρ) c).arrAt_in 0 rfl _).trans (A_eq3 (VE3 m ρ) c 0))).trans (WE3_arg0 m ρ c)
theorem WF_main_arg0 (c : Dev nD) : WF m ρ c (Proc.devRef .tc main_arg0) = m ((c : Thread nD τ).loc main_arg0) :=
  (StableHlo.after_of_forall_not_mem (b := Proc.devRef .tc main_arg0) _ _ (List.forall_iff_forall_mem.mp (by
          simp only [hostOps4, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX3_arg0 m ρ c)

/-! ### `main_arg1` at every boundary: as launched -/

theorem WX0_arg1 (c : Dev nD) : WX0 m ρ c (Proc.devRef .tc main_arg1) = m ((c : Thread nD τ).loc main_arg1) :=
  ((WX0_arr m ρ c 1).trans (((dat0 (VE0 m ρ) c).arrAt_in 1 rfl _).trans (A_eq0 (VE0 m ρ) c 1))).trans rfl
theorem WE1_arg1 (c : Dev nD) : WE1 m ρ c (Proc.devRef .tc main_arg1) = m ((c : Thread nD τ).loc main_arg1) :=
  (StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX0_arg1 m ρ c)
theorem WX1_arg1 (c : Dev nD) : WX1 m ρ c (Proc.devRef .tc main_arg1) = m ((c : Thread nD τ).loc main_arg1) :=
  (WX1_of_ne m ρ c main_arg1 (by decide)).trans (WE1_arg1 m ρ c)
theorem WE2_arg1 (c : Dev nD) : WE2 m ρ c (Proc.devRef .tc main_arg1) = m ((c : Thread nD τ).loc main_arg1) :=
  (StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX1_arg1 m ρ c)
theorem WX2_arg1 (c : Dev nD) : WX2 m ρ c (Proc.devRef .tc main_arg1) = m ((c : Thread nD τ).loc main_arg1) :=
  (WX2_of_ne m ρ c main_arg1 (by decide)).trans (WE2_arg1 m ρ c)
theorem WE3_arg1 (c : Dev nD) : WE3 m ρ c (Proc.devRef .tc main_arg1) = m ((c : Thread nD τ).loc main_arg1) :=
  (StableHlo.after_of_forall_not_mem (b := Proc.devRef .tc main_arg1) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX2_arg1 m ρ c)
theorem WX3_arg1 (c : Dev nD) : WX3 m ρ c (Proc.devRef .tc main_arg1) = m ((c : Thread nD τ).loc main_arg1) :=
  (WX3_of_ne m ρ c main_arg1 (by decide)).trans (WE3_arg1 m ρ c)
theorem WF_main_arg1 (c : Dev nD) : WF m ρ c (Proc.devRef .tc main_arg1) = m ((c : Thread nD τ).loc main_arg1) :=
  (StableHlo.after_of_forall_not_mem (b := Proc.devRef .tc main_arg1) _ _ (List.forall_iff_forall_mem.mp (by
          simp only [hostOps4, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX3_arg1 m ρ c)

/-! ### `main_arg2` at every boundary: as launched -/

theorem WX0_arg2 (c : Dev nD) : WX0 m ρ c (Proc.devRef .tc main_arg2) = m ((c : Thread nD τ).loc main_arg2) :=
  (WX0_of_ne m ρ c main_arg2 (by decide)).trans rfl
theorem WE1_arg2 (c : Dev nD) : WE1 m ρ c (Proc.devRef .tc main_arg2) = m ((c : Thread nD τ).loc main_arg2) :=
  (StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX0_arg2 m ρ c)
theorem WX1_arg2 (c : Dev nD) : WX1 m ρ c (Proc.devRef .tc main_arg2) = m ((c : Thread nD τ).loc main_arg2) :=
  (WX1_of_ne m ρ c main_arg2 (by decide)).trans (WE1_arg2 m ρ c)
theorem WE2_arg2 (c : Dev nD) : WE2 m ρ c (Proc.devRef .tc main_arg2) = m ((c : Thread nD τ).loc main_arg2) :=
  (StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX1_arg2 m ρ c)
theorem WX2_arg2 (c : Dev nD) : WX2 m ρ c (Proc.devRef .tc main_arg2) = m ((c : Thread nD τ).loc main_arg2) :=
  (WX2_of_ne m ρ c main_arg2 (by decide)).trans (WE2_arg2 m ρ c)
theorem WE3_arg2 (c : Dev nD) : WE3 m ρ c (Proc.devRef .tc main_arg2) = m ((c : Thread nD τ).loc main_arg2) :=
  (StableHlo.after_of_forall_not_mem (b := Proc.devRef .tc main_arg2) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX2_arg2 m ρ c)
theorem WX3_arg2 (c : Dev nD) : WX3 m ρ c (Proc.devRef .tc main_arg2) = m ((c : Thread nD τ).loc main_arg2) :=
  (WX3_of_ne m ρ c main_arg2 (by decide)).trans (WE3_arg2 m ρ c)
theorem WF_main_arg2 (c : Dev nD) : WF m ρ c (Proc.devRef .tc main_arg2) = m ((c : Thread nD τ).loc main_arg2) :=
  (StableHlo.after_of_forall_not_mem (b := Proc.devRef .tc main_arg2) _ _ (List.forall_iff_forall_mem.mp (by
          simp only [hostOps4, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX3_arg2 m ρ c)

/-! ### `main_arg3` at every boundary: as launched -/

theorem WX0_arg3 (c : Dev nD) : WX0 m ρ c (Proc.devRef .tc main_arg3) = m ((c : Thread nD τ).loc main_arg3) :=
  (WX0_of_ne m ρ c main_arg3 (by decide)).trans rfl
theorem WE1_arg3 (c : Dev nD) : WE1 m ρ c (Proc.devRef .tc main_arg3) = m ((c : Thread nD τ).loc main_arg3) :=
  (StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX0_arg3 m ρ c)
theorem WX1_arg3 (c : Dev nD) : WX1 m ρ c (Proc.devRef .tc main_arg3) = m ((c : Thread nD τ).loc main_arg3) :=
  (WX1_of_ne m ρ c main_arg3 (by decide)).trans (WE1_arg3 m ρ c)
theorem WE2_arg3 (c : Dev nD) : WE2 m ρ c (Proc.devRef .tc main_arg3) = m ((c : Thread nD τ).loc main_arg3) :=
  (StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX1_arg3 m ρ c)
theorem WX2_arg3 (c : Dev nD) : WX2 m ρ c (Proc.devRef .tc main_arg3) = m ((c : Thread nD τ).loc main_arg3) :=
  (WX2_of_ne m ρ c main_arg3 (by decide)).trans (WE2_arg3 m ρ c)
theorem WE3_arg3 (c : Dev nD) : WE3 m ρ c (Proc.devRef .tc main_arg3) = m ((c : Thread nD τ).loc main_arg3) :=
  (StableHlo.after_of_forall_not_mem (b := Proc.devRef .tc main_arg3) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX2_arg3 m ρ c)
theorem WX3_arg3 (c : Dev nD) : WX3 m ρ c (Proc.devRef .tc main_arg3) = m ((c : Thread nD τ).loc main_arg3) :=
  (WX3_of_ne m ρ c main_arg3 (by decide)).trans (WE3_arg3 m ρ c)
theorem WF_main_arg3 (c : Dev nD) : WF m ρ c (Proc.devRef .tc main_arg3) = m ((c : Thread nD τ).loc main_arg3) :=
  (StableHlo.after_of_forall_not_mem (b := Proc.devRef .tc main_arg3) _ _ (List.forall_iff_forall_mem.mp (by
          simp only [hostOps4, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX3_arg3 m ρ c)

/-- The frame: every weakly fair execution terminates, nothing faulting, and the four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (WF_main_arg0 m ρ c),
     (h c _ (mem_uc main_arg1 (by decide))).trans (WF_main_arg1 m ρ c),
     (h c _ (mem_uc main_arg2 (by decide))).trans (WF_main_arg2 m ρ c),
     (h c _ (mem_uc main_arg3 (by decide))).trans (WF_main_arg3 m ρ c)⟩) (run_all m ρ)

end Cert.Kernel.Hand

end
-- ==== Proof.KernelIdeal.R0.Defs.lean ====
/-
  Region 0 of the program: one tiled matrix product on a 4 × 8 grid of points t = 8·i + k (i the row tile of
  2048 rows, k the tile of 1024 along the contracted axis). What the three control cases of the body share:
  the two conditions on the point in closed form over the grid (k = 0, where the accumulator is reset; k = 7,
  where it is copied to the output block), the points where the output window is idle and not written back
  (every point with k ≠ 7), the staging buffers the body is called with, the accumulator's buffer, the class
  invariant with the accumulator's buffer split off the other scoped buffers, and each window's block read off
  the arrays as the region finds them.
-/
import proofs.«132851_j4544075399677_1_alg».proof.Proof.Gen.KernelIdeal.Launch
import proofs.«132851_j4544075399677_1_alg».proof.Proof.Gen.KernelIdeal.Skeleton
import proofs.«132851_j4544075399677_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions on the point -/

/-- The accumulator is reset at this point: the body's first conditional, from the grid coordinates. -/
abbrev isFirst0 (i : grid0.Coords) : Prop :=
  (Scalar.cmpi .ne (Scalar.extui (Scalar.cmpi .eq (BitVec.ofNat 32 (i 1).val) 0#32)) 0#32) = 1#1
/-- It holds exactly at the points with k = 0. -/
theorem hFirst0 : ∀ t : Fin cfg0.N, isFirst0 (grid0.coords t) ↔ t.val % 8 = 0 :=
  (by decide +kernel : ∀ t : Fin grid0.N, isFirst0 (grid0.coords t) ↔ t.val % 8 = 0)

/-- The accumulator is copied to the output block at this point: the body's second conditional. -/
abbrev isLast0 (i : grid0.Coords) : Prop := k0_cond2 i = 1#1
/-- It holds exactly at the points with k = 7. -/
theorem hLast0 : ∀ t : Fin cfg0.N, isLast0 (grid0.coords t) ↔ t.val % 8 = 7 :=
  (by decide +kernel : ∀ t : Fin grid0.N, isLast0 (grid0.coords t) ↔ t.val % 8 = 7)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
/-- Away from k = 7 the body stores nothing into the output block, -/
theorem idle0_2 : ∀ t : Fin cfg0.N, ¬isLast0 (grid0.coords t) → cfg0.idle 2 (grid0.coords t) = true := by decide +kernel
/-- and the block is not written back there. -/
theorem noFlush0_2 : ∀ t : Fin cfg0.N, ¬isLast0 (grid0.coords t) → (cfg0.win 2).flush t = false := by decide +kernel
/-- At k = 7 it stores the whole block. -/
theorem live0_2 : ∀ t : Fin cfg0.N, isLast0 (grid0.coords t) → cfg0.idle 2 (grid0.coords t) = false := by decide +kernel

/-! ## The buffers the body is called with -/

abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev acc0 : Memref sig .tc .vmem S2048x128 .f32 := Memref.whole cc0_scratch0
/-- The views through which the output block's and the accumulator's contents are stated. -/
abbrev VO0 : View sig .tc .vmem S2048x128 .f32 := (Memref.whole cc0_stg2_0 : Memref sig .tc .vmem S2048x128 .f32).view
abbrev VA0 : View sig .tc .vmem S2048x128 .f32 := acc0.view

/-- The class invariant with the accumulator's buffer owned at some contents, every other scoped buffer that is
    no staging buffer of this region unopened, and the generator register at some state. -/
theorem PhiA0_eq (c : Dev nD) :
    (Pipeline.ΦA spec0 c : sProp 𝕄)
      = iprop(iprop((∃ d, owns (c : Thread nD τ) acc0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [acc0, owns_whole]; try rfl

/-! ## The windows' blocks -/

section Blocks
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- So does the right operand's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Blocks

end Cert.KernelIdeal.Hand

end
-- ==== Proof.KernelIdeal.R0.RunA.lean ====
/-
  Region 0, the body at a point with k = 0: the accumulator is reset to zero, the product of the two blocks added to it, the output block left alone.
  The body is run once on whole staging buffers; the pieces each buffer ends with are found by the run itself.
-/
import proofs.«132851_j4544075399677_1_alg».proof.Proof.KernelIdeal.R0.Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At k = 0: from the two operand blocks at `x0`, `x1`, the output's buffer at `xi2` and the accumulator at anything,
    the body runs to the continuation holding the operands and the output's buffer as they were and the accumulator
    with its pieces `LA` written. No piece for the output. -/
noncomputable def bodyRun0_A (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : isFirst0 i) (hc1 : ¬isLast0 i)
    (x0 : Vec F S2048x1024 .f32) (x1 : Vec F S1024x128 .f32) :
    Σ' (L2 : List (View.Piece (Elt F) S2048x128 .f32)), { LA : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LA)) -∗ K ⟨⟩))
          ⊢ wp frame (wpE (defs₀ (F := F)) Variants.none c none) E (cc0__matmul_kernel i arg2 harg2 arg3 harg3 arg4 harg4 arg5 harg5) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%da, %fa, -, HA⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HA

end Cert.KernelIdeal.Hand

end
-- ==== Proof.KernelIdeal.R0.RunB.lean ====
/-
  Region 0, the body at a point with 0 < k < 7: the product of the two blocks is added to the accumulator, the output block left alone.
  The body is run once on whole staging buffers; the pieces each buffer ends with are found by the run itself.
-/
import proofs.«132851_j4544075399677_1_alg».proof.Proof.KernelIdeal.R0.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At 0 < k < 7: from the two operand blocks at `x0`, `x1`, the output's buffer at `xi2` and the accumulator at what
    the point before left (`xa`), the body runs to the continuation holding the operands and the output's buffer as
    they were and the accumulator with its pieces `LA` written. No piece for the output. -/
noncomputable def bodyRun0_B (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst0 i) (hc1 : ¬isLast0 i)
    (x0 : Vec F S2048x1024 .f32) (x1 : Vec F S1024x128 .f32) (xa : Vec F S2048x128 .f32) :
    Σ' (L2 : List (View.Piece (Elt F) S2048x128 .f32)), { LA : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xa
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LA)) -∗ K ⟨⟩))
          ⊢ wp frame (wpE (defs₀ (F := F)) Variants.none c none) E (cc0__matmul_kernel i arg2 harg2 arg3 harg3 arg4 harg4 arg5 harg5) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fa, %hfa, HA⟩, Hk⟩
    obtain rfl := harg2.eq_unread hf0; obtain rfl := harg3.eq_unread hf1; obtain rfl := harg4.eq_unread hf2; obtain rfl := harg5.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HA

end Cert.KernelIdeal.Hand

end
-- ==== Proof.KernelIdeal.R0.RunC.lean ====
/-
  Region 0, the body at a point with k = 7: the product of the two blocks is added to the accumulator and the accumulator copied to the output block.
  The body is run once on whole staging buffers; the pieces each buffer ends with are found by the run itself.
-/
import proofs.«132851_j4544075399677_1_alg».proof.Proof.KernelIdeal.R0.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At k = 7: from the two operand blocks at `x0`, `x1`, the output's buffer at anything and the accumulator at what the
    point before left (`xa`), the body runs to the continuation holding the operands as they were, the output's
    buffer with its pieces `L2` written and the accumulator with its pieces `LA` written. -/
noncomputable def bodyRun0_C (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst0 i) (hc1 : isLast0 i)
    (x0 : Vec F S2048x1024 .f32) (x1 : Vec F S1024x128 .f32) (xa : Vec F S2048x128 .f32) :
    Σ' (L2 : List (View.Piece (Elt F) S2048x128 .f32)), { LA : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xa
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LA)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fa, %hfa, HA⟩, Hk⟩
    obtain rfl := harg2.eq_unread hf0; obtain rfl := harg3.eq_unread hf1; obtain rfl := harg5.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HA

end Cert.KernelIdeal.Hand

end
-- ==== Proof.KernelIdeal.R0.Data.lean ====
/-
  Region 0: what the accumulator and the output block hold after the body, case by case (the pieces each run
  found, read back) and point by point (a recursion on the point: at k = 0 the accumulator restarts from the two
  blocks alone, at every other point it continues from what the point before left; the output block is written
  at k = 7 only); the region's invariant, which carries the accumulator at those contents from one point to the
  next; the pipeline's proof data; and the body obligation at every point, by cases on k.
-/
import proofs.«132851_j4544075399677_1_alg».proof.Proof.KernelIdeal.R0.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

theorem coverA0_A (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : isFirst0 i) (hc1 : ¬isLast0 i) (x0 : Vec F S2048x1024 .f32) (x1 : Vec F S1024x128 .f32) (y : S2048x128.Idx) :
    ∃ pc ∈ (bodyRun0_A c i arg2 harg2 arg3 harg3 arg4 harg4 arg5 harg5 hc0 hc1 x0 x1).2.1, y ∈ pc.1.set :=
  View.cover_of_tiledL (bodyRun0_A c i arg2 harg2 arg3 harg3 arg4 harg4 arg5 harg5 hc0 hc1 x0 x1).2.1 S2048x128.size (by sl_kernel_rfl) y
/-- The accumulator after a point with k = 0. -/
def accAfter0_A (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : isFirst0 i) (hc1 : ¬isLast0 i) (x0 : Vec F S2048x1024 .f32) (x1 : Vec F S1024x128 .f32) : Vec F S2048x128 .f32 :=
  VA0.read (Elt F) (VA0.writes (Elt F) VA0.junk (bodyRun0_A c i arg2 harg2 arg3 harg3 arg4 harg4 arg5 harg5 hc0 hc1 x0 x1).2.1)

theorem coverA0_B (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst0 i) (hc1 : ¬isLast0 i) (x0 : Vec F S2048x1024 .f32) (x1 : Vec F S1024x128 .f32) (xa : Vec F S2048x128 .f32) (y : S2048x128.Idx) :
    ∃ pc ∈ (bodyRun0_B c i arg2 harg2 arg3 harg3 arg4 harg4 arg5 harg5 hc0 hc1 x0 x1 xa).2.1, y ∈ pc.1.set :=
  View.cover_of_tiledL (bodyRun0_B c i arg2 harg2 arg3 harg3 arg4 harg4 arg5 harg5 hc0 hc1 x0 x1 xa).2.1 S2048x128.size (by sl_kernel_rfl) y
/-- The accumulator after a point with 0 < k < 7, from what the point before left. -/
def accAfter0_B (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst0 i) (hc1 : ¬isLast0 i) (x0 : Vec F S2048x1024 .f32) (x1 : Vec F S1024x128 .f32) (xa : Vec F S2048x128 .f32) : Vec F S2048x128 .f32 :=
  VA0.read (Elt F) (VA0.writes (Elt F) VA0.junk (bodyRun0_B c i arg2 harg2 arg3 harg3 arg4 harg4 arg5 harg5 hc0 hc1 x0 x1 xa).2.1)

theorem coverO0_C (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst0 i) (hc1 : isLast0 i) (x0 : Vec F S2048x1024 .f32) (x1 : Vec F S1024x128 .f32) (xa : Vec F S2048x128 .f32) (y : S2048x128.Idx) :
    ∃ pc ∈ (bodyRun0_C c i arg2 harg2 arg3 harg3 arg4 harg4 arg5 harg5 hc0 hc1 x0 x1 xa).1, y ∈ pc.1.set :=
  View.cover_of_tiledL (bodyRun0_C c i arg2 harg2 arg3 harg3 arg4 harg4 arg5 harg5 hc0 hc1 x0 x1 xa).1 S2048x128.size (by sl_kernel_rfl) y
/-- The output block after a point with k = 7. -/
def outAfter0_C (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst0 i) (hc1 : isLast0 i) (x0 : Vec F S2048x1024 .f32) (x1 : Vec F S1024x128 .f32) (xa : Vec F S2048x128 .f32) : Vec F S2048x128 .f32 :=
  VO0.read (Elt F) (VO0.writes (Elt F) VO0.junk (bodyRun0_C c i arg2 harg2 arg3 harg3 arg4 harg4 arg5 harg5 hc0 hc1 x0 x1 xa).1)
theorem coverA0_C (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst0 i) (hc1 : isLast0 i) (x0 : Vec F S2048x1024 .f32) (x1 : Vec F S1024x128 .f32) (xa : Vec F S2048x128 .f32) (y : S2048x128.Idx) :
    ∃ pc ∈ (bodyRun0_C c i arg2 harg2 arg3 harg3 arg4 harg4 arg5 harg5 hc0 hc1 x0 x1 xa).2.1, y ∈ pc.1.set :=
  View.cover_of_tiledL (bodyRun0_C c i arg2 harg2 arg3 harg3 arg4 harg4 arg5 harg5 hc0 hc1 x0 x1 xa).2.1 S2048x128.size (by sl_kernel_rfl) y
/-- The accumulator after a point with k = 7. -/
def accAfter0_C (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst0 i) (hc1 : isLast0 i) (x0 : Vec F S2048x1024 .f32) (x1 : Vec F S1024x128 .f32) (xa : Vec F S2048x128 .f32) : Vec F S2048x128 .f32 :=
  VA0.read (Elt F) (VA0.writes (Elt F) VA0.junk (bodyRun0_C c i arg2 harg2 arg3 harg3 arg4 harg4 arg5 harg5 hc0 hc1 x0 x1 xa).2.1)

/-- The output block at a point where nothing is stored into it: a placeholder nothing consults (the block is
    neither written back there nor read at the next point). -/
def idleOut0 : Vec F S2048x128 .f32 := VO0.read (Elt F) VO0.junk

section Data
variable (V : (c : Dev nD) → (b : Ref sig .tc) → Buf (Elt F) ((c : Thread nD τ).loc b))

/-! ## Point by point -/

/-- What the output's staging buffer and the accumulator hold after the body at position `n`. -/
def outsAt0 (c : Dev nD) : (n : ℕ) → n < cfg0.N → Vec F S2048x128 .f32 × Vec F S2048x128 .f32
  | 0, hn => (idleOut0, accAfter0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) acc0 (Memref.isWhole_whole _) ((hFirst0 ⟨0, hn⟩).mpr (Nat.zero_mod _)) (fun h => (fun h => by (try dsimp only at h); omega) ((hLast0 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (idleOut0, accAfter0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) acc0 (Memref.isWhole_whole _) ((hFirst0 ⟨n + 1, hn⟩).mpr h0) (fun h => h1 ((hLast0 ⟨n + 1, hn⟩).mp h)) (iblk0 V c 0 ⟨n + 1, hn⟩) (iblk0 V c 1 ⟨n + 1, hn⟩))
    else
      if h1 : (n + 1) % 8 = 7 then
        (outAfter0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) acc0 (Memref.isWhole_whole _) (fun h => h0 ((hFirst0 ⟨n + 1, hn⟩).mp h)) ((hLast0 ⟨n + 1, hn⟩).mpr h1) (iblk0 V c 0 ⟨n + 1, hn⟩) (iblk0 V c 1 ⟨n + 1, hn⟩) (outsAt0 c n (Nat.lt_of_succ_lt hn)).2, accAfter0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) acc0 (Memref.isWhole_whole _) (fun h => h0 ((hFirst0 ⟨n + 1, hn⟩).mp h)) ((hLast0 ⟨n + 1, hn⟩).mpr h1) (iblk0 V c 0 ⟨n + 1, hn⟩) (iblk0 V c 1 ⟨n + 1, hn⟩) (outsAt0 c n (Nat.lt_of_succ_lt hn)).2)
      else
        (idleOut0, accAfter0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) acc0 (Memref.isWhole_whole _) (fun h => h0 ((hFirst0 ⟨n + 1, hn⟩).mp h)) (fun h => h1 ((hLast0 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (idleOut0, accAfter0_A c (grid0.coords t) (ms0_0 t) (hs0_0 t) (ms0_1 t) (hs0_1 t) (ms0_2 t) (hs0_2 t) acc0 (Memref.isWhole_whole _) ((hFirst0 t).mpr h0) (fun h => h1 ((hLast0 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (idleOut0, accAfter0_B c (grid0.coords t) (ms0_0 t) (hs0_0 t) (ms0_1 t) (hs0_1 t) (ms0_2 t) (hs0_2 t) acc0 (Memref.isWhole_whole _) (fun h => h0 ((hFirst0 t).mp h)) (fun h => h1 ((hLast0 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (outAfter0_C c (grid0.coords t) (ms0_0 t) (hs0_0 t) (ms0_1 t) (hs0_1 t) (ms0_2 t) (hs0_2 t) acc0 (Memref.isWhole_whole _) (fun h => h0 ((hFirst0 t).mp h)) ((hLast0 t).mpr h1) (iblk0 V c 0 t) (iblk0 V c 1 t) (outsAt0 V c (t.val - 1) (Nat.lt_of_le_of_lt (Nat.sub_le _ _) t.isLt)).2, accAfter0_C c (grid0.coords t) (ms0_0 t) (hs0_0 t) (ms0_1 t) (hs0_1 t) (ms0_2 t) (hs0_2 t) acc0 (Memref.isWhole_whole _) (fun h => h0 ((hFirst0 t).mp h)) ((hLast0 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the region's entry the class invariant (the accumulator at anything); afterwards the
    accumulator at what the point before left, the other scoped buffers unopened, the generator register at some state. -/
def PhiS0 (c : Dev nD) : (n : ℕ) → n ≤ cfg0.N → sProp 𝕄
  | 0, _ => Pipeline.ΦA spec0 c
  | n + 1, hn => iprop(iprop(owns (c : Thread nD τ) acc0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) acc0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) acc0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The arrays as the region finds them; after the body each operand's buffer at its block and the output's at
    `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the operands' buffers hold their blocks; the closed forms say which case the point is in;
    the invariant hands the body the accumulator at what the point before left (at anything at the region's first
    point, and the reset at k = 0 needs nothing of it) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  by_cases h0 : t.val % 8 = 0
  · have h1 : ¬t.val % 8 = 7 := by omega
    rw [Dat.leavesExact_idle (dat0 V c) 2 t (idle0_2 t (fun h => h1 ((hLast0 t).mp h))) (noFlush0_2 t (fun h => h1 ((hLast0 t).mp h)))]
    rw [outsAt0_A V c t h0 h1]
    unfold accAfter0_A; (try dsimp only)
    by_cases hz : t.val = 0
    · rw [PhiS0_castSucc V c t, PhiS0_zero V c _ _ hz, PhiA0_eq]
      iintro ⟨⟨⟨HA, Hrest⟩, Hg⟩, Ho, ⟨%d0, H0⟩, ⟨%d1, H1⟩, ⟨%d2, H2⟩⟩
      iapply ((bodyRun0_A c (grid0.coords t) _ _ _ _ _ _ _ _ ((hFirst0 t).mpr h0) (fun h => h1 ((hLast0 t).mp h)) (iblk0 V c 0 t) (iblk0 V c 1 t)).2.2 _ Set.univ _)
      isplitl [H0]; · iexact H0
      isplitl [H1]; · iexact H1
      isplitl [H2]; · iexact H2
      isplitl [HA]; · iexact HA
      iintro ⟨H0, H1, H2, ⟨%ea, HA⟩⟩
      isplitl [HA Hrest Hg]
      · isplitl [HA Hrest]
        · isplitl [HA]
          · unfold owns; iexists _; isplitr
            swap; · iexact HA
            ipureintro; exact View.read_writes_of_cover _ _ _ _ _ (coverA0_A c _ _ _ _ _ _ _ _ _ _ _ _ _)
          iexact Hrest
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HA, Hrest⟩, Hg⟩, Ho, ⟨%d0, H0⟩, ⟨%d1, H1⟩, ⟨%d2, H2⟩⟩
      iapply ((bodyRun0_A c (grid0.coords t) _ _ _ _ _ _ _ _ ((hFirst0 t).mpr h0) (fun h => h1 ((hLast0 t).mp h)) (iblk0 V c 0 t) (iblk0 V c 1 t)).2.2 _ Set.univ _)
      isplitl [H0]; · iexact H0
      isplitl [H1]; · iexact H1
      isplitl [H2]; · iexact H2
      isplitl [HA]; · iexists _; iexact HA
      iintro ⟨H0, H1, H2, ⟨%ea, HA⟩⟩
      isplitl [HA Hrest Hg]
      · isplitl [HA Hrest]
        · isplitl [HA]
          · unfold owns; iexists _; isplitr
            swap; · iexact HA
            ipureintro; exact View.read_writes_of_cover _ _ _ _ _ (coverA0_A c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := by omega
    by_cases h1 : t.val % 8 = 7
    · rw [show (dat0 V c).leavesExact 2 t = owns (c : Thread nD τ) (ms0_2 t) fullShare ((dat0 V c).after 2 t) from by
        unfold Dat.leavesExact; rw [live0_2 t ((hLast0 t).mpr h1)], after0_2]
      rw [outsAt0_C V c t h0 h1]
      unfold outAfter0_C accAfter0_C; (try dsimp only)
      rw [PhiS0_castSucc V c t, PhiS0_pos V c _ _ hz]
      iintro ⟨⟨⟨HA, Hrest⟩, Hg⟩, Ho, ⟨%d0, H0⟩, ⟨%d1, H1⟩, ⟨%d2, H2⟩⟩
      iapply ((bodyRun0_C c (grid0.coords t) _ _ _ _ _ _ _ _ (fun h => h0 ((hFirst0 t).mp h)) ((hLast0 t).mpr h1) (iblk0 V c 0 t) (iblk0 V c 1 t) _).2.2 Set.univ _)
      isplitl [H0]; · iexact H0
      isplitl [H1]; · iexact H1
      isplitl [H2]; · iexists _; iexact H2
      isplitl [HA]; · iexact HA
      iintro ⟨H0, H1, ⟨%e2, H2⟩, ⟨%ea, HA⟩⟩
      isplitl [HA Hrest Hg]
      · isplitl [HA Hrest]
        · isplitl [HA]
          · unfold owns; iexists _; isplitr
            swap; · iexact HA
            ipureintro; exact View.read_writes_of_cover _ _ _ _ _ (coverA0_C c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverO0_C c _ _ _ _ _ _ _ _ _ _ _ _ _ _)
    · rw [Dat.leavesExact_idle (dat0 V c) 2 t (idle0_2 t (fun h => h1 ((hLast0 t).mp h))) (noFlush0_2 t (fun h => h1 ((hLast0 t).mp h)))]
      rw [outsAt0_B V c t h0 h1]
      unfold accAfter0_B; (try dsimp only)
      rw [PhiS0_castSucc V c t, PhiS0_pos V c _ _ hz]
      iintro ⟨⟨⟨HA, Hrest⟩, Hg⟩, Ho, ⟨%d0, H0⟩, ⟨%d1, H1⟩, ⟨%d2, H2⟩⟩
      iapply ((bodyRun0_B c (grid0.coords t) _ _ _ _ _ _ _ _ (fun h => h0 ((hFirst0 t).mp h)) (fun h => h1 ((hLast0 t).mp h)) (iblk0 V c 0 t) (iblk0 V c 1 t) _).2.2 _ Set.univ _)
      isplitl [H0]; · iexact H0
      isplitl [H1]; · iexact H1
      isplitl [H2]; · iexact H2
      isplitl [HA]; · iexact HA
      iintro ⟨H0, H1, H2, ⟨%ea, HA⟩⟩
      isplitl [HA Hrest Hg]
      · isplitl [HA Hrest]
        · isplitl [HA]
          · unfold owns; iexists _; isplitr
            swap; · iexact HA
            ipureintro; exact View.read_writes_of_cover _ _ _ _ _ (coverA0_B c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HA, Hrest⟩, Hg⟩
  isplitl [HA Hrest]
  · isplitl [HA]; · iexists _; iexact HA
    iexact Hrest
  iexact Hg

end Data

end Cert.KernelIdeal.Hand

end
-- ==== Proof.KernelIdeal.R1.Defs.lean ====
/-
  Region 1 of the program: one tiled matrix product on a 4 × 8 grid of points t = 8·i + k (i the row tile of
  2048 rows, k the tile of 1024 along the contracted axis). What the three control cases of the body share:
  the two conditions on the point in closed form over the grid (k = 0, where the accumulator is reset; k = 7,
  where it is copied to the output block), the points where the output window is idle and not written back
  (every point with k ≠ 7), the staging buffers the body is called with, the accumulator's buffer, the class
  invariant with the accumulator's buffer split off the other scoped buffers, and each window's block read off
  the arrays as the region finds them.
-/
import proofs.«132851_j4544075399677_1_alg».proof.Proof.Gen.KernelIdeal.Launch
import proofs.«132851_j4544075399677_1_alg».proof.Proof.Gen.KernelIdeal.Skeleton
import proofs.«132851_j4544075399677_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions on the point -/

/-- The accumulator is reset at this point: the body's first conditional, from the grid coordinates. -/
abbrev isFirst1 (i : grid1.Coords) : Prop :=
  (Scalar.cmpi .ne (Scalar.extui (Scalar.cmpi .eq (BitVec.ofNat 32 (i 1).val) 0#32)) 0#32) = 1#1
/-- It holds exactly at the points with k = 0. -/
theorem hFirst1 : ∀ t : Fin cfg1.N, isFirst1 (grid1.coords t) ↔ t.val % 8 = 0 :=
  (by decide +kernel : ∀ t : Fin grid1.N, isFirst1 (grid1.coords t) ↔ t.val % 8 = 0)

/-- The accumulator is copied to the output block at this point: the body's second conditional. -/
abbrev isLast1 (i : grid1.Coords) : Prop := k1_cond2 i = 1#1
/-- It holds exactly at the points with k = 7. -/
theorem hLast1 : ∀ t : Fin cfg1.N, isLast1 (grid1.coords t) ↔ t.val % 8 = 7 :=
  (by decide +kernel : ∀ t : Fin grid1.N, isLast1 (grid1.coords t) ↔ t.val % 8 = 7)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
/-- Away from k = 7 the body stores nothing into the output block, -/
theorem idle1_2 : ∀ t : Fin cfg1.N, ¬isLast1 (grid1.coords t) → cfg1.idle 2 (grid1.coords t) = true := by decide +kernel
/-- and the block is not written back there. -/
theorem noFlush1_2 : ∀ t : Fin cfg1.N, ¬isLast1 (grid1.coords t) → (cfg1.win 2).flush t = false := by decide +kernel
/-- At k = 7 it stores the whole block. -/
theorem live1_2 : ∀ t : Fin cfg1.N, isLast1 (grid1.coords t) → cfg1.idle 2 (grid1.coords t) = false := by decide +kernel

/-! ## The buffers the body is called with -/

abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x128 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev acc1 : Memref sig .tc .vmem S2048x128 .f32 := Memref.whole cc1_scratch0
/-- The views through which the output block's and the accumulator's contents are stated. -/
abbrev VO1 : View sig .tc .vmem S2048x128 .f32 := (Memref.whole cc1_stg2_0 : Memref sig .tc .vmem S2048x128 .f32).view
abbrev VA1 : View sig .tc .vmem S2048x128 .f32 := acc1.view

/-- The class invariant with the accumulator's buffer owned at some contents, every other scoped buffer that is
    no staging buffer of this region unopened, and the generator register at some state. -/
theorem PhiA1_eq (c : Dev nD) :
    (Pipeline.ΦA spec1 c : sProp 𝕄)
      = iprop(iprop((∃ d, owns (c : Thread nD τ) acc1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [acc1, owns_whole]; try rfl

/-! ## The windows' blocks -/

section Blocks
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- So does the right operand's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.KernelIdeal.Hand

end
-- ==== Proof.KernelIdeal.R1.RunA.lean ====
/-
  Region 1, the body at a point with k = 0: the accumulator is reset to zero, the product of the two blocks added to it, the output block left alone.
  The body is run once on whole staging buffers; the pieces each buffer ends with are found by the run itself.
-/
import proofs.«132851_j4544075399677_1_alg».proof.Proof.KernelIdeal.R1.Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At k = 0: from the two operand blocks at `x0`, `x1`, the output's buffer at `xi2` and the accumulator at anything,
    the body runs to the continuation holding the operands and the output's buffer as they were and the accumulator
    with its pieces `LA` written. No piece for the output. -/
noncomputable def bodyRun1_A (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : isFirst1 i) (hc1 : ¬isLast1 i)
    (x0 : Vec F S2048x1024 .f32) (x1 : Vec F S1024x128 .f32) :
    Σ' (L2 : List (View.Piece (Elt F) S2048x128 .f32)), { LA : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LA)) -∗ K ⟨⟩))
          ⊢ wp frame (wpE (defs₀ (F := F)) Variants.none c none) E (cc1__matmul_kernel i arg2 harg2 arg3 harg3 arg4 harg4 arg5 harg5) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%da, %fa, -, HA⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HA

end Cert.KernelIdeal.Hand

end
-- ==== Proof.KernelIdeal.R1.RunB.lean ====
/-
  Region 1, the body at a point with 0 < k < 7: the product of the two blocks is added to the accumulator, the output block left alone.
  The body is run once on whole staging buffers; the pieces each buffer ends with are found by the run itself.
-/
import proofs.«132851_j4544075399677_1_alg».proof.Proof.KernelIdeal.R1.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At 0 < k < 7: from the two operand blocks at `x0`, `x1`, the output's buffer at `xi2` and the accumulator at what
    the point before left (`xa`), the body runs to the continuation holding the operands and the output's buffer as
    they were and the accumulator with its pieces `LA` written. No piece for the output. -/
noncomputable def bodyRun1_B (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst1 i) (hc1 : ¬isLast1 i)
    (x0 : Vec F S2048x1024 .f32) (x1 : Vec F S1024x128 .f32) (xa : Vec F S2048x128 .f32) :
    Σ' (L2 : List (View.Piece (Elt F) S2048x128 .f32)), { LA : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xa
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LA)) -∗ K ⟨⟩))
          ⊢ wp frame (wpE (defs₀ (F := F)) Variants.none c none) E (cc1__matmul_kernel i arg2 harg2 arg3 harg3 arg4 harg4 arg5 harg5) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fa, %hfa, HA⟩, Hk⟩
    obtain rfl := harg2.eq_unread hf0; obtain rfl := harg3.eq_unread hf1; obtain rfl := harg4.eq_unread hf2; obtain rfl := harg5.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HA

end Cert.KernelIdeal.Hand

end
-- ==== Proof.KernelIdeal.R1.RunC.lean ====
/-
  Region 1, the body at a point with k = 7: the product of the two blocks is added to the accumulator and the accumulator copied to the output block.
  The body is run once on whole staging buffers; the pieces each buffer ends with are found by the run itself.
-/
import proofs.«132851_j4544075399677_1_alg».proof.Proof.KernelIdeal.R1.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At k = 7: from the two operand blocks at `x0`, `x1`, the output's buffer at anything and the accumulator at what the
    point before left (`xa`), the body runs to the continuation holding the operands as they were, the output's
    buffer with its pieces `L2` written and the accumulator with its pieces `LA` written. -/
noncomputable def bodyRun1_C (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst1 i) (hc1 : isLast1 i)
    (x0 : Vec F S2048x1024 .f32) (x1 : Vec F S1024x128 .f32) (xa : Vec F S2048x128 .f32) :
    Σ' (L2 : List (View.Piece (Elt F) S2048x128 .f32)), { LA : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xa
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LA)) -∗ K ⟨⟩))
          ⊢ wp frame (wpE (defs₀ (F := F)) Variants.none c none) E (cc1__matmul_kernel i arg2 harg2 arg3 harg3 arg4 harg4 arg5 harg5) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fa, %hfa, HA⟩, Hk⟩
    obtain rfl := harg2.eq_unread hf0; obtain rfl := harg3.eq_unread hf1; obtain rfl := harg5.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HA

end Cert.KernelIdeal.Hand

end
-- ==== Proof.KernelIdeal.R1.Data.lean ====
/-
  Region 1: what the accumulator and the output block hold after the body, case by case (the pieces each run
  found, read back) and point by point (a recursion on the point: at k = 0 the accumulator restarts from the two
  blocks alone, at every other point it continues from what the point before left; the output block is written
  at k = 7 only); the region's invariant, which carries the accumulator at those contents from one point to the
  next; the pipeline's proof data; and the body obligation at every point, by cases on k.
-/
import proofs.«132851_j4544075399677_1_alg».proof.Proof.KernelIdeal.R1.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

theorem coverA1_A (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : isFirst1 i) (hc1 : ¬isLast1 i) (x0 : Vec F S2048x1024 .f32) (x1 : Vec F S1024x128 .f32) (y : S2048x128.Idx) :
    ∃ pc ∈ (bodyRun1_A c i arg2 harg2 arg3 harg3 arg4 harg4 arg5 harg5 hc0 hc1 x0 x1).2.1, y ∈ pc.1.set :=
  View.cover_of_tiledL (bodyRun1_A c i arg2 harg2 arg3 harg3 arg4 harg4 arg5 harg5 hc0 hc1 x0 x1).2.1 S2048x128.size (by sl_kernel_rfl) y
/-- The accumulator after a point with k = 0. -/
def accAfter1_A (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : isFirst1 i) (hc1 : ¬isLast1 i) (x0 : Vec F S2048x1024 .f32) (x1 : Vec F S1024x128 .f32) : Vec F S2048x128 .f32 :=
  VA1.read (Elt F) (VA1.writes (Elt F) VA1.junk (bodyRun1_A c i arg2 harg2 arg3 harg3 arg4 harg4 arg5 harg5 hc0 hc1 x0 x1).2.1)

theorem coverA1_B (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst1 i) (hc1 : ¬isLast1 i) (x0 : Vec F S2048x1024 .f32) (x1 : Vec F S1024x128 .f32) (xa : Vec F S2048x128 .f32) (y : S2048x128.Idx) :
    ∃ pc ∈ (bodyRun1_B c i arg2 harg2 arg3 harg3 arg4 harg4 arg5 harg5 hc0 hc1 x0 x1 xa).2.1, y ∈ pc.1.set :=
  View.cover_of_tiledL (bodyRun1_B c i arg2 harg2 arg3 harg3 arg4 harg4 arg5 harg5 hc0 hc1 x0 x1 xa).2.1 S2048x128.size (by sl_kernel_rfl) y
/-- The accumulator after a point with 0 < k < 7, from what the point before left. -/
def accAfter1_B (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst1 i) (hc1 : ¬isLast1 i) (x0 : Vec F S2048x1024 .f32) (x1 : Vec F S1024x128 .f32) (xa : Vec F S2048x128 .f32) : Vec F S2048x128 .f32 :=
  VA1.read (Elt F) (VA1.writes (Elt F) VA1.junk (bodyRun1_B c i arg2 harg2 arg3 harg3 arg4 harg4 arg5 harg5 hc0 hc1 x0 x1 xa).2.1)

theorem coverO1_C (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst1 i) (hc1 : isLast1 i) (x0 : Vec F S2048x1024 .f32) (x1 : Vec F S1024x128 .f32) (xa : Vec F S2048x128 .f32) (y : S2048x128.Idx) :
    ∃ pc ∈ (bodyRun1_C c i arg2 harg2 arg3 harg3 arg4 harg4 arg5 harg5 hc0 hc1 x0 x1 xa).1, y ∈ pc.1.set :=
  View.cover_of_tiledL (bodyRun1_C c i arg2 harg2 arg3 harg3 arg4 harg4 arg5 harg5 hc0 hc1 x0 x1 xa).1 S2048x128.size (by sl_kernel_rfl) y
/-- The output block after a point with k = 7. -/
def outAfter1_C (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst1 i) (hc1 : isLast1 i) (x0 : Vec F S2048x1024 .f32) (x1 : Vec F S1024x128 .f32) (xa : Vec F S2048x128 .f32) : Vec F S2048x128 .f32 :=
  VO1.read (Elt F) (VO1.writes (Elt F) VO1.junk (bodyRun1_C c i arg2 harg2 arg3 harg3 arg4 harg4 arg5 harg5 hc0 hc1 x0 x1 xa).1)
theorem coverA1_C (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst1 i) (hc1 : isLast1 i) (x0 : Vec F S2048x1024 .f32) (x1 : Vec F S1024x128 .f32) (xa : Vec F S2048x128 .f32) (y : S2048x128.Idx) :
    ∃ pc ∈ (bodyRun1_C c i arg2 harg2 arg3 harg3 arg4 harg4 arg5 harg5 hc0 hc1 x0 x1 xa).2.1, y ∈ pc.1.set :=
  View.cover_of_tiledL (bodyRun1_C c i arg2 harg2 arg3 harg3 arg4 harg4 arg5 harg5 hc0 hc1 x0 x1 xa).2.1 S2048x128.size (by sl_kernel_rfl) y
/-- The accumulator after a point with k = 7. -/
def accAfter1_C (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst1 i) (hc1 : isLast1 i) (x0 : Vec F S2048x1024 .f32) (x1 : Vec F S1024x128 .f32) (xa : Vec F S2048x128 .f32) : Vec F S2048x128 .f32 :=
  VA1.read (Elt F) (VA1.writes (Elt F) VA1.junk (bodyRun1_C c i arg2 harg2 arg3 harg3 arg4 harg4 arg5 harg5 hc0 hc1 x0 x1 xa).2.1)

/-- The output block at a point where nothing is stored into it: a placeholder nothing consults (the block is
    neither written back there nor read at the next point). -/
def idleOut1 : Vec F S2048x128 .f32 := VO1.read (Elt F) VO1.junk

section Data
variable (V : (c : Dev nD) → (b : Ref sig .tc) → Buf (Elt F) ((c : Thread nD τ).loc b))

/-! ## Point by point -/

/-- What the output's staging buffer and the accumulator hold after the body at position `n`. -/
def outsAt1 (c : Dev nD) : (n : ℕ) → n < cfg1.N → Vec F S2048x128 .f32 × Vec F S2048x128 .f32
  | 0, hn => (idleOut1, accAfter1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) acc1 (Memref.isWhole_whole _) ((hFirst1 ⟨0, hn⟩).mpr (Nat.zero_mod _)) (fun h => (fun h => by (try dsimp only at h); omega) ((hLast1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (idleOut1, accAfter1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) acc1 (Memref.isWhole_whole _) ((hFirst1 ⟨n + 1, hn⟩).mpr h0) (fun h => h1 ((hLast1 ⟨n + 1, hn⟩).mp h)) (iblk1 V c 0 ⟨n + 1, hn⟩) (iblk1 V c 1 ⟨n + 1, hn⟩))
    else
      if h1 : (n + 1) % 8 = 7 then
        (outAfter1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) acc1 (Memref.isWhole_whole _) (fun h => h0 ((hFirst1 ⟨n + 1, hn⟩).mp h)) ((hLast1 ⟨n + 1, hn⟩).mpr h1) (iblk1 V c 0 ⟨n + 1, hn⟩) (iblk1 V c 1 ⟨n + 1, hn⟩) (outsAt1 c n (Nat.lt_of_succ_lt hn)).2, accAfter1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) acc1 (Memref.isWhole_whole _) (fun h => h0 ((hFirst1 ⟨n + 1, hn⟩).mp h)) ((hLast1 ⟨n + 1, hn⟩).mpr h1) (iblk1 V c 0 ⟨n + 1, hn⟩) (iblk1 V c 1 ⟨n + 1, hn⟩) (outsAt1 c n (Nat.lt_of_succ_lt hn)).2)
      else
        (idleOut1, accAfter1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) acc1 (Memref.isWhole_whole _) (fun h => h0 ((hFirst1 ⟨n + 1, hn⟩).mp h)) (fun h => h1 ((hLast1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (idleOut1, accAfter1_A c (grid1.coords t) (ms1_0 t) (hs1_0 t) (ms1_1 t) (hs1_1 t) (ms1_2 t) (hs1_2 t) acc1 (Memref.isWhole_whole _) ((hFirst1 t).mpr h0) (fun h => h1 ((hLast1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (idleOut1, accAfter1_B c (grid1.coords t) (ms1_0 t) (hs1_0 t) (ms1_1 t) (hs1_1 t) (ms1_2 t) (hs1_2 t) acc1 (Memref.isWhole_whole _) (fun h => h0 ((hFirst1 t).mp h)) (fun h => h1 ((hLast1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (outAfter1_C c (grid1.coords t) (ms1_0 t) (hs1_0 t) (ms1_1 t) (hs1_1 t) (ms1_2 t) (hs1_2 t) acc1 (Memref.isWhole_whole _) (fun h => h0 ((hFirst1 t).mp h)) ((hLast1 t).mpr h1) (iblk1 V c 0 t) (iblk1 V c 1 t) (outsAt1 V c (t.val - 1) (Nat.lt_of_le_of_lt (Nat.sub_le _ _) t.isLt)).2, accAfter1_C c (grid1.coords t) (ms1_0 t) (hs1_0 t) (ms1_1 t) (hs1_1 t) (ms1_2 t) (hs1_2 t) acc1 (Memref.isWhole_whole _) (fun h => h0 ((hFirst1 t).mp h)) ((hLast1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the region's entry the class invariant (the accumulator at anything); afterwards the
    accumulator at what the point before left, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) acc1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) acc1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) acc1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The arrays as the region finds them; after the body each operand's buffer at its block and the output's at
    `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the operands' buffers hold their blocks; the closed forms say which case the point is in;
    the invariant hands the body the accumulator at what the point before left (at anything at the region's first
    point, and the reset at k = 0 needs nothing of it) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  by_cases h0 : t.val % 8 = 0
  · have h1 : ¬t.val % 8 = 7 := by omega
    rw [Dat.leavesExact_idle (dat1 V c) 2 t (idle1_2 t (fun h => h1 ((hLast1 t).mp h))) (noFlush1_2 t (fun h => h1 ((hLast1 t).mp h)))]
    rw [outsAt1_A V c t h0 h1]
    unfold accAfter1_A; (try dsimp only)
    by_cases hz : t.val = 0
    · rw [PhiS1_castSucc V c t, PhiS1_zero V c _ _ hz, PhiA1_eq]
      iintro ⟨⟨⟨HA, Hrest⟩, Hg⟩, Ho, ⟨%d0, H0⟩, ⟨%d1, H1⟩, ⟨%d2, H2⟩⟩
      iapply ((bodyRun1_A c (grid1.coords t) _ _ _ _ _ _ _ _ ((hFirst1 t).mpr h0) (fun h => h1 ((hLast1 t).mp h)) (iblk1 V c 0 t) (iblk1 V c 1 t)).2.2 _ Set.univ _)
      isplitl [H0]; · iexact H0
      isplitl [H1]; · iexact H1
      isplitl [H2]; · iexact H2
      isplitl [HA]; · iexact HA
      iintro ⟨H0, H1, H2, ⟨%ea, HA⟩⟩
      isplitl [HA Hrest Hg]
      · isplitl [HA Hrest]
        · isplitl [HA]
          · unfold owns; iexists _; isplitr
            swap; · iexact HA
            ipureintro; exact View.read_writes_of_cover _ _ _ _ _ (coverA1_A c _ _ _ _ _ _ _ _ _ _ _ _ _)
          iexact Hrest
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HA, Hrest⟩, Hg⟩, Ho, ⟨%d0, H0⟩, ⟨%d1, H1⟩, ⟨%d2, H2⟩⟩
      iapply ((bodyRun1_A c (grid1.coords t) _ _ _ _ _ _ _ _ ((hFirst1 t).mpr h0) (fun h => h1 ((hLast1 t).mp h)) (iblk1 V c 0 t) (iblk1 V c 1 t)).2.2 _ Set.univ _)
      isplitl [H0]; · iexact H0
      isplitl [H1]; · iexact H1
      isplitl [H2]; · iexact H2
      isplitl [HA]; · iexists _; iexact HA
      iintro ⟨H0, H1, H2, ⟨%ea, HA⟩⟩
      isplitl [HA Hrest Hg]
      · isplitl [HA Hrest]
        · isplitl [HA]
          · unfold owns; iexists _; isplitr
            swap; · iexact HA
            ipureintro; exact View.read_writes_of_cover _ _ _ _ _ (coverA1_A c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := by omega
    by_cases h1 : t.val % 8 = 7
    · rw [show (dat1 V c).leavesExact 2 t = owns (c : Thread nD τ) (ms1_2 t) fullShare ((dat1 V c).after 2 t) from by
        unfold Dat.leavesExact; rw [live1_2 t ((hLast1 t).mpr h1)], after1_2]
      rw [outsAt1_C V c t h0 h1]
      unfold outAfter1_C accAfter1_C; (try dsimp only)
      rw [PhiS1_castSucc V c t, PhiS1_pos V c _ _ hz]
      iintro ⟨⟨⟨HA, Hrest⟩, Hg⟩, Ho, ⟨%d0, H0⟩, ⟨%d1, H1⟩, ⟨%d2, H2⟩⟩
      iapply ((bodyRun1_C c (grid1.coords t) _ _ _ _ _ _ _ _ (fun h => h0 ((hFirst1 t).mp h)) ((hLast1 t).mpr h1) (iblk1 V c 0 t) (iblk1 V c 1 t) _).2.2 Set.univ _)
      isplitl [H0]; · iexact H0
      isplitl [H1]; · iexact H1
      isplitl [H2]; · iexists _; iexact H2
      isplitl [HA]; · iexact HA
      iintro ⟨H0, H1, ⟨%e2, H2⟩, ⟨%ea, HA⟩⟩
      isplitl [HA Hrest Hg]
      · isplitl [HA Hrest]
        · isplitl [HA]
          · unfold owns; iexists _; isplitr
            swap; · iexact HA
            ipureintro; exact View.read_writes_of_cover _ _ _ _ _ (coverA1_C c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverO1_C c _ _ _ _ _ _ _ _ _ _ _ _ _ _)
    · rw [Dat.leavesExact_idle (dat1 V c) 2 t (idle1_2 t (fun h => h1 ((hLast1 t).mp h))) (noFlush1_2 t (fun h => h1 ((hLast1 t).mp h)))]
      rw [outsAt1_B V c t h0 h1]
      unfold accAfter1_B; (try dsimp only)
      rw [PhiS1_castSucc V c t, PhiS1_pos V c _ _ hz]
      iintro ⟨⟨⟨HA, Hrest⟩, Hg⟩, Ho, ⟨%d0, H0⟩, ⟨%d1, H1⟩, ⟨%d2, H2⟩⟩
      iapply ((bodyRun1_B c (grid1.coords t) _ _ _ _ _ _ _ _ (fun h => h0 ((hFirst1 t).mp h)) (fun h => h1 ((hLast1 t).mp h)) (iblk1 V c 0 t) (iblk1 V c 1 t) _).2.2 _ Set.univ _)
      isplitl [H0]; · iexact H0
      isplitl [H1]; · iexact H1
      isplitl [H2]; · iexact H2
      isplitl [HA]; · iexact HA
      iintro ⟨H0, H1, H2, ⟨%ea, HA⟩⟩
      isplitl [HA Hrest Hg]
      · isplitl [HA Hrest]
        · isplitl [HA]
          · unfold owns; iexists _; isplitr
            swap; · iexact HA
            ipureintro; exact View.read_writes_of_cover _ _ _ _ _ (coverA1_B c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HA, Hrest⟩, Hg⟩
  isplitl [HA Hrest]
  · isplitl [HA]; · iexists _; iexact HA
    iexact Hrest
  iexact Hg

end Data

end Cert.KernelIdeal.Hand

end
-- ==== Proof.KernelIdeal.R2.Defs.lean ====
/-
  Region 2 of the program: one tiled matrix product on a 4 × 8 grid of points t = 8·i + k (i the row tile of
  2048 rows, k the tile of 1024 along the contracted axis). What the three control cases of the body share:
  the two conditions on the point in closed form over the grid (k = 0, where the accumulator is reset; k = 7,
  where it is copied to the output block), the points where the output window is idle and not written back
  (every point with k ≠ 7), the staging buffers the body is called with, the accumulator's buffer, the class
  invariant with the accumulator's buffer split off the other scoped buffers, and each window's block read off
  the arrays as the region finds them.
-/
import proofs.«132851_j4544075399677_1_alg».proof.Proof.Gen.KernelIdeal.Launch
import proofs.«132851_j4544075399677_1_alg».proof.Proof.Gen.KernelIdeal.Skeleton
import proofs.«132851_j4544075399677_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions on the point -/

/-- The accumulator is reset at this point: the body's first conditional, from the grid coordinates. -/
abbrev isFirst2 (i : grid2.Coords) : Prop :=
  (Scalar.cmpi .ne (Scalar.extui (Scalar.cmpi .eq (BitVec.ofNat 32 (i 1).val) 0#32)) 0#32) = 1#1
/-- It holds exactly at the points with k = 0. -/
theorem hFirst2 : ∀ t : Fin cfg2.N, isFirst2 (grid2.coords t) ↔ t.val % 8 = 0 :=
  (by decide +kernel : ∀ t : Fin grid2.N, isFirst2 (grid2.coords t) ↔ t.val % 8 = 0)

/-- The accumulator is copied to the output block at this point: the body's second conditional. -/
abbrev isLast2 (i : grid2.Coords) : Prop := k2_cond2 i = 1#1
/-- It holds exactly at the points with k = 7. -/
theorem hLast2 : ∀ t : Fin cfg2.N, isLast2 (grid2.coords t) ↔ t.val % 8 = 7 :=
  (by decide +kernel : ∀ t : Fin grid2.N, isLast2 (grid2.coords t) ↔ t.val % 8 = 7)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
/-- Away from k = 7 the body stores nothing into the output block, -/
theorem idle2_2 : ∀ t : Fin cfg2.N, ¬isLast2 (grid2.coords t) → cfg2.idle 2 (grid2.coords t) = true := by decide +kernel
/-- and the block is not written back there. -/
theorem noFlush2_2 : ∀ t : Fin cfg2.N, ¬isLast2 (grid2.coords t) → (cfg2.win 2).flush t = false := by decide +kernel
/-- At k = 7 it stores the whole block. -/
theorem live2_2 : ∀ t : Fin cfg2.N, isLast2 (grid2.coords t) → cfg2.idle 2 (grid2.coords t) = false := by decide +kernel

/-! ## The buffers the body is called with -/

abbrev ms2_0 (t : Fin cfg2.N) : Memref sig .tc .vmem S2048x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x128 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev acc2 : Memref sig .tc .vmem S2048x128 .f32 := Memref.whole cc2_scratch0
/-- The views through which the output block's and the accumulator's contents are stated. -/
abbrev VO2 : View sig .tc .vmem S2048x128 .f32 := (Memref.whole cc2_stg2_0 : Memref sig .tc .vmem S2048x128 .f32).view
abbrev VA2 : View sig .tc .vmem S2048x128 .f32 := acc2.view

/-- The class invariant with the accumulator's buffer owned at some contents, every other scoped buffer that is
    no staging buffer of this region unopened, and the generator register at some state. -/
theorem PhiA2_eq (c : Dev nD) :
    (Pipeline.ΦA spec2 c : sProp 𝕄)
      = iprop(iprop((∃ d, owns (c : Thread nD τ) acc2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [acc2, owns_whole]; try rfl

/-! ## The windows' blocks -/

section Blocks
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's current staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- So does the right operand's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end Blocks

end Cert.KernelIdeal.Hand

end
-- ==== Proof.KernelIdeal.R2.RunA.lean ====
/-
  Region 2, the body at a point with k = 0: the accumulator is reset to zero, the product of the two blocks added to it, the output block left alone.
  The body is run once on whole staging buffers; the pieces each buffer ends with are found by the run itself.
-/
import proofs.«132851_j4544075399677_1_alg».proof.Proof.KernelIdeal.R2.Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At k = 0: from the two operand blocks at `x0`, `x1`, the output's buffer at `xi2` and the accumulator at anything,
    the body runs to the continuation holding the operands and the output's buffer as they were and the accumulator
    with its pieces `LA` written. No piece for the output. -/
noncomputable def bodyRun2_A (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : isFirst2 i) (hc1 : ¬isLast2 i)
    (x0 : Vec F S2048x1024 .f32) (x1 : Vec F S1024x128 .f32) :
    Σ' (L2 : List (View.Piece (Elt F) S2048x128 .f32)), { LA : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LA)) -∗ K ⟨⟩))
          ⊢ wp frame (wpE (defs₀ (F := F)) Variants.none c none) E (cc2__matmul_kernel i arg2 harg2 arg3 harg3 arg4 harg4 arg5 harg5) K } := by
  refine ⟨[], ?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%da, %fa, -, HA⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HA

end Cert.KernelIdeal.Hand

end
-- ==== Proof.KernelIdeal.R2.RunB.lean ====
/-
  Region 2, the body at a point with 0 < k < 7: the product of the two blocks is added to the accumulator, the output block left alone.
  The body is run once on whole staging buffers; the pieces each buffer ends with are found by the run itself.
-/
import proofs.«132851_j4544075399677_1_alg».proof.Proof.KernelIdeal.R2.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At 0 < k < 7: from the two operand blocks at `x0`, `x1`, the output's buffer at `xi2` and the accumulator at what
    the point before left (`xa`), the body runs to the continuation holding the operands and the output's buffer as
    they were and the accumulator with its pieces `LA` written. No piece for the output. -/
noncomputable def bodyRun2_B (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst2 i) (hc1 : ¬isLast2 i)
    (x0 : Vec F S2048x1024 .f32) (x1 : Vec F S1024x128 .f32) (xa : Vec F S2048x128 .f32) :
    Σ' (L2 : List (View.Piece (Elt F) S2048x128 .f32)), { LA : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xa
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LA)) -∗ K ⟨⟩))
          ⊢ wp frame (wpE (defs₀ (F := F)) Variants.none c none) E (cc2__matmul_kernel i arg2 harg2 arg3 harg3 arg4 harg4 arg5 harg5) K } := by
  refine ⟨[], ?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%fa, %hfa, HA⟩, Hk⟩
    obtain rfl := harg2.eq_unread hf0; obtain rfl := harg3.eq_unread hf1; obtain rfl := harg4.eq_unread hf2; obtain rfl := harg5.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HA

end Cert.KernelIdeal.Hand

end
-- ==== Proof.KernelIdeal.R2.RunC.lean ====
/-
  Region 2, the body at a point with k = 7: the product of the two blocks is added to the accumulator and the accumulator copied to the output block.
  The body is run once on whole staging buffers; the pieces each buffer ends with are found by the run itself.
-/
import proofs.«132851_j4544075399677_1_alg».proof.Proof.KernelIdeal.R2.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At k = 7: from the two operand blocks at `x0`, `x1`, the output's buffer at anything and the accumulator at what the
    point before left (`xa`), the body runs to the continuation holding the operands as they were, the output's
    buffer with its pieces `L2` written and the accumulator with its pieces `LA` written. -/
noncomputable def bodyRun2_C (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst2 i) (hc1 : isLast2 i)
    (x0 : Vec F S2048x1024 .f32) (x1 : Vec F S1024x128 .f32) (xa : Vec F S2048x128 .f32) :
    Σ' (L2 : List (View.Piece (Elt F) S2048x128 .f32)), { LA : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xa
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LA)) -∗ K ⟨⟩))
          ⊢ wp frame (wpE (defs₀ (F := F)) Variants.none c none) E (cc2__matmul_kernel i arg2 harg2 arg3 harg3 arg4 harg4 arg5 harg5) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%d2, %f2, -, H2⟩, ⟨%fa, %hfa, HA⟩, Hk⟩
    obtain rfl := harg2.eq_unread hf0; obtain rfl := harg3.eq_unread hf1; obtain rfl := harg5.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HA

end Cert.KernelIdeal.Hand

end
-- ==== Proof.KernelIdeal.R2.Data.lean ====
/-
  Region 2: what the accumulator and the output block hold after the body, case by case (the pieces each run
  found, read back) and point by point (a recursion on the point: at k = 0 the accumulator restarts from the two
  blocks alone, at every other point it continues from what the point before left; the output block is written
  at k = 7 only); the region's invariant, which carries the accumulator at those contents from one point to the
  next; the pipeline's proof data; and the body obligation at every point, by cases on k.
-/
import proofs.«132851_j4544075399677_1_alg».proof.Proof.KernelIdeal.R2.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

theorem coverA2_A (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : isFirst2 i) (hc1 : ¬isLast2 i) (x0 : Vec F S2048x1024 .f32) (x1 : Vec F S1024x128 .f32) (y : S2048x128.Idx) :
    ∃ pc ∈ (bodyRun2_A c i arg2 harg2 arg3 harg3 arg4 harg4 arg5 harg5 hc0 hc1 x0 x1).2.1, y ∈ pc.1.set :=
  View.cover_of_tiledL (bodyRun2_A c i arg2 harg2 arg3 harg3 arg4 harg4 arg5 harg5 hc0 hc1 x0 x1).2.1 S2048x128.size (by sl_kernel_rfl) y
/-- The accumulator after a point with k = 0. -/
def accAfter2_A (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : isFirst2 i) (hc1 : ¬isLast2 i) (x0 : Vec F S2048x1024 .f32) (x1 : Vec F S1024x128 .f32) : Vec F S2048x128 .f32 :=
  VA2.read (Elt F) (VA2.writes (Elt F) VA2.junk (bodyRun2_A c i arg2 harg2 arg3 harg3 arg4 harg4 arg5 harg5 hc0 hc1 x0 x1).2.1)

theorem coverA2_B (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst2 i) (hc1 : ¬isLast2 i) (x0 : Vec F S2048x1024 .f32) (x1 : Vec F S1024x128 .f32) (xa : Vec F S2048x128 .f32) (y : S2048x128.Idx) :
    ∃ pc ∈ (bodyRun2_B c i arg2 harg2 arg3 harg3 arg4 harg4 arg5 harg5 hc0 hc1 x0 x1 xa).2.1, y ∈ pc.1.set :=
  View.cover_of_tiledL (bodyRun2_B c i arg2 harg2 arg3 harg3 arg4 harg4 arg5 harg5 hc0 hc1 x0 x1 xa).2.1 S2048x128.size (by sl_kernel_rfl) y
/-- The accumulator after a point with 0 < k < 7, from what the point before left. -/
def accAfter2_B (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst2 i) (hc1 : ¬isLast2 i) (x0 : Vec F S2048x1024 .f32) (x1 : Vec F S1024x128 .f32) (xa : Vec F S2048x128 .f32) : Vec F S2048x128 .f32 :=
  VA2.read (Elt F) (VA2.writes (Elt F) VA2.junk (bodyRun2_B c i arg2 harg2 arg3 harg3 arg4 harg4 arg5 harg5 hc0 hc1 x0 x1 xa).2.1)

theorem coverO2_C (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst2 i) (hc1 : isLast2 i) (x0 : Vec F S2048x1024 .f32) (x1 : Vec F S1024x128 .f32) (xa : Vec F S2048x128 .f32) (y : S2048x128.Idx) :
    ∃ pc ∈ (bodyRun2_C c i arg2 harg2 arg3 harg3 arg4 harg4 arg5 harg5 hc0 hc1 x0 x1 xa).1, y ∈ pc.1.set :=
  View.cover_of_tiledL (bodyRun2_C c i arg2 harg2 arg3 harg3 arg4 harg4 arg5 harg5 hc0 hc1 x0 x1 xa).1 S2048x128.size (by sl_kernel_rfl) y
/-- The output block after a point with k = 7. -/
def outAfter2_C (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst2 i) (hc1 : isLast2 i) (x0 : Vec F S2048x1024 .f32) (x1 : Vec F S1024x128 .f32) (xa : Vec F S2048x128 .f32) : Vec F S2048x128 .f32 :=
  VO2.read (Elt F) (VO2.writes (Elt F) VO2.junk (bodyRun2_C c i arg2 harg2 arg3 harg3 arg4 harg4 arg5 harg5 hc0 hc1 x0 x1 xa).1)
theorem coverA2_C (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst2 i) (hc1 : isLast2 i) (x0 : Vec F S2048x1024 .f32) (x1 : Vec F S1024x128 .f32) (xa : Vec F S2048x128 .f32) (y : S2048x128.Idx) :
    ∃ pc ∈ (bodyRun2_C c i arg2 harg2 arg3 harg3 arg4 harg4 arg5 harg5 hc0 hc1 x0 x1 xa).2.1, y ∈ pc.1.set :=
  View.cover_of_tiledL (bodyRun2_C c i arg2 harg2 arg3 harg3 arg4 harg4 arg5 harg5 hc0 hc1 x0 x1 xa).2.1 S2048x128.size (by sl_kernel_rfl) y
/-- The accumulator after a point with k = 7. -/
def accAfter2_C (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst2 i) (hc1 : isLast2 i) (x0 : Vec F S2048x1024 .f32) (x1 : Vec F S1024x128 .f32) (xa : Vec F S2048x128 .f32) : Vec F S2048x128 .f32 :=
  VA2.read (Elt F) (VA2.writes (Elt F) VA2.junk (bodyRun2_C c i arg2 harg2 arg3 harg3 arg4 harg4 arg5 harg5 hc0 hc1 x0 x1 xa).2.1)

/-- The output block at a point where nothing is stored into it: a placeholder nothing consults (the block is
    neither written back there nor read at the next point). -/
def idleOut2 : Vec F S2048x128 .f32 := VO2.read (Elt F) VO2.junk

section Data
variable (V : (c : Dev nD) → (b : Ref sig .tc) → Buf (Elt F) ((c : Thread nD τ).loc b))

/-! ## Point by point -/

/-- What the output's staging buffer and the accumulator hold after the body at position `n`. -/
def outsAt2 (c : Dev nD) : (n : ℕ) → n < cfg2.N → Vec F S2048x128 .f32 × Vec F S2048x128 .f32
  | 0, hn => (idleOut2, accAfter2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) acc2 (Memref.isWhole_whole _) ((hFirst2 ⟨0, hn⟩).mpr (Nat.zero_mod _)) (fun h => (fun h => by (try dsimp only at h); omega) ((hLast2 ⟨0, hn⟩).mp h)) (iblk2 V c 0 ⟨0, hn⟩) (iblk2 V c 1 ⟨0, hn⟩))
  | n + 1, hn =>
    if h0 : (n + 1) % 8 = 0 then
      if h1 : (n + 1) % 8 = 7 then
        False.elim (by omega)
      else
        (idleOut2, accAfter2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) acc2 (Memref.isWhole_whole _) ((hFirst2 ⟨n + 1, hn⟩).mpr h0) (fun h => h1 ((hLast2 ⟨n + 1, hn⟩).mp h)) (iblk2 V c 0 ⟨n + 1, hn⟩) (iblk2 V c 1 ⟨n + 1, hn⟩))
    else
      if h1 : (n + 1) % 8 = 7 then
        (outAfter2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) acc2 (Memref.isWhole_whole _) (fun h => h0 ((hFirst2 ⟨n + 1, hn⟩).mp h)) ((hLast2 ⟨n + 1, hn⟩).mpr h1) (iblk2 V c 0 ⟨n + 1, hn⟩) (iblk2 V c 1 ⟨n + 1, hn⟩) (outsAt2 c n (Nat.lt_of_succ_lt hn)).2, accAfter2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) acc2 (Memref.isWhole_whole _) (fun h => h0 ((hFirst2 ⟨n + 1, hn⟩).mp h)) ((hLast2 ⟨n + 1, hn⟩).mpr h1) (iblk2 V c 0 ⟨n + 1, hn⟩) (iblk2 V c 1 ⟨n + 1, hn⟩) (outsAt2 c n (Nat.lt_of_succ_lt hn)).2)
      else
        (idleOut2, accAfter2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) acc2 (Memref.isWhole_whole _) (fun h => h0 ((hFirst2 ⟨n + 1, hn⟩).mp h)) (fun h => h1 ((hLast2 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 8 = 0) (h1 : ¬t.val % 8 = 7) :
    outsAt2 V c t.val t.isLt = (idleOut2, accAfter2_A c (grid2.coords t) (ms2_0 t) (hs2_0 t) (ms2_1 t) (hs2_1 t) (ms2_2 t) (hs2_2 t) acc2 (Memref.isWhole_whole _) ((hFirst2 t).mpr h0) (fun h => h1 ((hLast2 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = (idleOut2, accAfter2_B c (grid2.coords t) (ms2_0 t) (hs2_0 t) (ms2_1 t) (hs2_1 t) (ms2_2 t) (hs2_2 t) acc2 (Memref.isWhole_whole _) (fun h => h0 ((hFirst2 t).mp h)) (fun h => h1 ((hLast2 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = (outAfter2_C c (grid2.coords t) (ms2_0 t) (hs2_0 t) (ms2_1 t) (hs2_1 t) (ms2_2 t) (hs2_2 t) acc2 (Memref.isWhole_whole _) (fun h => h0 ((hFirst2 t).mp h)) ((hLast2 t).mpr h1) (iblk2 V c 0 t) (iblk2 V c 1 t) (outsAt2 V c (t.val - 1) (Nat.lt_of_le_of_lt (Nat.sub_le _ _) t.isLt)).2, accAfter2_C c (grid2.coords t) (ms2_0 t) (hs2_0 t) (ms2_1 t) (hs2_1 t) (ms2_2 t) (hs2_2 t) acc2 (Memref.isWhole_whole _) (fun h => h0 ((hFirst2 t).mp h)) ((hLast2 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the region's entry the class invariant (the accumulator at anything); afterwards the
    accumulator at what the point before left, the other scoped buffers unopened, the generator register at some state. -/
def PhiS2 (c : Dev nD) : (n : ℕ) → n ≤ cfg2.N → sProp 𝕄
  | 0, _ => Pipeline.ΦA spec2 c
  | n + 1, hn => iprop(iprop(owns (c : Thread nD τ) acc2 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) acc2 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) acc2 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

/-- The arrays as the region finds them; after the body each operand's buffer at its block and the output's at
    `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the operands' buffers hold their blocks; the closed forms say which case the point is in;
    the invariant hands the body the accumulator at what the point before left (at anything at the region's first
    point, and the reset at k = 0 needs nothing of it) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  by_cases h0 : t.val % 8 = 0
  · have h1 : ¬t.val % 8 = 7 := by omega
    rw [Dat.leavesExact_idle (dat2 V c) 2 t (idle2_2 t (fun h => h1 ((hLast2 t).mp h))) (noFlush2_2 t (fun h => h1 ((hLast2 t).mp h)))]
    rw [outsAt2_A V c t h0 h1]
    unfold accAfter2_A; (try dsimp only)
    by_cases hz : t.val = 0
    · rw [PhiS2_castSucc V c t, PhiS2_zero V c _ _ hz, PhiA2_eq]
      iintro ⟨⟨⟨HA, Hrest⟩, Hg⟩, Ho, ⟨%d0, H0⟩, ⟨%d1, H1⟩, ⟨%d2, H2⟩⟩
      iapply ((bodyRun2_A c (grid2.coords t) _ _ _ _ _ _ _ _ ((hFirst2 t).mpr h0) (fun h => h1 ((hLast2 t).mp h)) (iblk2 V c 0 t) (iblk2 V c 1 t)).2.2 _ Set.univ _)
      isplitl [H0]; · iexact H0
      isplitl [H1]; · iexact H1
      isplitl [H2]; · iexact H2
      isplitl [HA]; · iexact HA
      iintro ⟨H0, H1, H2, ⟨%ea, HA⟩⟩
      isplitl [HA Hrest Hg]
      · isplitl [HA Hrest]
        · isplitl [HA]
          · unfold owns; iexists _; isplitr
            swap; · iexact HA
            ipureintro; exact View.read_writes_of_cover _ _ _ _ _ (coverA2_A c _ _ _ _ _ _ _ _ _ _ _ _ _)
          iexact Hrest
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HA, Hrest⟩, Hg⟩, Ho, ⟨%d0, H0⟩, ⟨%d1, H1⟩, ⟨%d2, H2⟩⟩
      iapply ((bodyRun2_A c (grid2.coords t) _ _ _ _ _ _ _ _ ((hFirst2 t).mpr h0) (fun h => h1 ((hLast2 t).mp h)) (iblk2 V c 0 t) (iblk2 V c 1 t)).2.2 _ Set.univ _)
      isplitl [H0]; · iexact H0
      isplitl [H1]; · iexact H1
      isplitl [H2]; · iexact H2
      isplitl [HA]; · iexists _; iexact HA
      iintro ⟨H0, H1, H2, ⟨%ea, HA⟩⟩
      isplitl [HA Hrest Hg]
      · isplitl [HA Hrest]
        · isplitl [HA]
          · unfold owns; iexists _; isplitr
            swap; · iexact HA
            ipureintro; exact View.read_writes_of_cover _ _ _ _ _ (coverA2_A c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := by omega
    by_cases h1 : t.val % 8 = 7
    · rw [show (dat2 V c).leavesExact 2 t = owns (c : Thread nD τ) (ms2_2 t) fullShare ((dat2 V c).after 2 t) from by
        unfold Dat.leavesExact; rw [live2_2 t ((hLast2 t).mpr h1)], after2_2]
      rw [outsAt2_C V c t h0 h1]
      unfold outAfter2_C accAfter2_C; (try dsimp only)
      rw [PhiS2_castSucc V c t, PhiS2_pos V c _ _ hz]
      iintro ⟨⟨⟨HA, Hrest⟩, Hg⟩, Ho, ⟨%d0, H0⟩, ⟨%d1, H1⟩, ⟨%d2, H2⟩⟩
      iapply ((bodyRun2_C c (grid2.coords t) _ _ _ _ _ _ _ _ (fun h => h0 ((hFirst2 t).mp h)) ((hLast2 t).mpr h1) (iblk2 V c 0 t) (iblk2 V c 1 t) _).2.2 Set.univ _)
      isplitl [H0]; · iexact H0
      isplitl [H1]; · iexact H1
      isplitl [H2]; · iexists _; iexact H2
      isplitl [HA]; · iexact HA
      iintro ⟨H0, H1, ⟨%e2, H2⟩, ⟨%ea, HA⟩⟩
      isplitl [HA Hrest Hg]
      · isplitl [HA Hrest]
        · isplitl [HA]
          · unfold owns; iexists _; isplitr
            swap; · iexact HA
            ipureintro; exact View.read_writes_of_cover _ _ _ _ _ (coverA2_C c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverO2_C c _ _ _ _ _ _ _ _ _ _ _ _ _ _)
    · rw [Dat.leavesExact_idle (dat2 V c) 2 t (idle2_2 t (fun h => h1 ((hLast2 t).mp h))) (noFlush2_2 t (fun h => h1 ((hLast2 t).mp h)))]
      rw [outsAt2_B V c t h0 h1]
      unfold accAfter2_B; (try dsimp only)
      rw [PhiS2_castSucc V c t, PhiS2_pos V c _ _ hz]
      iintro ⟨⟨⟨HA, Hrest⟩, Hg⟩, Ho, ⟨%d0, H0⟩, ⟨%d1, H1⟩, ⟨%d2, H2⟩⟩
      iapply ((bodyRun2_B c (grid2.coords t) _ _ _ _ _ _ _ _ (fun h => h0 ((hFirst2 t).mp h)) (fun h => h1 ((hLast2 t).mp h)) (iblk2 V c 0 t) (iblk2 V c 1 t) _).2.2 _ Set.univ _)
      isplitl [H0]; · iexact H0
      isplitl [H1]; · iexact H1
      isplitl [H2]; · iexact H2
      isplitl [HA]; · iexact HA
      iintro ⟨H0, H1, H2, ⟨%ea, HA⟩⟩
      isplitl [HA Hrest Hg]
      · isplitl [HA Hrest]
        · isplitl [HA]
          · unfold owns; iexists _; isplitr
            swap; · iexact HA
            ipureintro; exact View.read_writes_of_cover _ _ _ _ _ (coverA2_B c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the accumulator's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega), PhiA2_eq]
  iintro ⟨⟨HA, Hrest⟩, Hg⟩
  isplitl [HA Hrest]
  · isplitl [HA]; · iexists _; iexact HA
    iexact Hrest
  iexact Hg

end Data

end Cert.KernelIdeal.Hand

end
-- ==== Proof.KernelIdeal.R3.Defs.lean ====
/-
  Region 3 of the program: one tiled matrix product on a 4 × 8 grid of points t = 8·i + k (i the row tile of
  2048 rows, k the tile of 1024 along the contracted axis). What the three control cases of the body share:
  the two conditions on the point in closed form over the grid (k = 0, where the accumulator is reset; k = 7,
  where it is copied to the output block), the points where the output window is idle and not written back
  (every point with k ≠ 7), the staging buffers the body is called with, the accumulator's buffer, the class
  invariant with the accumulator's buffer split off the other scoped buffers, and each window's block read off
  the arrays as the region finds them.
-/
import proofs.«132851_j4544075399677_1_alg».proof.Proof.Gen.KernelIdeal.Launch
import proofs.«132851_j4544075399677_1_alg».proof.Proof.Gen.KernelIdeal.Skeleton
import proofs.«132851_j4544075399677_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions on the point -/

/-- The accumulator is reset at this point: the body's first conditional, from the grid coordinates. -/
abbrev isFirst3 (i : grid3.Coords) : Prop :=
  (Scalar.cmpi .ne (Scalar.extui (Scalar.cmpi .eq (BitVec.ofNat 32 (i 1).val) 0#32)) 0#32) = 1#1
/-- It holds exactly at the points with k = 0. -/
theorem hFirst3 : ∀ t : Fin cfg3.N, isFirst3 (grid3.coords t) ↔ t.val % 8 = 0 :=
  (by decide +kernel : ∀ t : Fin grid3.N, isFirst3 (grid3.coords t) ↔ t.val % 8 = 0)

/-- The accumulator is copied to the output block at this point: the body's second conditional. -/
abbrev isLast3 (i : grid3.Coords) : Prop := k3_cond2 i = 1#1
/-- It holds exactly at the points with k = 7. -/
theorem hLast3 : ∀ t : Fin cfg3.N, isLast3 (grid3.coords t) ↔ t.val % 8 = 7 :=
  (by decide +kernel : ∀ t : Fin grid3.N, isLast3 (grid3.coords t) ↔ t.val % 8 = 7)

/-! ## Where the windows are idle -/

theorem live3_0 : ∀ t : Fin cfg3.N, cfg3.idle 0 (grid3.coords t) = false := by decide +kernel
theorem live3_1 : ∀ t : Fin cfg3.N, cfg3.idle 1 (grid3.coords t) = false := by decide +kernel
/-- Away from k = 7 the body stores nothing into the output block, -/
theorem idle3_2 : ∀ t : Fin cfg3.N, ¬isLast3 (grid3.coords t) → cfg3.idle 2 (grid3.coords t) = true := by decide +kernel
/-- and the block is not written back there. -/
theorem noFlush3_2 : ∀ t : Fin cfg3.N, ¬isLast3 (grid3.coords t) → (cfg3.win 2).flush t = false := by decide +kernel
/-- At k = 7 it stores the whole block. -/
theorem live3_2 : ∀ t : Fin cfg3.N, isLast3 (grid3.coords t) → cfg3.idle 2 (grid3.coords t) = false := by decide +kernel

/-! ## The buffers the body is called with -/

abbrev ms3_0 (t : Fin cfg3.N) : Memref sig .tc .vmem S2048x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x128 .f32 := win3_2.stage (cfg3.slots t 2)
abbrev hs3_2 (t : Fin cfg3.N) : (ms3_2 t).IsWhole := hstage3_2 ((cfg3.slots t 2).cast nbuf3_2)
/-- The accumulator: a whole scoped buffer of the kernel's own. -/
abbrev acc3 : Memref sig .tc .vmem S2048x128 .f32 := Memref.whole cc3_scratch0
/-- The views through which the output block's and the accumulator's contents are stated. -/
abbrev VO3 : View sig .tc .vmem S2048x128 .f32 := (Memref.whole cc3_stg2_0 : Memref sig .tc .vmem S2048x128 .f32).view
abbrev VA3 : View sig .tc .vmem S2048x128 .f32 := acc3.view

/-- The class invariant with the accumulator's buffer owned at some contents, every other scoped buffer that is
    no staging buffer of this region unopened, and the generator register at some state. -/
theorem PhiA3_eq (c : Dev nD) :
    (Pipeline.ΦA spec3 c : sProp 𝕄)
      = iprop(iprop((∃ d, owns (c : Thread nD τ) acc3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA
  rw [Pipeline.scopedRest_split_of_list spec3 c [cc3_scratch0] (by decide) (by decide)]
  simp only [acc3, owns_whole]; try rfl

/-! ## The windows' blocks -/

section Blocks
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left operand's current staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- So does the right operand's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

end Blocks

end Cert.KernelIdeal.Hand

end
-- ==== Proof.KernelIdeal.R3.RunA.lean ====
/-
  Region 3, the body at a point with k = 0: the accumulator is reset to zero, the product of the two blocks added to it, the output block left alone.
  The body is run once on whole staging buffers; the pieces each buffer ends with are found by the run itself.
-/
import proofs.«132851_j4544075399677_1_alg».proof.Proof.KernelIdeal.R3.Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At k = 0: from the two operand blocks at `x0`, `x1`, the output's buffer at `xi2` and the accumulator at anything,
    the body runs to the continuation holding the operands and the output's buffer as they were and the accumulator
    with its pieces `LA` written. No piece for the output. -/
noncomputable def bodyRun3_A (c : Dev nD) (i : grid3.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : isFirst3 i) (hc1 : ¬isLast3 i)
    (x0 : Vec F S2048x1024 .f32) (x1 : Vec F S1024x128 .f32) :
    Σ' (L2 : List (View.Piece (Elt F) S2048x128 .f32)), { LA : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LA)) -∗ K ⟨⟩))
          ⊢ wp frame (wpE (defs₀ (F := F)) Variants.none c none) E (cc3__matmul_kernel i arg2 harg2 arg3 harg3 arg4 harg4 arg5 harg5) K } := by
  refine ⟨[], ?_, fun xi2 E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%da, %fa, -, HA⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HA

end Cert.KernelIdeal.Hand

end
-- ==== Proof.KernelIdeal.R3.RunB.lean ====
/-
  Region 3, the body at a point with 0 < k < 7: the product of the two blocks is added to the accumulator, the output block left alone.
  The body is run once on whole staging buffers; the pieces each buffer ends with are found by the run itself.
-/
import proofs.«132851_j4544075399677_1_alg».proof.Proof.KernelIdeal.R3.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At 0 < k < 7: from the two operand blocks at `x0`, `x1`, the output's buffer at `xi2` and the accumulator at what
    the point before left (`xa`), the body runs to the continuation holding the operands and the output's buffer as
    they were and the accumulator with its pieces `LA` written. No piece for the output. -/
noncomputable def bodyRun3_B (c : Dev nD) (i : grid3.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst3 i) (hc1 : ¬isLast3 i)
    (x0 : Vec F S2048x1024 .f32) (x1 : Vec F S1024x128 .f32) (xa : Vec F S2048x128 .f32) :
    Σ' (L2 : List (View.Piece (Elt F) S2048x128 .f32)), { LA : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xa
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LA)) -∗ K ⟨⟩))
          ⊢ wp frame (wpE (defs₀ (F := F)) Variants.none c none) E (cc3__matmul_kernel i arg2 harg2 arg3 harg3 arg4 harg4 arg5 harg5) K } := by
  refine ⟨[], ?_, fun xi2 E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%fa, %hfa, HA⟩, Hk⟩
    obtain rfl := harg2.eq_unread hf0; obtain rfl := harg3.eq_unread hf1; obtain rfl := harg4.eq_unread hf2; obtain rfl := harg5.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HA

end Cert.KernelIdeal.Hand

end
-- ==== Proof.KernelIdeal.R3.RunC.lean ====
/-
  Region 3, the body at a point with k = 7: the product of the two blocks is added to the accumulator and the accumulator copied to the output block.
  The body is run once on whole staging buffers; the pieces each buffer ends with are found by the run itself.
-/
import proofs.«132851_j4544075399677_1_alg».proof.Proof.KernelIdeal.R3.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At k = 7: from the two operand blocks at `x0`, `x1`, the output's buffer at anything and the accumulator at what the
    point before left (`xa`), the body runs to the continuation holding the operands as they were, the output's
    buffer with its pieces `L2` written and the accumulator with its pieces `LA` written. -/
noncomputable def bodyRun3_C (c : Dev nD) (i : grid3.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst3 i) (hc1 : isLast3 i)
    (x0 : Vec F S2048x1024 .f32) (x1 : Vec F S1024x128 .f32) (xa : Vec F S2048x128 .f32) :
    Σ' (L2 : List (View.Piece (Elt F) S2048x128 .f32)), { LA : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xa
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LA)) -∗ K ⟨⟩))
          ⊢ wp frame (wpE (defs₀ (F := F)) Variants.none c none) E (cc3__matmul_kernel i arg2 harg2 arg3 harg3 arg4 harg4 arg5 harg5) K } := by
  refine ⟨?_, ?_, fun E K => ?run⟩
  case run =>
    simp only [cc3__matmul_kernel_eq_skeleton]; unfold cc3__matmul_kernel_skel
    unfold owns
    iintro ⟨⟨%f0, %hf0, H0⟩, ⟨%f1, %hf1, H1⟩, ⟨%d2, %f2, -, H2⟩, ⟨%fa, %hfa, HA⟩, Hk⟩
    obtain rfl := harg2.eq_unread hf0; obtain rfl := harg3.eq_unread hf1; obtain rfl := harg5.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HA

end Cert.KernelIdeal.Hand

end
-- ==== Proof.KernelIdeal.R3.Data.lean ====
/-
  Region 3: what the accumulator and the output block hold after the body, case by case (the pieces each run
  found, read back) and point by point (a recursion on the point: at k = 0 the accumulator restarts from the two
  blocks alone, at every other point it continues from what the point before left; the output block is written
  at k = 7 only); the region's invariant, which carries the accumulator at those contents from one point to the
  next; the pipeline's proof data; and the body obligation at every point, by cases on k.
-/
import proofs.«132851_j4544075399677_1_alg».proof.Proof.KernelIdeal.R3.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

theorem coverA3_A (c : Dev nD) (i : grid3.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : isFirst3 i) (hc1 : ¬isLast3 i) (x0 : Vec F S2048x1024 .f32) (x1 : Vec F S1024x128 .f32) (y : S2048x128.Idx) :
    ∃ pc ∈ (bodyRun3_A c i arg2 harg2 arg3 harg3 arg4 harg4 arg5 harg5 hc0 hc1 x0 x1).2.1, y ∈ pc.1.set :=
  View.cover_of_tiledL (bodyRun3_A c i arg2 harg2 arg3 harg3 arg4 harg4 arg5 harg5 hc0 hc1 x0 x1).2.1 S2048x128.size (by sl_kernel_rfl) y
/-- The accumulator after a point with k = 0. -/
def accAfter3_A (c : Dev nD) (i : grid3.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : isFirst3 i) (hc1 : ¬isLast3 i) (x0 : Vec F S2048x1024 .f32) (x1 : Vec F S1024x128 .f32) : Vec F S2048x128 .f32 :=
  VA3.read (Elt F) (VA3.writes (Elt F) VA3.junk (bodyRun3_A c i arg2 harg2 arg3 harg3 arg4 harg4 arg5 harg5 hc0 hc1 x0 x1).2.1)

theorem coverA3_B (c : Dev nD) (i : grid3.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst3 i) (hc1 : ¬isLast3 i) (x0 : Vec F S2048x1024 .f32) (x1 : Vec F S1024x128 .f32) (xa : Vec F S2048x128 .f32) (y : S2048x128.Idx) :
    ∃ pc ∈ (bodyRun3_B c i arg2 harg2 arg3 harg3 arg4 harg4 arg5 harg5 hc0 hc1 x0 x1 xa).2.1, y ∈ pc.1.set :=
  View.cover_of_tiledL (bodyRun3_B c i arg2 harg2 arg3 harg3 arg4 harg4 arg5 harg5 hc0 hc1 x0 x1 xa).2.1 S2048x128.size (by sl_kernel_rfl) y
/-- The accumulator after a point with 0 < k < 7, from what the point before left. -/
def accAfter3_B (c : Dev nD) (i : grid3.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst3 i) (hc1 : ¬isLast3 i) (x0 : Vec F S2048x1024 .f32) (x1 : Vec F S1024x128 .f32) (xa : Vec F S2048x128 .f32) : Vec F S2048x128 .f32 :=
  VA3.read (Elt F) (VA3.writes (Elt F) VA3.junk (bodyRun3_B c i arg2 harg2 arg3 harg3 arg4 harg4 arg5 harg5 hc0 hc1 x0 x1 xa).2.1)

theorem coverO3_C (c : Dev nD) (i : grid3.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst3 i) (hc1 : isLast3 i) (x0 : Vec F S2048x1024 .f32) (x1 : Vec F S1024x128 .f32) (xa : Vec F S2048x128 .f32) (y : S2048x128.Idx) :
    ∃ pc ∈ (bodyRun3_C c i arg2 harg2 arg3 harg3 arg4 harg4 arg5 harg5 hc0 hc1 x0 x1 xa).1, y ∈ pc.1.set :=
  View.cover_of_tiledL (bodyRun3_C c i arg2 harg2 arg3 harg3 arg4 harg4 arg5 harg5 hc0 hc1 x0 x1 xa).1 S2048x128.size (by sl_kernel_rfl) y
/-- The output block after a point with k = 7. -/
def outAfter3_C (c : Dev nD) (i : grid3.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst3 i) (hc1 : isLast3 i) (x0 : Vec F S2048x1024 .f32) (x1 : Vec F S1024x128 .f32) (xa : Vec F S2048x128 .f32) : Vec F S2048x128 .f32 :=
  VO3.read (Elt F) (VO3.writes (Elt F) VO3.junk (bodyRun3_C c i arg2 harg2 arg3 harg3 arg4 harg4 arg5 harg5 hc0 hc1 x0 x1 xa).1)
theorem coverA3_C (c : Dev nD) (i : grid3.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst3 i) (hc1 : isLast3 i) (x0 : Vec F S2048x1024 .f32) (x1 : Vec F S1024x128 .f32) (xa : Vec F S2048x128 .f32) (y : S2048x128.Idx) :
    ∃ pc ∈ (bodyRun3_C c i arg2 harg2 arg3 harg3 arg4 harg4 arg5 harg5 hc0 hc1 x0 x1 xa).2.1, y ∈ pc.1.set :=
  View.cover_of_tiledL (bodyRun3_C c i arg2 harg2 arg3 harg3 arg4 harg4 arg5 harg5 hc0 hc1 x0 x1 xa).2.1 S2048x128.size (by sl_kernel_rfl) y
/-- The accumulator after a point with k = 7. -/
def accAfter3_C (c : Dev nD) (i : grid3.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst3 i) (hc1 : isLast3 i) (x0 : Vec F S2048x1024 .f32) (x1 : Vec F S1024x128 .f32) (xa : Vec F S2048x128 .f32) : Vec F S2048x128 .f32 :=
  VA3.read (Elt F) (VA3.writes (Elt F) VA3.junk (bodyRun3_C c i arg2 harg2 arg3 harg3 arg4 harg4 arg5 harg5 hc0 hc1 x0 x1 xa).2.1)

/-- The output block at a point where nothing is stored into it: a placeholder nothing consults (the block is
    neither written back there nor read at the next point). -/
def idleOut3 : Vec F S2048x128 .f32 := VO3.read (Elt F) VO3.junk

section Data
variable (V : (c : Dev nD) → (b : Ref sig .tc) → Buf (Elt F) ((c : Thread nD τ).loc b))

/-! ## Point by point -/

/-- What the output's staging buffer and the accumulator hold after the body at position `n`. -/
def outsAt3 (c : Dev nD) : (n : ℕ) → n < cfg3.N → Vec F S2048x128 .f32 × Vec F S2048x128 .f32
  | 0, hn => (idleOut3, accAfter3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) acc3 (Memref.isWhole_whole _) ((hFirst3 ⟨0, hn⟩).mpr (Nat.zero_mod _)) (fun h => (fun h => by (try dsimp only at h); omega) ((hLast3 ⟨0, hn⟩).mp h)) (iblk3 V c 0 ⟨0, hn⟩) (iblk3 V c 1 ⟨0, hn⟩))
  | n + 1, hn =>
    if h0 : (n + 1) % 8 = 0 then
      if h1 : (n + 1) % 8 = 7 then
        False.elim (by omega)
      else
        (idleOut3, accAfter3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) acc3 (Memref.isWhole_whole _) ((hFirst3 ⟨n + 1, hn⟩).mpr h0) (fun h => h1 ((hLast3 ⟨n + 1, hn⟩).mp h)) (iblk3 V c 0 ⟨n + 1, hn⟩) (iblk3 V c 1 ⟨n + 1, hn⟩))
    else
      if h1 : (n + 1) % 8 = 7 then
        (outAfter3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) acc3 (Memref.isWhole_whole _) (fun h => h0 ((hFirst3 ⟨n + 1, hn⟩).mp h)) ((hLast3 ⟨n + 1, hn⟩).mpr h1) (iblk3 V c 0 ⟨n + 1, hn⟩) (iblk3 V c 1 ⟨n + 1, hn⟩) (outsAt3 c n (Nat.lt_of_succ_lt hn)).2, accAfter3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) acc3 (Memref.isWhole_whole _) (fun h => h0 ((hFirst3 ⟨n + 1, hn⟩).mp h)) ((hLast3 ⟨n + 1, hn⟩).mpr h1) (iblk3 V c 0 ⟨n + 1, hn⟩) (iblk3 V c 1 ⟨n + 1, hn⟩) (outsAt3 c n (Nat.lt_of_succ_lt hn)).2)
      else
        (idleOut3, accAfter3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) acc3 (Memref.isWhole_whole _) (fun h => h0 ((hFirst3 ⟨n + 1, hn⟩).mp h)) (fun h => h1 ((hLast3 ⟨n + 1, hn⟩).mp h)) (iblk3 V c 0 ⟨n + 1, hn⟩) (iblk3 V c 1 ⟨n + 1, hn⟩) (outsAt3 c n (Nat.lt_of_succ_lt hn)).2)

theorem outsAt3_A (c : Dev nD) (t : Fin cfg3.N) (h0 : t.val % 8 = 0) (h1 : ¬t.val % 8 = 7) :
    outsAt3 V c t.val t.isLt = (idleOut3, accAfter3_A c (grid3.coords t) (ms3_0 t) (hs3_0 t) (ms3_1 t) (hs3_1 t) (ms3_2 t) (hs3_2 t) acc3 (Memref.isWhole_whole _) ((hFirst3 t).mpr h0) (fun h => h1 ((hLast3 t).mp h)) (iblk3 V c 0 t) (iblk3 V c 1 t)) := by
  obtain ⟨n, hn⟩ := t
  cases n with
  | zero => exact rfl
  | succ n => exact (dif_pos h0).trans ((dif_neg h1).trans rfl)

theorem outsAt3_B (c : Dev nD) (t : Fin cfg3.N) (h0 : ¬t.val % 8 = 0) (h1 : ¬t.val % 8 = 7) :
    outsAt3 V c t.val t.isLt = (idleOut3, accAfter3_B c (grid3.coords t) (ms3_0 t) (hs3_0 t) (ms3_1 t) (hs3_1 t) (ms3_2 t) (hs3_2 t) acc3 (Memref.isWhole_whole _) (fun h => h0 ((hFirst3 t).mp h)) (fun h => h1 ((hLast3 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 8 = 0) (h1 : t.val % 8 = 7) :
    outsAt3 V c t.val t.isLt = (outAfter3_C c (grid3.coords t) (ms3_0 t) (hs3_0 t) (ms3_1 t) (hs3_1 t) (ms3_2 t) (hs3_2 t) acc3 (Memref.isWhole_whole _) (fun h => h0 ((hFirst3 t).mp h)) ((hLast3 t).mpr h1) (iblk3 V c 0 t) (iblk3 V c 1 t) (outsAt3 V c (t.val - 1) (Nat.lt_of_le_of_lt (Nat.sub_le _ _) t.isLt)).2, accAfter3_C c (grid3.coords t) (ms3_0 t) (hs3_0 t) (ms3_1 t) (hs3_1 t) (ms3_2 t) (hs3_2 t) acc3 (Memref.isWhole_whole _) (fun h => h0 ((hFirst3 t).mp h)) ((hLast3 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the region's entry the class invariant (the accumulator at anything); afterwards the
    accumulator at what the point before left, the other scoped buffers unopened, the generator register at some state. -/
def PhiS3 (c : Dev nD) : (n : ℕ) → n ≤ cfg3.N → sProp 𝕄
  | 0, _ => Pipeline.ΦA spec3 c
  | n + 1, hn => iprop(iprop(owns (c : Thread nD τ) acc3 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) acc3 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) acc3 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The arrays as the region finds them; after the body each operand's buffer at its block and the output's at
    `outsAt3`; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the operands' buffers hold their blocks; the closed forms say which case the point is in;
    the invariant hands the body the accumulator at what the point before left (at anything at the region's first
    point, and the reset at k = 0 needs nothing of it) and takes it back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 32 := lt_of_lt_of_eq t.isLt (show cfg3.N = 32 from N_3)
  rw [show (dat3 V c).leavesExact 0 t = owns (c : Thread nD τ) (ms3_0 t) fullShare ((dat3 V c).after 0 t) from by
    unfold Dat.leavesExact; rw [live3_0 t], after3_0]
  rw [show (dat3 V c).leavesExact 1 t = owns (c : Thread nD τ) (ms3_1 t) fullShare ((dat3 V c).after 1 t) from by
    unfold Dat.leavesExact; rw [live3_1 t], after3_1]
  by_cases h0 : t.val % 8 = 0
  · have h1 : ¬t.val % 8 = 7 := by omega
    rw [Dat.leavesExact_idle (dat3 V c) 2 t (idle3_2 t (fun h => h1 ((hLast3 t).mp h))) (noFlush3_2 t (fun h => h1 ((hLast3 t).mp h)))]
    rw [outsAt3_A V c t h0 h1]
    unfold accAfter3_A; (try dsimp only)
    by_cases hz : t.val = 0
    · rw [PhiS3_castSucc V c t, PhiS3_zero V c _ _ hz, PhiA3_eq]
      iintro ⟨⟨⟨HA, Hrest⟩, Hg⟩, Ho, ⟨%d0, H0⟩, ⟨%d1, H1⟩, ⟨%d2, H2⟩⟩
      iapply ((bodyRun3_A c (grid3.coords t) _ _ _ _ _ _ _ _ ((hFirst3 t).mpr h0) (fun h => h1 ((hLast3 t).mp h)) (iblk3 V c 0 t) (iblk3 V c 1 t)).2.2 _ Set.univ _)
      isplitl [H0]; · iexact H0
      isplitl [H1]; · iexact H1
      isplitl [H2]; · iexact H2
      isplitl [HA]; · iexact HA
      iintro ⟨H0, H1, H2, ⟨%ea, HA⟩⟩
      isplitl [HA Hrest Hg]
      · isplitl [HA Hrest]
        · isplitl [HA]
          · unfold owns; iexists _; isplitr
            swap; · iexact HA
            ipureintro; exact View.read_writes_of_cover _ _ _ _ _ (coverA3_A c _ _ _ _ _ _ _ _ _ _ _ _ _)
          iexact Hrest
        iexact Hg
      isplitl [Ho]; · iexact Ho
      isplitl [H0]; · iexact H0
      isplitl [H1]; · iexact H1
      iexists _; iexact H2
    · rw [PhiS3_castSucc V c t, PhiS3_pos V c _ _ hz]
      iintro ⟨⟨⟨HA, Hrest⟩, Hg⟩, Ho, ⟨%d0, H0⟩, ⟨%d1, H1⟩, ⟨%d2, H2⟩⟩
      iapply ((bodyRun3_A c (grid3.coords t) _ _ _ _ _ _ _ _ ((hFirst3 t).mpr h0) (fun h => h1 ((hLast3 t).mp h)) (iblk3 V c 0 t) (iblk3 V c 1 t)).2.2 _ Set.univ _)
      isplitl [H0]; · iexact H0
      isplitl [H1]; · iexact H1
      isplitl [H2]; · iexact H2
      isplitl [HA]; · iexists _; iexact HA
      iintro ⟨H0, H1, H2, ⟨%ea, HA⟩⟩
      isplitl [HA Hrest Hg]
      · isplitl [HA Hrest]
        · isplitl [HA]
          · unfold owns; iexists _; isplitr
            swap; · iexact HA
            ipureintro; exact View.read_writes_of_cover _ _ _ _ _ (coverA3_A c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := by omega
    by_cases h1 : t.val % 8 = 7
    · rw [show (dat3 V c).leavesExact 2 t = owns (c : Thread nD τ) (ms3_2 t) fullShare ((dat3 V c).after 2 t) from by
        unfold Dat.leavesExact; rw [live3_2 t ((hLast3 t).mpr h1)], after3_2]
      rw [outsAt3_C V c t h0 h1]
      unfold outAfter3_C accAfter3_C; (try dsimp only)
      rw [PhiS3_castSucc V c t, PhiS3_pos V c _ _ hz]
      iintro ⟨⟨⟨HA, Hrest⟩, Hg⟩, Ho, ⟨%d0, H0⟩, ⟨%d1, H1⟩, ⟨%d2, H2⟩⟩
      iapply ((bodyRun3_C c (grid3.coords t) _ _ _ _ _ _ _ _ (fun h => h0 ((hFirst3 t).mp h)) ((hLast3 t).mpr h1) (iblk3 V c 0 t) (iblk3 V c 1 t) _).2.2 Set.univ _)
      isplitl [H0]; · iexact H0
      isplitl [H1]; · iexact H1
      isplitl [H2]; · iexists _; iexact H2
      isplitl [HA]; · iexact HA
      iintro ⟨H0, H1, ⟨%e2, H2⟩, ⟨%ea, HA⟩⟩
      isplitl [HA Hrest Hg]
      · isplitl [HA Hrest]
        · isplitl [HA]
          · unfold owns; iexists _; isplitr
            swap; · iexact HA
            ipureintro; exact View.read_writes_of_cover _ _ _ _ _ (coverA3_C c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverO3_C c _ _ _ _ _ _ _ _ _ _ _ _ _ _)
    · rw [Dat.leavesExact_idle (dat3 V c) 2 t (idle3_2 t (fun h => h1 ((hLast3 t).mp h))) (noFlush3_2 t (fun h => h1 ((hLast3 t).mp h)))]
      rw [outsAt3_B V c t h0 h1]
      unfold accAfter3_B; (try dsimp only)
      rw [PhiS3_castSucc V c t, PhiS3_pos V c _ _ hz]
      iintro ⟨⟨⟨HA, Hrest⟩, Hg⟩, Ho, ⟨%d0, H0⟩, ⟨%d1, H1⟩, ⟨%d2, H2⟩⟩
      iapply ((bodyRun3_B c (grid3.coords t) _ _ _ _ _ _ _ _ (fun h => h0 ((hFirst3 t).mp h)) (fun h => h1 ((hLast3 t).mp h)) (iblk3 V c 0 t) (iblk3 V c 1 t) _).2.2 _ Set.univ _)
      isplitl [H0]; · iexact H0
      isplitl [H1]; · iexact H1
      isplitl [H2]; · iexact H2
      isplitl [HA]; · iexact HA
      iintro ⟨H0, H1, H2, ⟨%ea, HA⟩⟩
      isplitl [HA Hrest Hg]
      · isplitl [HA Hrest]
        · isplitl [HA]
          · unfold owns; iexists _; isplitr
            swap; · iexact HA
            ipureintro; exact View.read_writes_of_cover _ _ _ _ _ (coverA3_B c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class invariant back: the accumulator's named contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 32 := N_3; omega), PhiA3_eq]
  iintro ⟨⟨HA, Hrest⟩, Hg⟩
  isplitl [HA Hrest]
  · isplitl [HA]; · iexists _; iexact HA
    iexact Hrest
  iexact Hg

end Data

end Cert.KernelIdeal.Hand

end
-- ==== Proof.KernelIdeal.Run.lean ====
/-
  The whole program as eight segments — a region, then the host operations that scale its result and add it to
  the running sum, four times over — run from the launch to the return. The contents of every unscoped buffer at
  each segment boundary are a fold from the launch memory: a region replaces its result array by what its
  write-backs leave and keeps every other buffer; a stretch of host operations applies them in order. Each region is
  entered from the boundary before it and left at the one after it; the run ends with every unscoped buffer at
  the last boundary's contents.
-/
import proofs.«132851_j4544075399677_1_alg».proof.Proof.KernelIdeal.R0.Data
import proofs.«132851_j4544075399677_1_alg».proof.Proof.KernelIdeal.R1.Data
import proofs.«132851_j4544075399677_1_alg».proof.Proof.KernelIdeal.R2.Data
import proofs.«132851_j4544075399677_1_alg».proof.Proof.KernelIdeal.R3.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch: region 0's entry. -/
abbrev WE0 : Dev nD → Valuation τ sig (Elt F) := fun c b => (s₀ m ρ).mem ((c : Dev nD), b)
abbrev VE0 : (c : Dev nD) → (b : Ref sig .tc) → Buf (Elt F) ((c : Thread nD τ).loc b) := fun c b => WE0 m ρ c b

/-- At region 0's exit: its arrays at what the pipeline leaves (the operands as entered, the result's blocks as
    written back), every other buffer as entered. -/
def WX0 (c : Dev nD) : Valuation τ sig (Elt F) :=
  Pipeline.withArrays spec0 c (WE0 m ρ c) fun w => (dat0 (VE0 m ρ) c).arrAt w cfg0.N
theorem WX0_arr (c : Dev nD) (w : Fin cfg0.W) :
    WX0 m ρ c (Proc.devRef .tc (Pipeline.arrRef spec0 w)) = (dat0 (VE0 m ρ) c).arrAt w cfg0.N := by
  unfold WX0; exact Pipeline.withArrays_arr spec0 launch0.win.arr_inj c _ _ w
theorem WX0_of_ne (c : Dev nD) (b : Ref sig .tc) (hb : ∀ w, Pipeline.arrRef spec0 w ≠ b) :
    WX0 m ρ c (Proc.devRef .tc b) = WE0 m ρ c (Proc.devRef .tc b) := by
  unfold WX0; exact Pipeline.withArrays_of_ne spec0 c _ _ b hb
abbrev VX0 : (c : Dev nD) → (b : Ref sig .tc) → Buf (Elt F) ((c : Thread nD τ).loc b) := fun c b => WX0 m ρ c b
theorem hF0 (c : Dev nD) (w : Fin cfg0.W) : (dat0 (VE0 m ρ) c).arrAt w cfg0.N = VX0 m ρ c (Pipeline.arrRef spec0 w) :=
  (WX0_arr m ρ c w).symm
theorem hrest0 (c : Dev nD) : ∀ b, b ∉ Finset.univ.image (Pipeline.arrRef spec0) → VX0 m ρ c b = VE0 m ρ c b :=
  fun b hb => WX0_of_ne m ρ c b fun w e => hb (Finset.mem_image.mpr ⟨w, Finset.mem_univ _, e⟩)

/-- After the host operations that follow region 0: region 1's entry. -/
abbrev WE1 : Dev nD → Valuation τ sig (Elt F) := fun c => StableHlo.after hostOps1 (WX0 m ρ c)
abbrev VE1 : (c : Dev nD) → (b : Ref sig .tc) → Buf (Elt F) ((c : Thread nD τ).loc b) := fun c b => WE1 m ρ c b

/-- At region 1's exit: its arrays at what the pipeline leaves (the operands as entered, the result's blocks as
    written back), every other buffer as entered. -/
def WX1 (c : Dev nD) : Valuation τ sig (Elt F) :=
  Pipeline.withArrays spec1 c (WE1 m ρ c) fun w => (dat1 (VE1 m ρ) c).arrAt w cfg1.N
theorem WX1_arr (c : Dev nD) (w : Fin cfg1.W) :
    WX1 m ρ c (Proc.devRef .tc (Pipeline.arrRef spec1 w)) = (dat1 (VE1 m ρ) c).arrAt w cfg1.N := by
  unfold WX1; exact Pipeline.withArrays_arr spec1 launch1.win.arr_inj c _ _ w
theorem WX1_of_ne (c : Dev nD) (b : Ref sig .tc) (hb : ∀ w, Pipeline.arrRef spec1 w ≠ b) :
    WX1 m ρ c (Proc.devRef .tc b) = WE1 m ρ c (Proc.devRef .tc b) := by
  unfold WX1; exact Pipeline.withArrays_of_ne spec1 c _ _ b hb
abbrev VX1 : (c : Dev nD) → (b : Ref sig .tc) → Buf (Elt F) ((c : Thread nD τ).loc b) := fun c b => WX1 m ρ c b
theorem hF1 (c : Dev nD) (w : Fin cfg1.W) : (dat1 (VE1 m ρ) c).arrAt w cfg1.N = VX1 m ρ c (Pipeline.arrRef spec1 w) :=
  (WX1_arr m ρ c w).symm
theorem hrest1 (c : Dev nD) : ∀ b, b ∉ Finset.univ.image (Pipeline.arrRef spec1) → VX1 m ρ c b = VE1 m ρ c b :=
  fun b hb => WX1_of_ne m ρ c b fun w e => hb (Finset.mem_image.mpr ⟨w, Finset.mem_univ _, e⟩)

/-- After the host operations that follow region 1: region 2's entry. -/
abbrev WE2 : Dev nD → Valuation τ sig (Elt F) := fun c => StableHlo.after hostOps2 (WX1 m ρ c)
abbrev VE2 : (c : Dev nD) → (b : Ref sig .tc) → Buf (Elt F) ((c : Thread nD τ).loc b) := fun c b => WE2 m ρ c b

/-- At region 2's exit: its arrays at what the pipeline leaves (the operands as entered, the result's blocks as
    written back), every other buffer as entered. -/
def WX2 (c : Dev nD) : Valuation τ sig (Elt F) :=
  Pipeline.withArrays spec2 c (WE2 m ρ c) fun w => (dat2 (VE2 m ρ) c).arrAt w cfg2.N
theorem WX2_arr (c : Dev nD) (w : Fin cfg2.W) :
    WX2 m ρ c (Proc.devRef .tc (Pipeline.arrRef spec2 w)) = (dat2 (VE2 m ρ) c).arrAt w cfg2.N := by
  unfold WX2; exact Pipeline.withArrays_arr spec2 launch2.win.arr_inj c _ _ w
theorem WX2_of_ne (c : Dev nD) (b : Ref sig .tc) (hb : ∀ w, Pipeline.arrRef spec2 w ≠ b) :
    WX2 m ρ c (Proc.devRef .tc b) = WE2 m ρ c (Proc.devRef .tc b) := by
  unfold WX2; exact Pipeline.withArrays_of_ne spec2 c _ _ b hb
abbrev VX2 : (c : Dev nD) → (b : Ref sig .tc) → Buf (Elt F) ((c : Thread nD τ).loc b) := fun c b => WX2 m ρ c b
theorem hF2 (c : Dev nD) (w : Fin cfg2.W) : (dat2 (VE2 m ρ) c).arrAt w cfg2.N = VX2 m ρ c (Pipeline.arrRef spec2 w) :=
  (WX2_arr m ρ c w).symm
theorem hrest2 (c : Dev nD) : ∀ b, b ∉ Finset.univ.image (Pipeline.arrRef spec2) → VX2 m ρ c b = VE2 m ρ c b :=
  fun b hb => WX2_of_ne m ρ c b fun w e => hb (Finset.mem_image.mpr ⟨w, Finset.mem_univ _, e⟩)

/-- After the host operations that follow region 2: region 3's entry. -/
abbrev WE3 : Dev nD → Valuation τ sig (Elt F) := fun c => StableHlo.after hostOps3 (WX2 m ρ c)
abbrev VE3 : (c : Dev nD) → (b : Ref sig .tc) → Buf (Elt F) ((c : Thread nD τ).loc b) := fun c b => WE3 m ρ c b

/-- At region 3's exit: its arrays at what the pipeline leaves (the operands as entered, the result's blocks as
    written back), every other buffer as entered. -/
def WX3 (c : Dev nD) : Valuation τ sig (Elt F) :=
  Pipeline.withArrays spec3 c (WE3 m ρ c) fun w => (dat3 (VE3 m ρ) c).arrAt w cfg3.N
theorem WX3_arr (c : Dev nD) (w : Fin cfg3.W) :
    WX3 m ρ c (Proc.devRef .tc (Pipeline.arrRef spec3 w)) = (dat3 (VE3 m ρ) c).arrAt w cfg3.N := by
  unfold WX3; exact Pipeline.withArrays_arr spec3 launch3.win.arr_inj c _ _ w
theorem WX3_of_ne (c : Dev nD) (b : Ref sig .tc) (hb : ∀ w, Pipeline.arrRef spec3 w ≠ b) :
    WX3 m ρ c (Proc.devRef .tc b) = WE3 m ρ c (Proc.devRef .tc b) := by
  unfold WX3; exact Pipeline.withArrays_of_ne spec3 c _ _ b hb
abbrev VX3 : (c : Dev nD) → (b : Ref sig .tc) → Buf (Elt F) ((c : Thread nD τ).loc b) := fun c b => WX3 m ρ c b
theorem hF3 (c : Dev nD) (w : Fin cfg3.W) : (dat3 (VE3 m ρ) c).arrAt w cfg3.N = VX3 m ρ c (Pipeline.arrRef spec3 w) :=
  (WX3_arr m ρ c w).symm
theorem hrest3 (c : Dev nD) : ∀ b, b ∉ Finset.univ.image (Pipeline.arrRef spec3) → VX3 m ρ c b = VE3 m ρ c b :=
  fun b hb => WX3_of_ne m ρ c b fun w e => hb (Finset.mem_image.mpr ⟨w, Finset.mem_univ _, e⟩)

/-- After the last stretch of host operations: the contents the program returns with. -/
abbrev WF : Dev nD → Valuation τ sig (Elt F) := fun c => StableHlo.after hostOps4 (WX3 m ρ c)

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (VE0 m ρ) c
  | ⟨1, _⟩ => fun c => dat1 (VE1 m ρ) c
  | ⟨2, _⟩ => fun c => dat2 (VE2 m ρ) c
  | ⟨3, _⟩ => fun c => dat3 (VE3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_noalloc : (hostOps1 : List (HloOp τ sig (Elt F))).Forall fun op => op.fresh = ∅ := by
  simp only [List.Forall]; repeat' constructor
theorem hostOps2_noalloc : (hostOps2 : List (HloOp τ sig (Elt F))).Forall fun op => op.fresh = ∅ := by
  simp only [List.Forall]; repeat' constructor
theorem hostOps3_noalloc : (hostOps3 : List (HloOp τ sig (Elt F))).Forall fun op => op.fresh = ∅ := by
  simp only [List.Forall]; repeat' constructor
theorem hostOps4_noalloc : (hostOps4 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (WF m ρ c) ∗ ∃ r, prngReg c r)

/-! ## The regions as segments -/

set_option backward.isDefEq.respectTransparency.types false in
/-- Region 0 over the thread state: entered from every unscoped buffer at `WE0`, left at `WX0`. Its arrays are
    split out of the unscoped buffers and put back at the exit contents; the generator register and the scoped
    buffers go into the invariant and come back out of it; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m ρ) c).loose
  hwaits := Pipeline.hwaits_of_owed_zero _ _ _ _ L lv 0 fun _ _ => rfl
  pre c := iprop(StableHlo.held (c : Thread nD τ) (Pipeline.ucRefs τ sig) (WE0 m ρ c) ∗ R c)
  post c := iprop(StableHlo.held (c : Thread nD τ) (Pipeline.ucRefs τ sig) (WX0 m ρ c) ∗ R c)
  X c := iprop(∃ r, prngReg c r)
  Y c := iprop(∃ r, prngReg c r)
  Z c := Pipeline.unscopedRest (Ix := Unit) (Name := ℕ) (U := UR sig nD τ) (Lvl := ℕ) spec0 c (VE0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VE0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = PhiS0 (VE0 m ρ) c 0 (Nat.zero_le _) from rfl, PhiS0_zero (VE0 m ρ) c 0 _ rfl]
    unfold Pipeline.ΦA
    iintro ⟨Hp, -, Hr⟩
    isplitl [Hr]; · iexact Hr
    iexact Hp
  hout c := by
    rw [Pipeline.ownSems0_none]
    rw [show (pdats m ρ 0 c).Φ (Fin.last _) = (dat0 (VE0 m ρ) c).Φ (Fin.last cfg0.N) from rfl]
    have h := hout0 (VE0 m ρ) c
    unfold Pipeline.ΦA at h
    iintro Hphi
    ihave H := h $$ Hphi
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VE0 m ρ c) (VX0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `WE1`, left at `WX1`. Its arrays are
    split out of the unscoped buffers and put back at the exit contents; the generator register and the scoped
    buffers go into the invariant and come back out of it; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m ρ) c).loose
  hwaits := Pipeline.hwaits_of_owed_zero _ _ _ _ L lv 1 fun _ _ => rfl
  pre c := iprop(StableHlo.held (c : Thread nD τ) (Pipeline.ucRefs τ sig) (WE1 m ρ c) ∗ R c)
  post c := iprop(StableHlo.held (c : Thread nD τ) (Pipeline.ucRefs τ sig) (WX1 m ρ c) ∗ R c)
  X c := iprop(∃ r, prngReg c r)
  Y c := iprop(∃ r, prngReg c r)
  Z c := Pipeline.unscopedRest (Ix := Unit) (Name := ℕ) (U := UR sig nD τ) (Lvl := ℕ) spec1 c (VE1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VE1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = PhiS1 (VE1 m ρ) c 0 (Nat.zero_le _) from rfl, PhiS1_zero (VE1 m ρ) c 0 _ rfl]
    unfold Pipeline.ΦA
    iintro ⟨Hp, -, Hr⟩
    isplitl [Hr]; · iexact Hr
    iexact Hp
  hout c := by
    rw [Pipeline.ownSems0_none]
    rw [show (pdats m ρ 1 c).Φ (Fin.last _) = (dat1 (VE1 m ρ) c).Φ (Fin.last cfg1.N) from rfl]
    have h := hout1 (VE1 m ρ) c
    unfold Pipeline.ΦA at h
    iintro Hphi
    ihave H := h $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VE1 m ρ c) (VX1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `WE2`, left at `WX2`. Its arrays are
    split out of the unscoped buffers and put back at the exit contents; the generator register and the scoped
    buffers go into the invariant and come back out of it; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VE2 m ρ) c).loose
  hwaits := Pipeline.hwaits_of_owed_zero _ _ _ _ L lv 2 fun _ _ => rfl
  pre c := iprop(StableHlo.held (c : Thread nD τ) (Pipeline.ucRefs τ sig) (WE2 m ρ c) ∗ R c)
  post c := iprop(StableHlo.held (c : Thread nD τ) (Pipeline.ucRefs τ sig) (WX2 m ρ c) ∗ R c)
  X c := iprop(∃ r, prngReg c r)
  Y c := iprop(∃ r, prngReg c r)
  Z c := Pipeline.unscopedRest (Ix := Unit) (Name := ℕ) (U := UR sig nD τ) (Lvl := ℕ) spec2 c (VE2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (VE2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = PhiS2 (VE2 m ρ) c 0 (Nat.zero_le _) from rfl, PhiS2_zero (VE2 m ρ) c 0 _ rfl]
    unfold Pipeline.ΦA
    iintro ⟨Hp, -, Hr⟩
    isplitl [Hr]; · iexact Hr
    iexact Hp
  hout c := by
    rw [Pipeline.ownSems0_none]
    rw [show (pdats m ρ 2 c).Φ (Fin.last _) = (dat2 (VE2 m ρ) c).Φ (Fin.last cfg2.N) from rfl]
    have h := hout2 (VE2 m ρ) c
    unfold Pipeline.ΦA at h
    iintro Hphi
    ihave H := h $$ Hphi
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (VE2 m ρ c) (VX2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `WE3`, left at `WX3`. Its arrays are
    split out of the unscoped buffers and put back at the exit contents; the generator register and the scoped
    buffers go into the invariant and come back out of it; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VE3 m ρ) c).loose
  hwaits := Pipeline.hwaits_of_owed_zero _ _ _ _ L lv 3 fun _ _ => rfl
  pre c := iprop(StableHlo.held (c : Thread nD τ) (Pipeline.ucRefs τ sig) (WE3 m ρ c) ∗ R c)
  post c := iprop(StableHlo.held (c : Thread nD τ) (Pipeline.ucRefs τ sig) (WX3 m ρ c) ∗ R c)
  X c := iprop(∃ r, prngReg c r)
  Y c := iprop(∃ r, prngReg c r)
  Z c := Pipeline.unscopedRest (Ix := Unit) (Name := ℕ) (U := UR sig nD τ) (Lvl := ℕ) spec3 c (VE3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (VE3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = PhiS3 (VE3 m ρ) c 0 (Nat.zero_le _) from rfl, PhiS3_zero (VE3 m ρ) c 0 _ rfl]
    unfold Pipeline.ΦA
    iintro ⟨Hp, -, Hr⟩
    isplitl [Hr]; · iexact Hr
    iexact Hp
  hout c := by
    rw [Pipeline.ownSems0_none]
    rw [show (pdats m ρ 3 c).Φ (Fin.last _) = (dat3 (VE3 m ρ) c).Φ (Fin.last cfg3.N) from rfl]
    have h := hout3 (VE3 m ρ) c
    unfold Pipeline.ΦA at h
    iintro Hphi
    ihave H := h $$ Hphi
    icases H with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (VE3 m ρ c) (VX3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .region (reg0 m ρ),
    .host (hseg hostOps1 hostOps1_sub hostOps1_noalloc (WX0 m ρ)),
    .region (reg1 m ρ),
    .host (hseg hostOps2 hostOps2_sub hostOps2_noalloc (WX1 m ρ)),
    .region (reg2 m ρ),
    .host (hseg hostOps3 hostOps3_sub hostOps3_noalloc (WX2 m ρ)),
    .region (reg3 m ρ),
    .host (hseg hostOps4 hostOps4_sub hostOps4_noalloc (WX3 m ρ)) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state has every unscoped buffer at the last boundary's contents `WF`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = WF m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (WE0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (WF m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (WE0 m ρ c)
        from Pipeline.unscopedBufs_held c (WE0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = WF m ρ c b)
    (hfin := fun c s' => by
      iintro ⟨⟨Hh, -⟩, HSI⟩
      unfold StableHlo.held
      imodintro
      iapply (pointsTo_read_all (Pipeline.ucRefs τ sig) (fun b => (((c : Thread nD τ)).1, b)) (WF m ρ c) s')
      isplitl [Hh] <;> iassumption)
    (hQ := fun s h => h)

end Cert.KernelIdeal.Hand

end
-- ==== Proof.KernelIdeal.Args.lean ====
/-
  The argument arrays stay as launched, at every segment boundary. The fold of buffer contents through the eight
  segments, read at an argument's buffer, walks back to the launch memory: a stretch of host operations writes only
  its own results, and a region changes only its result array (an argument it reads through an input window comes
  back as it was). Hence the frame: the program runs to the end, nothing faults, and its four arguments are unchanged.
-/
import proofs.«132851_j4544075399677_1_alg».proof.Proof.KernelIdeal.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### `main_arg0` at every boundary: as launched -/

theorem WX0_arg0 (c : Dev nD) : WX0 m ρ c (Proc.devRef .tc main_arg0) = m ((c : Thread nD τ).loc main_arg0) :=
  ((WX0_arr m ρ c 0).trans (((dat0 (VE0 m ρ) c).arrAt_in 0 rfl _).trans (A_eq0 (VE0 m ρ) c 0))).trans rfl
theorem WE1_arg0 (c : Dev nD) : WE1 m ρ c (Proc.devRef .tc main_arg0) = m ((c : Thread nD τ).loc main_arg0) :=
  (StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX0_arg0 m ρ c)
theorem WX1_arg0 (c : Dev nD) : WX1 m ρ c (Proc.devRef .tc main_arg0) = m ((c : Thread nD τ).loc main_arg0) :=
  ((WX1_arr m ρ c 0).trans (((dat1 (VE1 m ρ) c).arrAt_in 0 rfl _).trans (A_eq1 (VE1 m ρ) c 0))).trans (WE1_arg0 m ρ c)
theorem WE2_arg0 (c : Dev nD) : WE2 m ρ c (Proc.devRef .tc main_arg0) = m ((c : Thread nD τ).loc main_arg0) :=
  (StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX1_arg0 m ρ c)
theorem WX2_arg0 (c : Dev nD) : WX2 m ρ c (Proc.devRef .tc main_arg0) = m ((c : Thread nD τ).loc main_arg0) :=
  ((WX2_arr m ρ c 0).trans (((dat2 (VE2 m ρ) c).arrAt_in 0 rfl _).trans (A_eq2 (VE2 m ρ) c 0))).trans (WE2_arg0 m ρ c)
theorem WE3_arg0 (c : Dev nD) : WE3 m ρ c (Proc.devRef .tc main_arg0) = m ((c : Thread nD τ).loc main_arg0) :=
  (StableHlo.after_of_forall_not_mem (b := Proc.devRef .tc main_arg0) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX2_arg0 m ρ c)
theorem WX3_arg0 (c : Dev nD) : WX3 m ρ c (Proc.devRef .tc main_arg0) = m ((c : Thread nD τ).loc main_arg0) :=
  ((WX3_arr m ρ c 0).trans (((dat3 (VE3 m ρ) c).arrAt_in 0 rfl _).trans (A_eq3 (VE3 m ρ) c 0))).trans (WE3_arg0 m ρ c)
theorem WF_main_arg0 (c : Dev nD) : WF m ρ c (Proc.devRef .tc main_arg0) = m ((c : Thread nD τ).loc main_arg0) :=
  (StableHlo.after_of_forall_not_mem (b := Proc.devRef .tc main_arg0) _ _ (List.forall_iff_forall_mem.mp (by
          simp only [hostOps4, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX3_arg0 m ρ c)

/-! ### `main_arg1` at every boundary: as launched -/

theorem WX0_arg1 (c : Dev nD) : WX0 m ρ c (Proc.devRef .tc main_arg1) = m ((c : Thread nD τ).loc main_arg1) :=
  ((WX0_arr m ρ c 1).trans (((dat0 (VE0 m ρ) c).arrAt_in 1 rfl _).trans (A_eq0 (VE0 m ρ) c 1))).trans rfl
theorem WE1_arg1 (c : Dev nD) : WE1 m ρ c (Proc.devRef .tc main_arg1) = m ((c : Thread nD τ).loc main_arg1) :=
  (StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX0_arg1 m ρ c)
theorem WX1_arg1 (c : Dev nD) : WX1 m ρ c (Proc.devRef .tc main_arg1) = m ((c : Thread nD τ).loc main_arg1) :=
  (WX1_of_ne m ρ c main_arg1 (by decide)).trans (WE1_arg1 m ρ c)
theorem WE2_arg1 (c : Dev nD) : WE2 m ρ c (Proc.devRef .tc main_arg1) = m ((c : Thread nD τ).loc main_arg1) :=
  (StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX1_arg1 m ρ c)
theorem WX2_arg1 (c : Dev nD) : WX2 m ρ c (Proc.devRef .tc main_arg1) = m ((c : Thread nD τ).loc main_arg1) :=
  (WX2_of_ne m ρ c main_arg1 (by decide)).trans (WE2_arg1 m ρ c)
theorem WE3_arg1 (c : Dev nD) : WE3 m ρ c (Proc.devRef .tc main_arg1) = m ((c : Thread nD τ).loc main_arg1) :=
  (StableHlo.after_of_forall_not_mem (b := Proc.devRef .tc main_arg1) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX2_arg1 m ρ c)
theorem WX3_arg1 (c : Dev nD) : WX3 m ρ c (Proc.devRef .tc main_arg1) = m ((c : Thread nD τ).loc main_arg1) :=
  (WX3_of_ne m ρ c main_arg1 (by decide)).trans (WE3_arg1 m ρ c)
theorem WF_main_arg1 (c : Dev nD) : WF m ρ c (Proc.devRef .tc main_arg1) = m ((c : Thread nD τ).loc main_arg1) :=
  (StableHlo.after_of_forall_not_mem (b := Proc.devRef .tc main_arg1) _ _ (List.forall_iff_forall_mem.mp (by
          simp only [hostOps4, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX3_arg1 m ρ c)

/-! ### `main_arg2` at every boundary: as launched -/

theorem WX0_arg2 (c : Dev nD) : WX0 m ρ c (Proc.devRef .tc main_arg2) = m ((c : Thread nD τ).loc main_arg2) :=
  (WX0_of_ne m ρ c main_arg2 (by decide)).trans rfl
theorem WE1_arg2 (c : Dev nD) : WE1 m ρ c (Proc.devRef .tc main_arg2) = m ((c : Thread nD τ).loc main_arg2) :=
  (StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX0_arg2 m ρ c)
theorem WX1_arg2 (c : Dev nD) : WX1 m ρ c (Proc.devRef .tc main_arg2) = m ((c : Thread nD τ).loc main_arg2) :=
  (WX1_of_ne m ρ c main_arg2 (by decide)).trans (WE1_arg2 m ρ c)
theorem WE2_arg2 (c : Dev nD) : WE2 m ρ c (Proc.devRef .tc main_arg2) = m ((c : Thread nD τ).loc main_arg2) :=
  (StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX1_arg2 m ρ c)
theorem WX2_arg2 (c : Dev nD) : WX2 m ρ c (Proc.devRef .tc main_arg2) = m ((c : Thread nD τ).loc main_arg2) :=
  (WX2_of_ne m ρ c main_arg2 (by decide)).trans (WE2_arg2 m ρ c)
theorem WE3_arg2 (c : Dev nD) : WE3 m ρ c (Proc.devRef .tc main_arg2) = m ((c : Thread nD τ).loc main_arg2) :=
  (StableHlo.after_of_forall_not_mem (b := Proc.devRef .tc main_arg2) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX2_arg2 m ρ c)
theorem WX3_arg2 (c : Dev nD) : WX3 m ρ c (Proc.devRef .tc main_arg2) = m ((c : Thread nD τ).loc main_arg2) :=
  (WX3_of_ne m ρ c main_arg2 (by decide)).trans (WE3_arg2 m ρ c)
theorem WF_main_arg2 (c : Dev nD) : WF m ρ c (Proc.devRef .tc main_arg2) = m ((c : Thread nD τ).loc main_arg2) :=
  (StableHlo.after_of_forall_not_mem (b := Proc.devRef .tc main_arg2) _ _ (List.forall_iff_forall_mem.mp (by
          simp only [hostOps4, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX3_arg2 m ρ c)

/-! ### `main_arg3` at every boundary: as launched -/

theorem WX0_arg3 (c : Dev nD) : WX0 m ρ c (Proc.devRef .tc main_arg3) = m ((c : Thread nD τ).loc main_arg3) :=
  (WX0_of_ne m ρ c main_arg3 (by decide)).trans rfl
theorem WE1_arg3 (c : Dev nD) : WE1 m ρ c (Proc.devRef .tc main_arg3) = m ((c : Thread nD τ).loc main_arg3) :=
  (StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX0_arg3 m ρ c)
theorem WX1_arg3 (c : Dev nD) : WX1 m ρ c (Proc.devRef .tc main_arg3) = m ((c : Thread nD τ).loc main_arg3) :=
  (WX1_of_ne m ρ c main_arg3 (by decide)).trans (WE1_arg3 m ρ c)
theorem WE2_arg3 (c : Dev nD) : WE2 m ρ c (Proc.devRef .tc main_arg3) = m ((c : Thread nD τ).loc main_arg3) :=
  (StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX1_arg3 m ρ c)
theorem WX2_arg3 (c : Dev nD) : WX2 m ρ c (Proc.devRef .tc main_arg3) = m ((c : Thread nD τ).loc main_arg3) :=
  (WX2_of_ne m ρ c main_arg3 (by decide)).trans (WE2_arg3 m ρ c)
theorem WE3_arg3 (c : Dev nD) : WE3 m ρ c (Proc.devRef .tc main_arg3) = m ((c : Thread nD τ).loc main_arg3) :=
  (StableHlo.after_of_forall_not_mem (b := Proc.devRef .tc main_arg3) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX2_arg3 m ρ c)
theorem WX3_arg3 (c : Dev nD) : WX3 m ρ c (Proc.devRef .tc main_arg3) = m ((c : Thread nD τ).loc main_arg3) :=
  (WX3_of_ne m ρ c main_arg3 (by decide)).trans (WE3_arg3 m ρ c)
theorem WF_main_arg3 (c : Dev nD) : WF m ρ c (Proc.devRef .tc main_arg3) = m ((c : Thread nD τ).loc main_arg3) :=
  (StableHlo.after_of_forall_not_mem (b := Proc.devRef .tc main_arg3) _ _ (List.forall_iff_forall_mem.mp (by
          simp only [hostOps4, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX3_arg3 m ρ c)

/-- The frame: every weakly fair execution terminates, nothing faulting, and the four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (WF_main_arg0 m ρ c),
     (h c _ (mem_uc main_arg1 (by decide))).trans (WF_main_arg1 m ρ c),
     (h c _ (mem_uc main_arg2 (by decide))).trans (WF_main_arg2 m ρ c),
     (h c _ (mem_uc main_arg3 (by decide))).trans (WF_main_arg3 m ρ c)⟩) (run_all m ρ)

end Cert.KernelIdeal.Hand

end
-- ==== Proof.KernelIdeal.Result.lean ====
/-
  The program's result. Each stretch of host operations takes coefficient k of θ, broadcasts it over the array,
  multiplies it into the k-th region's result and adds the product to the running sum; read through the fold of
  buffer contents, the returned array is θ₀·P₀ + θ₁·P₁ + θ₂·P₂ + θ₃·P₃ summed first to last, with P_k what region k
  leaves in its result array and θ the fourth argument as launched. Region k ≥ 1 is entered with the first
  argument as launched and region k − 1's result as its right operand.
-/
import proofs.«132851_j4544075399677_1_alg».proof.Proof.KernelIdeal.Args
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Coefficient k of `θ` as an [8192,128] array. -/
abbrev coef0 (θ : (⟨S4, .f32⟩ : BufTy).Contents (Elt F)) : (⟨S8192x128, .f32⟩ : BufTy).Contents (Elt F) := (broadcastInDim S8192x128 ![] bcast_S_S8192x128 (shapeCast S_ (extractStridedSlice S1 ![0] θ slices_S4_S1_0) shapeCasts_S1_S_))
abbrev coef1 (θ : (⟨S4, .f32⟩ : BufTy).Contents (Elt F)) : (⟨S8192x128, .f32⟩ : BufTy).Contents (Elt F) := (broadcastInDim S8192x128 ![] bcast_S_S8192x128 (shapeCast S_ (extractStridedSlice S1 ![1] θ slices_S4_S1_1) shapeCasts_S1_S_))
abbrev coef2 (θ : (⟨S4, .f32⟩ : BufTy).Contents (Elt F)) : (⟨S8192x128, .f32⟩ : BufTy).Contents (Elt F) := (broadcastInDim S8192x128 ![] bcast_S_S8192x128 (shapeCast S_ (extractStridedSlice S1 ![2] θ slices_S4_S1_2) shapeCasts_S1_S_))
abbrev coef3 (θ : (⟨S4, .f32⟩ : BufTy).Contents (Elt F)) : (⟨S8192x128, .f32⟩ : BufTy).Contents (Elt F) := (broadcastInDim S8192x128 ![] bcast_S_S8192x128 (shapeCast S_ (extractStridedSlice S1 ![3] θ slices_S4_S1_3) shapeCasts_S1_S_))

/-! ## What each region leaves, and what the next one is entered with -/

theorem WX0_v0 (c : Dev nD) : WX0 m ρ c (Proc.devRef .tc main_v0) = (dat0 (VE0 m ρ) c).arrAt 2 cfg0.N := WX0_arr m ρ c 2
theorem WX1_v5 (c : Dev nD) : WX1 m ρ c (Proc.devRef .tc main_v5) = (dat1 (VE1 m ρ) c).arrAt 2 cfg1.N := WX1_arr m ρ c 2
theorem WX2_v11 (c : Dev nD) : WX2 m ρ c (Proc.devRef .tc main_v11) = (dat2 (VE2 m ρ) c).arrAt 2 cfg2.N := WX2_arr m ρ c 2
theorem WX3_v17 (c : Dev nD) : WX3 m ρ c (Proc.devRef .tc main_v17) = (dat3 (VE3 m ρ) c).arrAt 2 cfg3.N := WX3_arr m ρ c 2

theorem WE1_v0 (c : Dev nD) : WE1 m ρ c (Proc.devRef .tc main_v0) = (dat0 (VE0 m ρ) c).arrAt 2 cfg0.N :=
  (StableHlo.after_of_forall_not_mem (b := Proc.devRef .tc main_v0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX0_v0 m ρ c)
theorem WE2_v5 (c : Dev nD) : WE2 m ρ c (Proc.devRef .tc main_v5) = (dat1 (VE1 m ρ) c).arrAt 2 cfg1.N :=
  (StableHlo.after_of_forall_not_mem (b := Proc.devRef .tc main_v5) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX1_v5 m ρ c)
theorem WE3_v11 (c : Dev nD) : WE3 m ρ c (Proc.devRef .tc main_v11) = (dat2 (VE2 m ρ) c).arrAt 2 cfg2.N :=
  (StableHlo.after_of_forall_not_mem (b := Proc.devRef .tc main_v11) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WX2_v11 m ρ c)

/-! ## The running sum, stretch by stretch -/

theorem WE1_v4 (c : Dev nD) : WE1 m ρ c (Proc.devRef .tc main_v4)
    = mulf (coef0 (WX0 m ρ c (Proc.devRef .tc main_arg3))) (WX0 m ρ c (Proc.devRef .tc main_v0)) := by
  show StableHlo.after hostOps1 (WX0 m ρ c) (Proc.devRef .tc main_v4) = _
  after_results <;> rfl
theorem WE2_v10 (c : Dev nD) : WE2 m ρ c (Proc.devRef .tc main_v10)
    = addf (WX1 m ρ c (Proc.devRef .tc main_v4)) (mulf (coef1 (WX1 m ρ c (Proc.devRef .tc main_arg3))) (WX1 m ρ c (Proc.devRef .tc main_v5))) := by
  show StableHlo.after hostOps2 (WX1 m ρ c) (Proc.devRef .tc main_v10) = _
  after_results <;> rfl
theorem WE3_v16 (c : Dev nD) : WE3 m ρ c (Proc.devRef .tc main_v16)
    = addf (WX2 m ρ c (Proc.devRef .tc main_v10)) (mulf (coef2 (WX2 m ρ c (Proc.devRef .tc main_arg3))) (WX2 m ρ c (Proc.devRef .tc main_v11))) := by
  show StableHlo.after hostOps3 (WX2 m ρ c) (Proc.devRef .tc main_v16) = _
  after_results <;> rfl
theorem WF_v22 (c : Dev nD) : WF m ρ c (Proc.devRef .tc main_v22)
    = addf (WX3 m ρ c (Proc.devRef .tc main_v16)) (mulf (coef3 (WX3 m ρ c (Proc.devRef .tc main_arg3))) (WX3 m ρ c (Proc.devRef .tc main_v17))) := by
  show StableHlo.after hostOps4 (WX3 m ρ c) (Proc.devRef .tc main_v22) = _
  after_results <;> rfl

/-- The returned array: the four regions' results scaled by the four coefficients and summed first to last. -/
theorem result (c : Dev nD) : WF m ρ c (Proc.devRef .tc main_v22)
    = addf (addf (addf (mulf (coef0 (m ((c : Thread nD τ).loc main_arg3))) ((dat0 (VE0 m ρ) c).arrAt 2 cfg0.N))
                       (mulf (coef1 (m ((c : Thread nD τ).loc main_arg3))) ((dat1 (VE1 m ρ) c).arrAt 2 cfg1.N)))
                 (mulf (coef2 (m ((c : Thread nD τ).loc main_arg3))) ((dat2 (VE2 m ρ) c).arrAt 2 cfg2.N)))
           (mulf (coef3 (m ((c : Thread nD τ).loc main_arg3))) ((dat3 (VE3 m ρ) c).arrAt 2 cfg3.N)) := by
  rw [WF_v22, WX3_of_ne m ρ c main_v16 (by decide), WE3_v16, WX2_of_ne m ρ c main_v10 (by decide), WE2_v10,
    WX1_of_ne m ρ c main_v4 (by decide), WE1_v4,
    WX0_arg3, WX1_arg3, WX2_arg3, WX3_arg3, WX0_v0, WX1_v5, WX2_v11, WX3_v17]

end Cert.KernelIdeal.Hand

end
-- ==== Proof.TileValue.lean ====
/- The tile's two stored values read at one entry, at the ideal instance (floats are extended reals, the
   format changes the identity): the zero fill is zero, and the accumulation step is the old entry plus the
   row-by-column sum of products over the 1024 contracted positions. -/
import proofs.«132851_j4544075399677_1_alg».proof.Proof.Gen.KernelIdeal.Skeleton
import Idealize.ShloMosaic.Lib.StackMember

noncomputable section

namespace Cert.KernelIdeal.TileValue

open Idealize.ShloMosaic Idealize.ShloMosaic.ValueIdx

/-- The tile's contraction record is the plain rows-by-columns product of a 2048x1024 by a 1024x128 matrix. -/
theorem dot_eq_plain :
    dot_S2048x1024_S1024x128_S2048x128_1_0_0_1_n_n = DotDims.plain 2048 1024 128 := rfl

/-- The zero fill reads zero at every entry. -/
theorem pay1_apply (y : S2048x128.Idx) : Gen.k0_pay1 (F := Ideal) y = 0 := by
  unfold Gen.k0_pay1
  rw [shapeCast_self]
  exact Ideal.ofBits_zero_f32

/-- The product of the two operand blocks into a zero accumulator, read at entry `(p, q)`: the sum over the
    contracted position `j` of the products of row `p` of the left block and column `q` of the right one. -/
theorem matmul_tile_apply (a : FVec Ideal S2048x1024 .bf16) (b : FVec Ideal S1024x128 .bf16)
    (p : Fin 2048) (q : Fin 128) :
    matmul dot_S2048x1024_S1024x128_S2048x128_1_0_0_1_n_n none a b
        (constant (F := Ideal) S2048x128 .f32 0x00000000#32) (ix2 p q)
      = ∑ j : Fin 1024, a (ix2 p j) * b (ix2 j q) := by
  rw [matmul_zero_eq_dotGeneral, dot_eq_plain]
  exact StackMember.dotGeneral_plain_apply none a b p q

/-- The accumulation step at entry `(p, q)`: the old entry plus the block product there. -/
theorem pay2_apply (v3 : Vec Ideal S2048x1024 .f32) (v5 : Vec Ideal S1024x128 .f32) (v7 : Vec Ideal S2048x128 .f32)
    (p : Fin 2048) (q : Fin 128) :
    Gen.k0_pay2 (F := Ideal) v3 v5 v7 (ix2 p q)
      = v7 (ix2 p q) + ∑ j : Fin 1024, v3 (ix2 p j) * v5 (ix2 j q) := by
  unfold Gen.k0_pay2
  rw [shapeCast_self, addf_apply, matmul_tile_apply]
  rfl

/-! The other three regions store the same two values. -/

theorem pay1_eq1 : @Gen.k1_pay1 = @Gen.k0_pay1 := rfl
theorem pay1_eq2 : @Gen.k2_pay1 = @Gen.k0_pay1 := rfl
theorem pay1_eq3 : @Gen.k3_pay1 = @Gen.k0_pay1 := rfl

/-- In the other regions the right block first passes a cast to its own shape, which is the identity. -/
theorem pay2_eq1 : @Gen.k1_pay2 = @Gen.k0_pay2 := by
  funext F _ v3 v5 v8
  unfold Gen.k1_pay2 Gen.k0_pay2
  rw [shapeCast_self v5]
theorem pay2_eq2 : @Gen.k2_pay2 = @Gen.k0_pay2 := by
  funext F _ v3 v5 v8
  unfold Gen.k2_pay2 Gen.k0_pay2
  rw [shapeCast_self v5]
theorem pay2_eq3 : @Gen.k3_pay2 = @Gen.k0_pay2 := by
  funext F _ v3 v5 v8
  unfold Gen.k3_pay2 Gen.k0_pay2
  rw [shapeCast_self v5]

end Cert.KernelIdeal.TileValue
-- ==== Proof.BlockSum.lean ====
/- Regrouping a sum over `Fin (a * b)` into `a` consecutive blocks of length `b`, and a running
   accumulation read as a finite sum. Stated over any commutative additive monoid: extended-real
   addition is commutative and associative, so no finiteness is needed. -/
import Mathlib.Algebra.BigOperators.Fin
import Mathlib.Logic.Equiv.Fin.Basic

namespace Cert.PolyConv

open Finset

/-- The `j`-th entry of block `kb` lies inside `Fin (a * b)`. -/
theorem blk_lt {a b : ℕ} (kb : Fin a) (j : Fin b) : b * kb.val + j.val < a * b := by
  calc b * kb.val + j.val < b * kb.val + b := Nat.add_lt_add_left j.isLt _
    _ = b * (kb.val + 1) := (Nat.mul_succ b kb.val).symm
    _ ≤ b * a := Nat.mul_le_mul_left b kb.isLt
    _ = a * b := Nat.mul_comm b a

/-- A sum over `Fin (a * b)` is the sum over the `a` blocks of the sums inside each block of
    length `b`; entry `j` of block `kb` is index `b * kb + j`. -/
theorem sum_blocks {M : Type*} [AddCommMonoid M] (a b : ℕ) (g : Fin (a * b) → M) :
    ∑ kb : Fin a, ∑ j : Fin b, g ⟨b * kb.val + j.val, blk_lt kb j⟩ = ∑ k : Fin (a * b), g k := by
  rw [← finProdFinEquiv.sum_comp, Fintype.sum_prod_type]
  refine Finset.sum_congr rfl fun kb _ => Finset.sum_congr rfl fun j _ => ?_
  congr 1
  apply Fin.ext
  simp only [finProdFinEquiv_apply_val]
  exact Nat.add_comm _ _

/-- The instance at eight blocks of length 1024, over `Fin 8192`. -/
theorem sum_blocks_8192 {M : Type*} [AddCommMonoid M] (g : Fin 8192 → M) :
    ∑ kb : Fin 8, ∑ j : Fin 1024, g ⟨1024 * kb.val + j.val, by omega⟩ = ∑ k : Fin 8192, g k :=
  sum_blocks 8 1024 g

/-- The running accumulation: start from zero plus the first term, then add one term per step. -/
def accum {M : Type*} [AddCommMonoid M] (d : ℕ → M) : ℕ → M
  | 0 => 0 + d 0
  | n + 1 => accum d n + d (n + 1)

@[simp] theorem accum_zero {M : Type*} [AddCommMonoid M] (d : ℕ → M) : accum d 0 = 0 + d 0 := rfl

@[simp] theorem accum_succ {M : Type*} [AddCommMonoid M] (d : ℕ → M) (n : ℕ) :
    accum d (n + 1) = accum d n + d (n + 1) := rfl

/-- After step `n` the accumulation holds the sum of the terms `0, …, n`. -/
theorem accum_eq_sum_range {M : Type*} [AddCommMonoid M] (d : ℕ → M) (n : ℕ) :
    accum d n = ∑ k ∈ Finset.range (n + 1), d k := by
  induction n with
  | zero => rw [accum_zero, zero_add, Finset.sum_range_one]
  | succ n ih => rw [accum_succ, ih, Finset.sum_range_succ _ (n + 1)]

/-- After step 7 the accumulation holds the sum of the eight terms. -/
theorem accum_seven {M : Type*} [AddCommMonoid M] (d : ℕ → M) :
    accum d 7 = ∑ kb : Fin 8, d kb.val := by
  rw [accum_eq_sum_range, Finset.sum_range]

end Cert.PolyConv
-- ==== Proof.KernelIdeal.R0.Value.lean ====
import proofs.«132851_j4544075399677_1_alg».proof.Proof.KernelIdeal.R0.Data
import proofs.«132851_j4544075399677_1_alg».proof.Proof.TileValue
import proofs.«132851_j4544075399677_1_alg».proof.Proof.BlockSum
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! Region 0: the result array after the region, entry by entry, is the product of the two operand arrays as
    the region finds them: the sum over all 8192 contracted positions. The accumulator after the point
    `8 i + k` holds the partial sum over the first `k + 1` tiles of 1024 positions; the point `8 i + 7` copies the
    full sum to the output block, which is rows `2048 i … 2048 i + 2047` of the result. -/

variable {F : FTy → Type} [FloatOps F]

theorem hz0 : (![0, 0] : Fin 2 → Nat) = fun _ => 0 := funext fun a => by fin_cases a <;> rfl

/-! ## What each case leaves, as the body's two stored values -/

/-- At k = 0 the accumulator ends at the accumulation step taken from the zero fill. -/
theorem accA0_eq (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : isFirst0 i) (hc1 : ¬isLast0 i) (x0 : Vec F S2048x1024 .f32) (x1 : Vec F S1024x128 .f32) :
    accAfter0_A c i arg2 harg2 arg3 harg3 arg4 harg4 arg5 harg5 hc0 hc1 x0 x1 = k0_pay2 x0 x1 (k0_pay1 (F := F)) := by
  unfold accAfter0_A
  rw [View.read_writes_eq_canon _ _ _ (coverA0_A c i arg2 harg2 arg3 harg3 arg4 harg4 arg5 harg5 hc0 hc1 x0 x1)]
  unfold bodyRun0_A
  dsimp only
  sl_unfold_words
  rw [View.canon_cons_unit_zero (S := S2048x128) hz0, View.readCov_unit_zero (S := S2048x128) _ hz0]
  simp only [View.readAt_eq_ld, harg2.read_unread, harg3.read_unread, View.ld_unit_zero (S := S2048x1024) hz0, View.ld_unit_zero (S := S1024x128) hz0]

/-- At 0 < k < 7 it ends at the accumulation step taken from what the point before left. -/
theorem accB0_eq (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst0 i) (hc1 : ¬isLast0 i) (x0 : Vec F S2048x1024 .f32) (x1 : Vec F S1024x128 .f32) (xa : Vec F S2048x128 .f32) :
    accAfter0_B c i arg2 harg2 arg3 harg3 arg4 harg4 arg5 harg5 hc0 hc1 x0 x1 xa = k0_pay2 x0 x1 xa := by
  unfold accAfter0_B
  rw [View.read_writes_eq_canon _ _ _ (coverA0_B c i arg2 harg2 arg3 harg3 arg4 harg4 arg5 harg5 hc0 hc1 x0 x1 xa)]
  unfold bodyRun0_B
  dsimp only
  rw [View.canon_unit_zero hz0]
  simp only [View.readAt_eq_ld, harg2.read_unread, harg3.read_unread, harg5.read_unread, View.ld_unit_zero (S := S2048x1024) hz0, View.ld_unit_zero (S := S1024x128) hz0, View.ld_unit_zero (S := S2048x128) hz0]

/-- At k = 7 likewise, -/
theorem accC0_eq (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst0 i) (hc1 : isLast0 i) (x0 : Vec F S2048x1024 .f32) (x1 : Vec F S1024x128 .f32) (xa : Vec F S2048x128 .f32) :
    accAfter0_C c i arg2 harg2 arg3 harg3 arg4 harg4 arg5 harg5 hc0 hc1 x0 x1 xa = k0_pay2 x0 x1 xa := by
  unfold accAfter0_C
  rw [View.read_writes_eq_canon _ _ _ (coverA0_C c i arg2 harg2 arg3 harg3 arg4 harg4 arg5 harg5 hc0 hc1 x0 x1 xa)]
  unfold bodyRun0_C
  dsimp only
  sl_unfold_words
  rw [View.canon_unit_zero hz0]
  simp only [View.readAt_eq_ld, harg2.read_unread, harg3.read_unread, harg5.read_unread, View.ld_unit_zero (S := S2048x1024) hz0, View.ld_unit_zero (S := S1024x128) hz0, View.ld_unit_zero (S := S2048x128) hz0]

/-- and the output block is the accumulator just written. -/
theorem outC0_eq (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst0 i) (hc1 : isLast0 i) (x0 : Vec F S2048x1024 .f32) (x1 : Vec F S1024x128 .f32) (xa : Vec F S2048x128 .f32) :
    outAfter0_C c i arg2 harg2 arg3 harg3 arg4 harg4 arg5 harg5 hc0 hc1 x0 x1 xa = k0_pay2 x0 x1 xa := by
  unfold outAfter0_C
  rw [View.read_writes_eq_canon _ _ _ (coverO0_C c i arg2 harg2 arg3 harg3 arg4 harg4 arg5 harg5 hc0 hc1 x0 x1 xa)]
  unfold bodyRun0_C
  dsimp only
  sl_unfold_words
  rw [View.canon_unit_zero hz0, View.readCov_unit_zero (S := S2048x128) _ hz0]
  simp only [View.readAt_eq_ld, harg2.read_unread, harg3.read_unread, harg5.read_unread, View.ld_unit_zero (S := S2048x1024) hz0, View.ld_unit_zero (S := S1024x128) hz0, View.ld_unit_zero (S := S2048x128) hz0]

/-! ## The windows' blocks at an entry -/

/-- The index maps over the grid: at the point `8 i + s` the left operand's block is row tile `i`, contraction
    tile `s`; the right operand's is contraction tile `s` of its one column tile; the output's is row tile `i`. -/
theorem idx_facts0 : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

section Value
variable (V : (c : Dev nD) → (b : Ref sig .tc) → Buf (Elt Ideal) ((c : Thread nD τ).loc b))

/-- The left operand's block at the point `8 i + s`, entry `(p, j)`: the array at row `2048 i + p`, column `1024 s + j`. -/
theorem lblk0_apply (c : Dev nD) (t : Fin cfg0.N) (i : Fin 4) (s : Fin 8) (ht : t.val = 8 * i.val + s.val) (p : Fin 2048) (j : Fin 1024) :
    (iblk0 V c 0 t : Vec Ideal S2048x1024 .f32) (ix2 p j)
      = V c main_arg0 (ix2 (⟨2048 * i.val + p.val, by omega⟩ : Fin 8192) (⟨1024 * s.val + j.val, by omega⟩ : Fin 8192)) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 2048 + 1 * p.val = 2048 * i.val + p.val; rw [e0]; omega
  | ⟨1, _⟩ => show win0_0.index t (1 : Fin 2) * 1024 + 1 * j.val = 1024 * s.val + j.val; rw [e1]; omega

/-- The right operand's block there, entry `(j, q)`: the array at row `1024 s + j`, column `q`. -/
theorem rblk0_apply (c : Dev nD) (t : Fin cfg0.N) (i : Fin 4) (s : Fin 8) (ht : t.val = 8 * i.val + s.val) (j : Fin 1024) (q : Fin 128) :
    (iblk0 V c 1 t : Vec Ideal S1024x128 .f32) (ix2 j q)
      = V c main_arg1 (ix2 (⟨1024 * s.val + j.val, by omega⟩ : Fin 8192) q) := by
  obtain ⟨-, -, e2, e3, -⟩ := idx_facts0 t
  unfold iblk0
  rw [View.read_apply]
  show V c main_arg1 _ = V c main_arg1 _
  congr 1
  funext a
  apply Fin.ext
  match a with
  | ⟨0, _⟩ => show win0_1.index t (0 : Fin 2) * 1024 + 1 * j.val = 1024 * s.val + j.val; rw [e2]; omega
  | ⟨1, _⟩ => show win0_1.index t (1 : Fin 2) * 128 + 1 * q.val = q.val; rw [e3]; omega

end Value

/-! ## The accumulator point by point -/

/-- The tile at row tile `i` and contraction tile `s`, at entry `(p, q)` of the row tile's block: the sum over the
    tile's 1024 contracted positions. -/
def tileTerm0 (A : Vec Ideal S8192x8192 .f32) (X : Vec Ideal S8192x128 .f32) (i : Fin 4) (s : Fin 8) (p : Fin 2048) (q : Fin 128) : EReal :=
  ∑ j : Fin 1024, A (ix2 (⟨2048 * i.val + p.val, by omega⟩ : Fin 8192) (⟨1024 * s.val + j.val, by omega⟩ : Fin 8192))
    * X (ix2 (⟨1024 * s.val + j.val, by omega⟩ : Fin 8192) q)

/-- Two blocks that read the arrays at the tile's rows and columns multiply to the tile's sum. -/
theorem tile0_of (A : Vec Ideal S8192x8192 .f32) (X : Vec Ideal S8192x128 .f32) (i : Fin 4) (s : Fin 8) (p : Fin 2048) (q : Fin 128)
    (x0 : Vec Ideal S2048x1024 .f32) (x1 : Vec Ideal S1024x128 .f32)
    (hx0 : ∀ j : Fin 1024, x0 (ix2 p j) = A (ix2 (⟨2048 * i.val + p.val, by omega⟩ : Fin 8192) (⟨1024 * s.val + j.val, by omega⟩ : Fin 8192)))
    (hx1 : ∀ j : Fin 1024, x1 (ix2 j q) = X (ix2 (⟨1024 * s.val + j.val, by omega⟩ : Fin 8192) q)) :
    ∑ j : Fin 1024, x0 (ix2 p j) * x1 (ix2 j q) = tileTerm0 A X i s p q := by
  unfold tileTerm0
  exact Finset.sum_congr rfl fun j _ => by rw [hx0 j, hx1 j]

section Value
variable (V : (c : Dev nD) → (b : Ref sig .tc) → Buf (Elt Ideal) ((c : Thread nD τ).loc b))

/-- The product of the two blocks at the point `8 i + s`, at entry `(p, q)`, is that tile's sum. -/
theorem tile0_eq (c : Dev nD) (t : Fin cfg0.N) (i : Fin 4) (s : Fin 8) (ht : t.val = 8 * i.val + s.val) (p : Fin 2048) (q : Fin 128) :
    ∑ j : Fin 1024, (show Vec Ideal S2048x1024 .f32 from iblk0 V c 0 t) (ix2 p j) * (show Vec Ideal S1024x128 .f32 from iblk0 V c 1 t) (ix2 j q)
      = tileTerm0 (V c main_arg0) (V c main_arg1) i s p q :=
  tile0_of (V c main_arg0) (V c main_arg1) i s p q (iblk0 V c 0 t) (iblk0 V c 1 t)
    (fun j => lblk0_apply V c t i s ht p j) (fun j => rblk0_apply V c t i s ht j q)

/-- After the point `8 i + k` the accumulator holds, at entry `(p, q)`, the sum of the tiles `0 … k`. -/
theorem acc0_eq (c : Dev nD) (i : Fin 4) (p : Fin 2048) (q : Fin 128) :
    ∀ (k : ℕ) (hk : k < 8) (h : 8 * i.val + k < cfg0.N),
      (outsAt0 V c (8 * i.val + k) h).2 (ix2 p q)
        = ∑ s : Fin (k + 1), tileTerm0 (V c main_arg0) (V c main_arg1) i ⟨s.val, by omega⟩ p q
  | 0, hk, h => by
    have h0 : (⟨8 * i.val + 0, h⟩ : Fin cfg0.N).val % 8 = 0 := by dsimp only; omega
    have h1 : ¬(⟨8 * i.val + 0, h⟩ : Fin cfg0.N).val % 8 = 7 := by dsimp only; omega
    rw [outsAt0_A V c ⟨8 * i.val + 0, h⟩ h0 h1]
    dsimp only
    rw [accA0_eq]
    refine (TileValue.pay2_apply _ _ _ p q).trans ?_
    rw [TileValue.pay1_apply, zero_add]
    refine Eq.trans ?_ (Fin.sum_univ_one _).symm
    exact tile0_eq V c ⟨8 * i.val + 0, h⟩ i 0 rfl p q
  | k + 1, hk, h => by
    have h0 : ¬(⟨8 * i.val + (k + 1), h⟩ : Fin cfg0.N).val % 8 = 0 := by dsimp only; omega
    have ih := acc0_eq c i p q k (by omega) (Nat.lt_of_succ_lt h)
    by_cases h1 : (⟨8 * i.val + (k + 1), h⟩ : Fin cfg0.N).val % 8 = 7
    · rw [outsAt0_C V c ⟨8 * i.val + (k + 1), h⟩ h0 h1]
      dsimp only
      rw [accC0_eq]
      refine (TileValue.pay2_apply _ _ _ p q).trans ?_
      rw [Fin.sum_univ_castSucc (n := k + 1)]
      refine congrArg₂ (· + ·) ?_ ?_
      · exact ih
      · exact tile0_eq V c ⟨8 * i.val + (k + 1), h⟩ i ⟨k + 1, hk⟩ rfl p q
    · rw [outsAt0_B V c ⟨8 * i.val + (k + 1), h⟩ h0 h1]
      dsimp only
      rw [accB0_eq]
      refine (TileValue.pay2_apply _ _ _ p q).trans ?_
      rw [Fin.sum_univ_castSucc (n := k + 1)]
      refine congrArg₂ (· + ·) ?_ ?_
      · exact ih
      · exact tile0_eq V c ⟨8 * i.val + (k + 1), h⟩ i ⟨k + 1, hk⟩ rfl p q

end Value

/-! ## The output block, the result array -/

/-- The product of the two arrays, entry by entry: the sum over all 8192 contracted positions. -/
def prodArr0 (A : Vec Ideal S8192x8192 .f32) (X : Vec Ideal S8192x128 .f32) : S8192x128.Idx → EReal :=
  fun idx => ∑ k : Fin 8192, A (ix2 (⟨(idx 0).val, idx2_lt0 idx⟩ : Fin 8192) k) * X (ix2 k (⟨(idx 1).val, idx2_lt1 idx⟩ : Fin 128))

/-- It depends on the index through its two coordinates. -/
theorem prodArr0_of (A : Vec Ideal S8192x8192 .f32) (X : Vec Ideal S8192x128 .f32) (idx : S8192x128.Idx) (r : Fin 8192) (q : Fin 128)
    (h0 : (idx 0).val = r.val) (h1 : (idx 1).val = q.val) :
    prodArr0 A X idx = ∑ k : Fin 8192, A (ix2 r k) * X (ix2 k q) := by
  obtain rfl : r = ⟨(idx 0).val, idx2_lt0 idx⟩ := Fin.ext h0.symm
  obtain rfl : q = ⟨(idx 1).val, idx2_lt1 idx⟩ := Fin.ext h1.symm
  rfl

/-- The eight tiles of a row tile add up to the whole contraction. -/
theorem tiles0_sum (A : Vec Ideal S8192x8192 .f32) (X : Vec Ideal S8192x128 .f32) (i : Fin 4) (p : Fin 2048) (q : Fin 128) :
    ∑ s : Fin 8, tileTerm0 A X i s p q
      = ∑ k : Fin 8192, A (ix2 (⟨2048 * i.val + p.val, by omega⟩ : Fin 8192) k) * X (ix2 k q) := by
  unfold tileTerm0
  exact Cert.PolyConv.sum_blocks_8192 (fun k : Fin 8192 => A (ix2 (⟨2048 * i.val + p.val, by omega⟩ : Fin 8192) k) * X (ix2 k q))

section Value
variable (V : (c : Dev nD) → (b : Ref sig .tc) → Buf (Elt Ideal) ((c : Thread nD τ).loc b))

/-- The left operand array as the region finds it, and the right one. -/
abbrev argA0 (c : Dev nD) : Vec Ideal S8192x8192 .f32 := V c main_arg0
abbrev argX0 (c : Dev nD) : Vec Ideal S8192x128 .f32 := V c main_arg1

/-- At the point `8 i + 7` the output block holds, at entry `(p, q)`, the whole contraction for row `2048 i + p`. -/
theorem out0_entry (c : Dev nD) (i : Fin 4) (t : Fin cfg0.N) (ht : t.val = 8 * i.val + 7) (p : Fin 2048) (q : Fin 128) :
    (outsAt0 V c t.val t.isLt).1 (ix2 p q)
      = ∑ k : Fin 8192, argA0 V c (ix2 (⟨2048 * i.val + p.val, by omega⟩ : Fin 8192) k) * argX0 V c (ix2 k q) := by
  have h0 : ¬t.val % 8 = 0 := by omega
  have h1 : t.val % 8 = 7 := by omega
  rw [outsAt0_C V c t h0 h1]
  dsimp only
  rw [outC0_eq]
  refine (TileValue.pay2_apply _ _ _ p q).trans ?_
  rw [← tiles0_sum, Fin.sum_univ_castSucc (n := 7)]
  refine congrArg₂ (· + ·) ?_ ?_
  · have same : ∀ (n : ℕ) (hn : n < cfg0.N) (e : n = 8 * i.val + 6),
        (outsAt0 V c n hn).2 (ix2 p q) = (outsAt0 V c (8 * i.val + 6) (e ▸ hn)).2 (ix2 p q) := fun n hn e => by subst e; rfl
    rw [same _ _ (by omega)]
    exact acc0_eq V c i p q 6 (by omega) _
  · exact tile0_eq V c t i ⟨7, by omega⟩ ht p q

/-- An index of the result array is in the block of the point `t` iff each coordinate is in the block's range. -/
theorem mem_blk0 (t : Fin cfg0.N) (idx : S8192x128.Idx) :
    idx ∈ ((cfg0.win 2).blk t).view.set ↔ ∀ a : Fin 2, win0_2.index t a * S2048x128.size a ≤ (idx a).val ∧ (idx a).val < win0_2.index t a * S2048x128.size a + S2048x128.size a := by
  show idx ∈ ((View.whole main_v0).slice (win0_2.rect t)).set ↔ _
  rw [View.set_slice_whole, Rect.mem_set_unit]
  exact Iff.rfl

/-- What the point `8 i + 7` writes back is its block of the product. -/
theorem flushed0_eq (c : Dev nD) (t : Fin cfg0.N) (hf : (cfg0.win 2).flush t = true) :
    (dat0 V c).flushed 2 t = ((cfg0.win 2).blk t).view.read (Elt Ideal) (prodArr0 (argA0 V c) (argX0 V c)) := by
  have h7 : t.val % 8 = 7 := (flush0_2 t).mp hf
  have hN : cfg0.N = 32 := N_0
  have hlt : t.val < 32 := lt_of_lt_of_eq t.isLt hN
  obtain ⟨i, hi⟩ : ∃ i : Fin 4, t.val = 8 * i.val + 7 := ⟨⟨t.val / 8, by omega⟩, by dsimp only; omega⟩
  obtain ⟨-, -, -, -, e4, e5⟩ := idx_facts0 t
  show (cfg0.win 2).cut (grid0.coords t) ((dat0 V c).after 2 t) = _
  rw [after0_2]
  funext y
  obtain ⟨p, q, rfl⟩ : ∃ (p : Fin 2048) (q : Fin 128), y = ix2 p q := ⟨y 0, y 1, eq_ix2 y⟩
  rw [View.read_apply]
  show (outsAt0 V c t.val t.isLt).1 (ix2 p q) = prodArr0 (argA0 V c) (argX0 V c) (((cfg0.win 2).blk t).view.emb (ix2 p q))
  rw [out0_entry V c i t hi p q]
  refine (prodArr0_of _ _ _ _ q ?_ ?_).symm
  · show win0_2.index t (0 : Fin 2) * 2048 + 1 * p.val = 2048 * i.val + p.val; rw [e4]; omega
  · show win0_2.index t (1 : Fin 2) * 128 + 1 * q.val = q.val; rw [e5]; omega

/-- Every row of the result is in the block of the point that ends its row tile. -/
theorem cover0 (idx : S8192x128.Idx) :
    ∃ t : Fin cfg0.N, (cfg0.win 2).flush t = true ∧ idx ∈ ((cfg0.win 2).blk t).view.set := by
  have hN : cfg0.N = 32 := N_0
  have hr : (idx 0).val < 8192 := idx2_lt0 idx
  have hq : (idx 1).val < 128 := idx2_lt1 idx
  refine ⟨⟨8 * ((idx 0).val / 2048) + 7, by omega⟩, (flush0_2 _).mpr (by dsimp only; omega), ?_⟩
  obtain ⟨-, -, -, -, e4, e5⟩ := idx_facts0 (⟨8 * ((idx 0).val / 2048) + 7, by omega⟩ : Fin cfg0.N)
  rw [mem_blk0]
  intro a
  match a with
  | ⟨0, _⟩ =>
    show win0_2.index _ (0 : Fin 2) * 2048 ≤ (idx 0).val ∧ (idx 0).val < win0_2.index _ (0 : Fin 2) * 2048 + 2048
    rw [e4]; dsimp only; omega
  | ⟨1, _⟩ =>
    show win0_2.index _ (1 : Fin 2) * 128 ≤ (idx 1).val ∧ (idx 1).val < win0_2.index _ (1 : Fin 2) * 128 + 128
    rw [e5]; omega

/-- The result array after the region is the product of the two operand arrays as the region finds them. -/
theorem product0 (c : Dev nD) (r : Fin 8192) (q : Fin 128) :
    (dat0 (F := Ideal) V c).arrAt 2 cfg0.N (ix2 r q) = ∑ k : Fin 8192, argA0 V c (ix2 r k) * argX0 V c (ix2 k q) := by
  rw [(dat0 V c).arrAt_eq_of_cover 2 (prodArr0 (argA0 V c) (argX0 V c)) (flushed0_eq V c) cover0]
  exact prodArr0_of _ _ (ix2 r q) r q rfl rfl

end Value

end Cert.KernelIdeal.Hand

end
-- ==== Proof.KernelIdeal.R1.Value.lean ====
import proofs.«132851_j4544075399677_1_alg».proof.Proof.KernelIdeal.R1.Data
import proofs.«132851_j4544075399677_1_alg».proof.Proof.TileValue
import proofs.«132851_j4544075399677_1_alg».proof.Proof.BlockSum
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! Region 1: the result array after the region, entry by entry, is the product of the two operand arrays as
    the region finds them: the sum over all 8192 contracted positions. The accumulator after the point
    `8 i + k` holds the partial sum over the first `k + 1` tiles of 1024 positions; the point `8 i + 7` copies the
    full sum to the output block, which is rows `2048 i … 2048 i + 2047` of the result. -/

variable {F : FTy → Type} [FloatOps F]

theorem hz1 : (![0, 0] : Fin 2 → Nat) = fun _ => 0 := funext fun a => by fin_cases a <;> rfl

/-! ## What each case leaves, as the body's two stored values -/

/-- At k = 0 the accumulator ends at the accumulation step taken from the zero fill. -/
theorem accA1_eq (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : isFirst1 i) (hc1 : ¬isLast1 i) (x0 : Vec F S2048x1024 .f32) (x1 : Vec F S1024x128 .f32) :
    accAfter1_A c i arg2 harg2 arg3 harg3 arg4 harg4 arg5 harg5 hc0 hc1 x0 x1 = k0_pay2 x0 x1 (k0_pay1 (F := F)) := by
  unfold accAfter1_A
  rw [View.read_writes_eq_canon _ _ _ (coverA1_A c i arg2 harg2 arg3 harg3 arg4 harg4 arg5 harg5 hc0 hc1 x0 x1)]
  unfold bodyRun1_A
  dsimp only
  sl_unfold_words
  rw [View.canon_cons_unit_zero (S := S2048x128) hz1, View.readCov_unit_zero (S := S2048x128) _ hz1]
  simp only [View.readAt_eq_ld, harg2.read_unread, harg3.read_unread, View.ld_unit_zero (S := S2048x1024) hz1, View.ld_unit_zero (S := S1024x128) hz1]
  rw [TileValue.pay2_eq1]
  rw [TileValue.pay1_eq1]

/-- At 0 < k < 7 it ends at the accumulation step taken from what the point before left. -/
theorem accB1_eq (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst1 i) (hc1 : ¬isLast1 i) (x0 : Vec F S2048x1024 .f32) (x1 : Vec F S1024x128 .f32) (xa : Vec F S2048x128 .f32) :
    accAfter1_B c i arg2 harg2 arg3 harg3 arg4 harg4 arg5 harg5 hc0 hc1 x0 x1 xa = k0_pay2 x0 x1 xa := by
  unfold accAfter1_B
  rw [View.read_writes_eq_canon _ _ _ (coverA1_B c i arg2 harg2 arg3 harg3 arg4 harg4 arg5 harg5 hc0 hc1 x0 x1 xa)]
  unfold bodyRun1_B
  dsimp only
  rw [View.canon_unit_zero hz1]
  simp only [View.readAt_eq_ld, harg2.read_unread, harg3.read_unread, harg5.read_unread, View.ld_unit_zero (S := S2048x1024) hz1, View.ld_unit_zero (S := S1024x128) hz1, View.ld_unit_zero (S := S2048x128) hz1]
  rw [TileValue.pay2_eq1]

/-- At k = 7 likewise, -/
theorem accC1_eq (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst1 i) (hc1 : isLast1 i) (x0 : Vec F S2048x1024 .f32) (x1 : Vec F S1024x128 .f32) (xa : Vec F S2048x128 .f32) :
    accAfter1_C c i arg2 harg2 arg3 harg3 arg4 harg4 arg5 harg5 hc0 hc1 x0 x1 xa = k0_pay2 x0 x1 xa := by
  unfold accAfter1_C
  rw [View.read_writes_eq_canon _ _ _ (coverA1_C c i arg2 harg2 arg3 harg3 arg4 harg4 arg5 harg5 hc0 hc1 x0 x1 xa)]
  unfold bodyRun1_C
  dsimp only
  sl_unfold_words
  rw [View.canon_unit_zero hz1]
  simp only [View.readAt_eq_ld, harg2.read_unread, harg3.read_unread, harg5.read_unread, View.ld_unit_zero (S := S2048x1024) hz1, View.ld_unit_zero (S := S1024x128) hz1, View.ld_unit_zero (S := S2048x128) hz1]
  rw [TileValue.pay2_eq1]

/-- and the output block is the accumulator just written. -/
theorem outC1_eq (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst1 i) (hc1 : isLast1 i) (x0 : Vec F S2048x1024 .f32) (x1 : Vec F S1024x128 .f32) (xa : Vec F S2048x128 .f32) :
    outAfter1_C c i arg2 harg2 arg3 harg3 arg4 harg4 arg5 harg5 hc0 hc1 x0 x1 xa = k0_pay2 x0 x1 xa := by
  unfold outAfter1_C
  rw [View.read_writes_eq_canon _ _ _ (coverO1_C c i arg2 harg2 arg3 harg3 arg4 harg4 arg5 harg5 hc0 hc1 x0 x1 xa)]
  unfold bodyRun1_C
  dsimp only
  sl_unfold_words
  rw [View.canon_unit_zero hz1, View.readCov_unit_zero (S := S2048x128) _ hz1]
  simp only [View.readAt_eq_ld, harg2.read_unread, harg3.read_unread, harg5.read_unread, View.ld_unit_zero (S := S2048x1024) hz1, View.ld_unit_zero (S := S1024x128) hz1, View.ld_unit_zero (S := S2048x128) hz1]
  rw [TileValue.pay2_eq1]

/-! ## The windows' blocks at an entry -/

/-- The index maps over the grid: at the point `8 i + s` the left operand's block is row tile `i`, contraction
    tile `s`; the right operand's is contraction tile `s` of its one column tile; the output's is row tile `i`. -/
theorem idx_facts1 : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

section Value
variable (V : (c : Dev nD) → (b : Ref sig .tc) → Buf (Elt Ideal) ((c : Thread nD τ).loc b))

/-- The left operand's block at the point `8 i + s`, entry `(p, j)`: the array at row `2048 i + p`, column `1024 s + j`. -/
theorem lblk1_apply (c : Dev nD) (t : Fin cfg1.N) (i : Fin 4) (s : Fin 8) (ht : t.val = 8 * i.val + s.val) (p : Fin 2048) (j : Fin 1024) :
    (iblk1 V c 0 t : Vec Ideal S2048x1024 .f32) (ix2 p j)
      = V c main_arg0 (ix2 (⟨2048 * i.val + p.val, by omega⟩ : Fin 8192) (⟨1024 * s.val + j.val, by omega⟩ : Fin 8192)) := by
  obtain ⟨e0, e1, -⟩ := idx_facts1 t
  unfold iblk1
  rw [View.read_apply]
  show V c main_arg0 _ = V c main_arg0 _
  congr 1
  funext a
  apply Fin.ext
  match a with
  | ⟨0, _⟩ => show win1_0.index t (0 : Fin 2) * 2048 + 1 * p.val = 2048 * i.val + p.val; rw [e0]; omega
  | ⟨1, _⟩ => show win1_0.index t (1 : Fin 2) * 1024 + 1 * j.val = 1024 * s.val + j.val; rw [e1]; omega

/-- The right operand's block there, entry `(j, q)`: the array at row `1024 s + j`, column `q`. -/
theorem rblk1_apply (c : Dev nD) (t : Fin cfg1.N) (i : Fin 4) (s : Fin 8) (ht : t.val = 8 * i.val + s.val) (j : Fin 1024) (q : Fin 128) :
    (iblk1 V c 1 t : Vec Ideal S1024x128 .f32) (ix2 j q)
      = V c main_v0 (ix2 (⟨1024 * s.val + j.val, by omega⟩ : Fin 8192) q) := by
  obtain ⟨-, -, e2, e3, -⟩ := idx_facts1 t
  unfold iblk1
  rw [View.read_apply]
  show V c main_v0 _ = V c main_v0 _
  congr 1
  funext a
  apply Fin.ext
  match a with
  | ⟨0, _⟩ => show win1_1.index t (0 : Fin 2) * 1024 + 1 * j.val = 1024 * s.val + j.val; rw [e2]; omega
  | ⟨1, _⟩ => show win1_1.index t (1 : Fin 2) * 128 + 1 * q.val = q.val; rw [e3]; omega

end Value

/-! ## The accumulator point by point -/

/-- The tile at row tile `i` and contraction tile `s`, at entry `(p, q)` of the row tile's block: the sum over the
    tile's 1024 contracted positions. -/
def tileTerm1 (A : Vec Ideal S8192x8192 .f32) (X : Vec Ideal S8192x128 .f32) (i : Fin 4) (s : Fin 8) (p : Fin 2048) (q : Fin 128) : EReal :=
  ∑ j : Fin 1024, A (ix2 (⟨2048 * i.val + p.val, by omega⟩ : Fin 8192) (⟨1024 * s.val + j.val, by omega⟩ : Fin 8192))
    * X (ix2 (⟨1024 * s.val + j.val, by omega⟩ : Fin 8192) q)

/-- Two blocks that read the arrays at the tile's rows and columns multiply to the tile's sum. -/
theorem tile1_of (A : Vec Ideal S8192x8192 .f32) (X : Vec Ideal S8192x128 .f32) (i : Fin 4) (s : Fin 8) (p : Fin 2048) (q : Fin 128)
    (x0 : Vec Ideal S2048x1024 .f32) (x1 : Vec Ideal S1024x128 .f32)
    (hx0 : ∀ j : Fin 1024, x0 (ix2 p j) = A (ix2 (⟨2048 * i.val + p.val, by omega⟩ : Fin 8192) (⟨1024 * s.val + j.val, by omega⟩ : Fin 8192)))
    (hx1 : ∀ j : Fin 1024, x1 (ix2 j q) = X (ix2 (⟨1024 * s.val + j.val, by omega⟩ : Fin 8192) q)) :
    ∑ j : Fin 1024, x0 (ix2 p j) * x1 (ix2 j q) = tileTerm1 A X i s p q := by
  unfold tileTerm1
  exact Finset.sum_congr rfl fun j _ => by rw [hx0 j, hx1 j]

section Value
variable (V : (c : Dev nD) → (b : Ref sig .tc) → Buf (Elt Ideal) ((c : Thread nD τ).loc b))

/-- The product of the two blocks at the point `8 i + s`, at entry `(p, q)`, is that tile's sum. -/
theorem tile1_eq (c : Dev nD) (t : Fin cfg1.N) (i : Fin 4) (s : Fin 8) (ht : t.val = 8 * i.val + s.val) (p : Fin 2048) (q : Fin 128) :
    ∑ j : Fin 1024, (show Vec Ideal S2048x1024 .f32 from iblk1 V c 0 t) (ix2 p j) * (show Vec Ideal S1024x128 .f32 from iblk1 V c 1 t) (ix2 j q)
      = tileTerm1 (V c main_arg0) (V c main_v0) i s p q :=
  tile1_of (V c main_arg0) (V c main_v0) i s p q (iblk1 V c 0 t) (iblk1 V c 1 t)
    (fun j => lblk1_apply V c t i s ht p j) (fun j => rblk1_apply V c t i s ht j q)

/-- After the point `8 i + k` the accumulator holds, at entry `(p, q)`, the sum of the tiles `0 … k`. -/
theorem acc1_eq (c : Dev nD) (i : Fin 4) (p : Fin 2048) (q : Fin 128) :
    ∀ (k : ℕ) (hk : k < 8) (h : 8 * i.val + k < cfg1.N),
      (outsAt1 V c (8 * i.val + k) h).2 (ix2 p q)
        = ∑ s : Fin (k + 1), tileTerm1 (V c main_arg0) (V c main_v0) i ⟨s.val, by omega⟩ p q
  | 0, hk, h => by
    have h0 : (⟨8 * i.val + 0, h⟩ : Fin cfg1.N).val % 8 = 0 := by dsimp only; omega
    have h1 : ¬(⟨8 * i.val + 0, h⟩ : Fin cfg1.N).val % 8 = 7 := by dsimp only; omega
    rw [outsAt1_A V c ⟨8 * i.val + 0, h⟩ h0 h1]
    dsimp only
    rw [accA1_eq]
    refine (TileValue.pay2_apply _ _ _ p q).trans ?_
    rw [TileValue.pay1_apply, zero_add]
    refine Eq.trans ?_ (Fin.sum_univ_one _).symm
    exact tile1_eq V c ⟨8 * i.val + 0, h⟩ i 0 rfl p q
  | k + 1, hk, h => by
    have h0 : ¬(⟨8 * i.val + (k + 1), h⟩ : Fin cfg1.N).val % 8 = 0 := by dsimp only; omega
    have ih := acc1_eq c i p q k (by omega) (Nat.lt_of_succ_lt h)
    by_cases h1 : (⟨8 * i.val + (k + 1), h⟩ : Fin cfg1.N).val % 8 = 7
    · rw [outsAt1_C V c ⟨8 * i.val + (k + 1), h⟩ h0 h1]
      dsimp only
      rw [accC1_eq]
      refine (TileValue.pay2_apply _ _ _ p q).trans ?_
      rw [Fin.sum_univ_castSucc (n := k + 1)]
      refine congrArg₂ (· + ·) ?_ ?_
      · exact ih
      · exact tile1_eq V c ⟨8 * i.val + (k + 1), h⟩ i ⟨k + 1, hk⟩ rfl p q
    · rw [outsAt1_B V c ⟨8 * i.val + (k + 1), h⟩ h0 h1]
      dsimp only
      rw [accB1_eq]
      refine (TileValue.pay2_apply _ _ _ p q).trans ?_
      rw [Fin.sum_univ_castSucc (n := k + 1)]
      refine congrArg₂ (· + ·) ?_ ?_
      · exact ih
      · exact tile1_eq V c ⟨8 * i.val + (k + 1), h⟩ i ⟨k + 1, hk⟩ rfl p q

end Value

/-! ## The output block, the result array -/

/-- The product of the two arrays, entry by entry: the sum over all 8192 contracted positions. -/
def prodArr1 (A : Vec Ideal S8192x8192 .f32) (X : Vec Ideal S8192x128 .f32) : S8192x128.Idx → EReal :=
  fun idx => ∑ k : Fin 8192, A (ix2 (⟨(idx 0).val, idx2_lt0 idx⟩ : Fin 8192) k) * X (ix2 k (⟨(idx 1).val, idx2_lt1 idx⟩ : Fin 128))

/-- It depends on the index through its two coordinates. -/
theorem prodArr1_of (A : Vec Ideal S8192x8192 .f32) (X : Vec Ideal S8192x128 .f32) (idx : S8192x128.Idx) (r : Fin 8192) (q : Fin 128)
    (h0 : (idx 0).val = r.val) (h1 : (idx 1).val = q.val) :
    prodArr1 A X idx = ∑ k : Fin 8192, A (ix2 r k) * X (ix2 k q) := by
  obtain rfl : r = ⟨(idx 0).val, idx2_lt0 idx⟩ := Fin.ext h0.symm
  obtain rfl : q = ⟨(idx 1).val, idx2_lt1 idx⟩ := Fin.ext h1.symm
  rfl

/-- The eight tiles of a row tile add up to the whole contraction. -/
theorem tiles1_sum (A : Vec Ideal S8192x8192 .f32) (X : Vec Ideal S8192x128 .f32) (i : Fin 4) (p : Fin 2048) (q : Fin 128) :
    ∑ s : Fin 8, tileTerm1 A X i s p q
      = ∑ k : Fin 8192, A (ix2 (⟨2048 * i.val + p.val, by omega⟩ : Fin 8192) k) * X (ix2 k q) := by
  unfold tileTerm1
  exact Cert.PolyConv.sum_blocks_8192 (fun k : Fin 8192 => A (ix2 (⟨2048 * i.val + p.val, by omega⟩ : Fin 8192) k) * X (ix2 k q))

section Value
variable (V : (c : Dev nD) → (b : Ref sig .tc) → Buf (Elt Ideal) ((c : Thread nD τ).loc b))

/-- The left operand array as the region finds it, and the right one. -/
abbrev argA1 (c : Dev nD) : Vec Ideal S8192x8192 .f32 := V c main_arg0
abbrev argX1 (c : Dev nD) : Vec Ideal S8192x128 .f32 := V c main_v0

/-- At the point `8 i + 7` the output block holds, at entry `(p, q)`, the whole contraction for row `2048 i + p`. -/
theorem out1_entry (c : Dev nD) (i : Fin 4) (t : Fin cfg1.N) (ht : t.val = 8 * i.val + 7) (p : Fin 2048) (q : Fin 128) :
    (outsAt1 V c t.val t.isLt).1 (ix2 p q)
      = ∑ k : Fin 8192, argA1 V c (ix2 (⟨2048 * i.val + p.val, by omega⟩ : Fin 8192) k) * argX1 V c (ix2 k q) := by
  have h0 : ¬t.val % 8 = 0 := by omega
  have h1 : t.val % 8 = 7 := by omega
  rw [outsAt1_C V c t h0 h1]
  dsimp only
  rw [outC1_eq]
  refine (TileValue.pay2_apply _ _ _ p q).trans ?_
  rw [← tiles1_sum, Fin.sum_univ_castSucc (n := 7)]
  refine congrArg₂ (· + ·) ?_ ?_
  · have same : ∀ (n : ℕ) (hn : n < cfg1.N) (e : n = 8 * i.val + 6),
        (outsAt1 V c n hn).2 (ix2 p q) = (outsAt1 V c (8 * i.val + 6) (e ▸ hn)).2 (ix2 p q) := fun n hn e => by subst e; rfl
    rw [same _ _ (by omega)]
    exact acc1_eq V c i p q 6 (by omega) _
  · exact tile1_eq V c t i ⟨7, by omega⟩ ht p q

/-- An index of the result array is in the block of the point `t` iff each coordinate is in the block's range. -/
theorem mem_blk1 (t : Fin cfg1.N) (idx : S8192x128.Idx) :
    idx ∈ ((cfg1.win 2).blk t).view.set ↔ ∀ a : Fin 2, win1_2.index t a * S2048x128.size a ≤ (idx a).val ∧ (idx a).val < win1_2.index t a * S2048x128.size a + S2048x128.size a := by
  show idx ∈ ((View.whole main_v5).slice (win1_2.rect t)).set ↔ _
  rw [View.set_slice_whole, Rect.mem_set_unit]
  exact Iff.rfl

/-- What the point `8 i + 7` writes back is its block of the product. -/
theorem flushed1_eq (c : Dev nD) (t : Fin cfg1.N) (hf : (cfg1.win 2).flush t = true) :
    (dat1 V c).flushed 2 t = ((cfg1.win 2).blk t).view.read (Elt Ideal) (prodArr1 (argA1 V c) (argX1 V c)) := by
  have h7 : t.val % 8 = 7 := (flush1_2 t).mp hf
  have hN : cfg1.N = 32 := N_1
  have hlt : t.val < 32 := lt_of_lt_of_eq t.isLt hN
  obtain ⟨i, hi⟩ : ∃ i : Fin 4, t.val = 8 * i.val + 7 := ⟨⟨t.val / 8, by omega⟩, by dsimp only; omega⟩
  obtain ⟨-, -, -, -, e4, e5⟩ := idx_facts1 t
  show (cfg1.win 2).cut (grid1.coords t) ((dat1 V c).after 2 t) = _
  rw [after1_2]
  funext y
  obtain ⟨p, q, rfl⟩ : ∃ (p : Fin 2048) (q : Fin 128), y = ix2 p q := ⟨y 0, y 1, eq_ix2 y⟩
  rw [View.read_apply]
  show (outsAt1 V c t.val t.isLt).1 (ix2 p q) = prodArr1 (argA1 V c) (argX1 V c) (((cfg1.win 2).blk t).view.emb (ix2 p q))
  rw [out1_entry V c i t hi p q]
  refine (prodArr1_of _ _ _ _ q ?_ ?_).symm
  · show win1_2.index t (0 : Fin 2) * 2048 + 1 * p.val = 2048 * i.val + p.val; rw [e4]; omega
  · show win1_2.index t (1 : Fin 2) * 128 + 1 * q.val = q.val; rw [e5]; omega

/-- Every row of the result is in the block of the point that ends its row tile. -/
theorem cover1 (idx : S8192x128.Idx) :
    ∃ t : Fin cfg1.N, (cfg1.win 2).flush t = true ∧ idx ∈ ((cfg1.win 2).blk t).view.set := by
  have hN : cfg1.N = 32 := N_1
  have hr : (idx 0).val < 8192 := idx2_lt0 idx
  have hq : (idx 1).val < 128 := idx2_lt1 idx
  refine ⟨⟨8 * ((idx 0).val / 2048) + 7, by omega⟩, (flush1_2 _).mpr (by dsimp only; omega), ?_⟩
  obtain ⟨-, -, -, -, e4, e5⟩ := idx_facts1 (⟨8 * ((idx 0).val / 2048) + 7, by omega⟩ : Fin cfg1.N)
  rw [mem_blk1]
  intro a
  match a with
  | ⟨0, _⟩ =>
    show win1_2.index _ (0 : Fin 2) * 2048 ≤ (idx 0).val ∧ (idx 0).val < win1_2.index _ (0 : Fin 2) * 2048 + 2048
    rw [e4]; dsimp only; omega
  | ⟨1, _⟩ =>
    show win1_2.index _ (1 : Fin 2) * 128 ≤ (idx 1).val ∧ (idx 1).val < win1_2.index _ (1 : Fin 2) * 128 + 128
    rw [e5]; omega

/-- The result array after the region is the product of the two operand arrays as the region finds them. -/
theorem product1 (c : Dev nD) (r : Fin 8192) (q : Fin 128) :
    (dat1 (F := Ideal) V c).arrAt 2 cfg1.N (ix2 r q) = ∑ k : Fin 8192, argA1 V c (ix2 r k) * argX1 V c (ix2 k q) := by
  rw [(dat1 V c).arrAt_eq_of_cover 2 (prodArr1 (argA1 V c) (argX1 V c)) (flushed1_eq V c) cover1]
  exact prodArr1_of _ _ (ix2 r q) r q rfl rfl

end Value

end Cert.KernelIdeal.Hand

end
-- ==== Proof.KernelIdeal.R2.Value.lean ====
import proofs.«132851_j4544075399677_1_alg».proof.Proof.KernelIdeal.R2.Data
import proofs.«132851_j4544075399677_1_alg».proof.Proof.TileValue
import proofs.«132851_j4544075399677_1_alg».proof.Proof.BlockSum
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! Region 2: the result array after the region, entry by entry, is the product of the two operand arrays as
    the region finds them: the sum over all 8192 contracted positions. The accumulator after the point
    `8 i + k` holds the partial sum over the first `k + 1` tiles of 1024 positions; the point `8 i + 7` copies the
    full sum to the output block, which is rows `2048 i … 2048 i + 2047` of the result. -/

variable {F : FTy → Type} [FloatOps F]

theorem hz2 : (![0, 0] : Fin 2 → Nat) = fun _ => 0 := funext fun a => by fin_cases a <;> rfl

/-! ## What each case leaves, as the body's two stored values -/

/-- At k = 0 the accumulator ends at the accumulation step taken from the zero fill. -/
theorem accA2_eq (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : isFirst2 i) (hc1 : ¬isLast2 i) (x0 : Vec F S2048x1024 .f32) (x1 : Vec F S1024x128 .f32) :
    accAfter2_A c i arg2 harg2 arg3 harg3 arg4 harg4 arg5 harg5 hc0 hc1 x0 x1 = k0_pay2 x0 x1 (k0_pay1 (F := F)) := by
  unfold accAfter2_A
  rw [View.read_writes_eq_canon _ _ _ (coverA2_A c i arg2 harg2 arg3 harg3 arg4 harg4 arg5 harg5 hc0 hc1 x0 x1)]
  unfold bodyRun2_A
  dsimp only
  sl_unfold_words
  rw [View.canon_cons_unit_zero (S := S2048x128) hz2, View.readCov_unit_zero (S := S2048x128) _ hz2]
  simp only [View.readAt_eq_ld, harg2.read_unread, harg3.read_unread, View.ld_unit_zero (S := S2048x1024) hz2, View.ld_unit_zero (S := S1024x128) hz2]
  rw [TileValue.pay2_eq2]
  rw [TileValue.pay1_eq2]

/-- At 0 < k < 7 it ends at the accumulation step taken from what the point before left. -/
theorem accB2_eq (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst2 i) (hc1 : ¬isLast2 i) (x0 : Vec F S2048x1024 .f32) (x1 : Vec F S1024x128 .f32) (xa : Vec F S2048x128 .f32) :
    accAfter2_B c i arg2 harg2 arg3 harg3 arg4 harg4 arg5 harg5 hc0 hc1 x0 x1 xa = k0_pay2 x0 x1 xa := by
  unfold accAfter2_B
  rw [View.read_writes_eq_canon _ _ _ (coverA2_B c i arg2 harg2 arg3 harg3 arg4 harg4 arg5 harg5 hc0 hc1 x0 x1 xa)]
  unfold bodyRun2_B
  dsimp only
  rw [View.canon_unit_zero hz2]
  simp only [View.readAt_eq_ld, harg2.read_unread, harg3.read_unread, harg5.read_unread, View.ld_unit_zero (S := S2048x1024) hz2, View.ld_unit_zero (S := S1024x128) hz2, View.ld_unit_zero (S := S2048x128) hz2]
  rw [TileValue.pay2_eq2]

/-- At k = 7 likewise, -/
theorem accC2_eq (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst2 i) (hc1 : isLast2 i) (x0 : Vec F S2048x1024 .f32) (x1 : Vec F S1024x128 .f32) (xa : Vec F S2048x128 .f32) :
    accAfter2_C c i arg2 harg2 arg3 harg3 arg4 harg4 arg5 harg5 hc0 hc1 x0 x1 xa = k0_pay2 x0 x1 xa := by
  unfold accAfter2_C
  rw [View.read_writes_eq_canon _ _ _ (coverA2_C c i arg2 harg2 arg3 harg3 arg4 harg4 arg5 harg5 hc0 hc1 x0 x1 xa)]
  unfold bodyRun2_C
  dsimp only
  sl_unfold_words
  rw [View.canon_unit_zero hz2]
  simp only [View.readAt_eq_ld, harg2.read_unread, harg3.read_unread, harg5.read_unread, View.ld_unit_zero (S := S2048x1024) hz2, View.ld_unit_zero (S := S1024x128) hz2, View.ld_unit_zero (S := S2048x128) hz2]
  rw [TileValue.pay2_eq2]

/-- and the output block is the accumulator just written. -/
theorem outC2_eq (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst2 i) (hc1 : isLast2 i) (x0 : Vec F S2048x1024 .f32) (x1 : Vec F S1024x128 .f32) (xa : Vec F S2048x128 .f32) :
    outAfter2_C c i arg2 harg2 arg3 harg3 arg4 harg4 arg5 harg5 hc0 hc1 x0 x1 xa = k0_pay2 x0 x1 xa := by
  unfold outAfter2_C
  rw [View.read_writes_eq_canon _ _ _ (coverO2_C c i arg2 harg2 arg3 harg3 arg4 harg4 arg5 harg5 hc0 hc1 x0 x1 xa)]
  unfold bodyRun2_C
  dsimp only
  sl_unfold_words
  rw [View.canon_unit_zero hz2, View.readCov_unit_zero (S := S2048x128) _ hz2]
  simp only [View.readAt_eq_ld, harg2.read_unread, harg3.read_unread, harg5.read_unread, View.ld_unit_zero (S := S2048x1024) hz2, View.ld_unit_zero (S := S1024x128) hz2, View.ld_unit_zero (S := S2048x128) hz2]
  rw [TileValue.pay2_eq2]

/-! ## The windows' blocks at an entry -/

/-- The index maps over the grid: at the point `8 i + s` the left operand's block is row tile `i`, contraction
    tile `s`; the right operand's is contraction tile `s` of its one column tile; the output's is row tile `i`. -/
theorem idx_facts2 : ∀ t : Fin cfg2.N,
    win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val / 8 ∧ win2_2.index t (1 : Fin 2) = 0 :=
  (by decide +kernel : ∀ t : Fin grid2.N, _)

section Value
variable (V : (c : Dev nD) → (b : Ref sig .tc) → Buf (Elt Ideal) ((c : Thread nD τ).loc b))

/-- The left operand's block at the point `8 i + s`, entry `(p, j)`: the array at row `2048 i + p`, column `1024 s + j`. -/
theorem lblk2_apply (c : Dev nD) (t : Fin cfg2.N) (i : Fin 4) (s : Fin 8) (ht : t.val = 8 * i.val + s.val) (p : Fin 2048) (j : Fin 1024) :
    (iblk2 V c 0 t : Vec Ideal S2048x1024 .f32) (ix2 p j)
      = V c main_arg0 (ix2 (⟨2048 * i.val + p.val, by omega⟩ : Fin 8192) (⟨1024 * s.val + j.val, by omega⟩ : Fin 8192)) := by
  obtain ⟨e0, e1, -⟩ := idx_facts2 t
  unfold iblk2
  rw [View.read_apply]
  show V c main_arg0 _ = V c main_arg0 _
  congr 1
  funext a
  apply Fin.ext
  match a with
  | ⟨0, _⟩ => show win2_0.index t (0 : Fin 2) * 2048 + 1 * p.val = 2048 * i.val + p.val; rw [e0]; omega
  | ⟨1, _⟩ => show win2_0.index t (1 : Fin 2) * 1024 + 1 * j.val = 1024 * s.val + j.val; rw [e1]; omega

/-- The right operand's block there, entry `(j, q)`: the array at row `1024 s + j`, column `q`. -/
theorem rblk2_apply (c : Dev nD) (t : Fin cfg2.N) (i : Fin 4) (s : Fin 8) (ht : t.val = 8 * i.val + s.val) (j : Fin 1024) (q : Fin 128) :
    (iblk2 V c 1 t : Vec Ideal S1024x128 .f32) (ix2 j q)
      = V c main_v5 (ix2 (⟨1024 * s.val + j.val, by omega⟩ : Fin 8192) q) := by
  obtain ⟨-, -, e2, e3, -⟩ := idx_facts2 t
  unfold iblk2
  rw [View.read_apply]
  show V c main_v5 _ = V c main_v5 _
  congr 1
  funext a
  apply Fin.ext
  match a with
  | ⟨0, _⟩ => show win2_1.index t (0 : Fin 2) * 1024 + 1 * j.val = 1024 * s.val + j.val; rw [e2]; omega
  | ⟨1, _⟩ => show win2_1.index t (1 : Fin 2) * 128 + 1 * q.val = q.val; rw [e3]; omega

end Value

/-! ## The accumulator point by point -/

/-- The tile at row tile `i` and contraction tile `s`, at entry `(p, q)` of the row tile's block: the sum over the
    tile's 1024 contracted positions. -/
def tileTerm2 (A : Vec Ideal S8192x8192 .f32) (X : Vec Ideal S8192x128 .f32) (i : Fin 4) (s : Fin 8) (p : Fin 2048) (q : Fin 128) : EReal :=
  ∑ j : Fin 1024, A (ix2 (⟨2048 * i.val + p.val, by omega⟩ : Fin 8192) (⟨1024 * s.val + j.val, by omega⟩ : Fin 8192))
    * X (ix2 (⟨1024 * s.val + j.val, by omega⟩ : Fin 8192) q)

/-- Two blocks that read the arrays at the tile's rows and columns multiply to the tile's sum. -/
theorem tile2_of (A : Vec Ideal S8192x8192 .f32) (X : Vec Ideal S8192x128 .f32) (i : Fin 4) (s : Fin 8) (p : Fin 2048) (q : Fin 128)
    (x0 : Vec Ideal S2048x1024 .f32) (x1 : Vec Ideal S1024x128 .f32)
    (hx0 : ∀ j : Fin 1024, x0 (ix2 p j) = A (ix2 (⟨2048 * i.val + p.val, by omega⟩ : Fin 8192) (⟨1024 * s.val + j.val, by omega⟩ : Fin 8192)))
    (hx1 : ∀ j : Fin 1024, x1 (ix2 j q) = X (ix2 (⟨1024 * s.val + j.val, by omega⟩ : Fin 8192) q)) :
    ∑ j : Fin 1024, x0 (ix2 p j) * x1 (ix2 j q) = tileTerm2 A X i s p q := by
  unfold tileTerm2
  exact Finset.sum_congr rfl fun j _ => by rw [hx0 j, hx1 j]

section Value
variable (V : (c : Dev nD) → (b : Ref sig .tc) → Buf (Elt Ideal) ((c : Thread nD τ).loc b))

/-- The product of the two blocks at the point `8 i + s`, at entry `(p, q)`, is that tile's sum. -/
theorem tile2_eq (c : Dev nD) (t : Fin cfg2.N) (i : Fin 4) (s : Fin 8) (ht : t.val = 8 * i.val + s.val) (p : Fin 2048) (q : Fin 128) :
    ∑ j : Fin 1024, (show Vec Ideal S2048x1024 .f32 from iblk2 V c 0 t) (ix2 p j) * (show Vec Ideal S1024x128 .f32 from iblk2 V c 1 t) (ix2 j q)
      = tileTerm2 (V c main_arg0) (V c main_v5) i s p q :=
  tile2_of (V c main_arg0) (V c main_v5) i s p q (iblk2 V c 0 t) (iblk2 V c 1 t)
    (fun j => lblk2_apply V c t i s ht p j) (fun j => rblk2_apply V c t i s ht j q)

/-- After the point `8 i + k` the accumulator holds, at entry `(p, q)`, the sum of the tiles `0 … k`. -/
theorem acc2_eq (c : Dev nD) (i : Fin 4) (p : Fin 2048) (q : Fin 128) :
    ∀ (k : ℕ) (hk : k < 8) (h : 8 * i.val + k < cfg2.N),
      (outsAt2 V c (8 * i.val + k) h).2 (ix2 p q)
        = ∑ s : Fin (k + 1), tileTerm2 (V c main_arg0) (V c main_v5) i ⟨s.val, by omega⟩ p q
  | 0, hk, h => by
    have h0 : (⟨8 * i.val + 0, h⟩ : Fin cfg2.N).val % 8 = 0 := by dsimp only; omega
    have h1 : ¬(⟨8 * i.val + 0, h⟩ : Fin cfg2.N).val % 8 = 7 := by dsimp only; omega
    rw [outsAt2_A V c ⟨8 * i.val + 0, h⟩ h0 h1]
    dsimp only
    rw [accA2_eq]
    refine (TileValue.pay2_apply _ _ _ p q).trans ?_
    rw [TileValue.pay1_apply, zero_add]
    refine Eq.trans ?_ (Fin.sum_univ_one _).symm
    exact tile2_eq V c ⟨8 * i.val + 0, h⟩ i 0 rfl p q
  | k + 1, hk, h => by
    have h0 : ¬(⟨8 * i.val + (k + 1), h⟩ : Fin cfg2.N).val % 8 = 0 := by dsimp only; omega
    have ih := acc2_eq c i p q k (by omega) (Nat.lt_of_succ_lt h)
    by_cases h1 : (⟨8 * i.val + (k + 1), h⟩ : Fin cfg2.N).val % 8 = 7
    · rw [outsAt2_C V c ⟨8 * i.val + (k + 1), h⟩ h0 h1]
      dsimp only
      rw [accC2_eq]
      refine (TileValue.pay2_apply _ _ _ p q).trans ?_
      rw [Fin.sum_univ_castSucc (n := k + 1)]
      refine congrArg₂ (· + ·) ?_ ?_
      · exact ih
      · exact tile2_eq V c ⟨8 * i.val + (k + 1), h⟩ i ⟨k + 1, hk⟩ rfl p q
    · rw [outsAt2_B V c ⟨8 * i.val + (k + 1), h⟩ h0 h1]
      dsimp only
      rw [accB2_eq]
      refine (TileValue.pay2_apply _ _ _ p q).trans ?_
      rw [Fin.sum_univ_castSucc (n := k + 1)]
      refine congrArg₂ (· + ·) ?_ ?_
      · exact ih
      · exact tile2_eq V c ⟨8 * i.val + (k + 1), h⟩ i ⟨k + 1, hk⟩ rfl p q

end Value

/-! ## The output block, the result array -/

/-- The product of the two arrays, entry by entry: the sum over all 8192 contracted positions. -/
def prodArr2 (A : Vec Ideal S8192x8192 .f32) (X : Vec Ideal S8192x128 .f32) : S8192x128.Idx → EReal :=
  fun idx => ∑ k : Fin 8192, A (ix2 (⟨(idx 0).val, idx2_lt0 idx⟩ : Fin 8192) k) * X (ix2 k (⟨(idx 1).val, idx2_lt1 idx⟩ : Fin 128))

/-- It depends on the index through its two coordinates. -/
theorem prodArr2_of (A : Vec Ideal S8192x8192 .f32) (X : Vec Ideal S8192x128 .f32) (idx : S8192x128.Idx) (r : Fin 8192) (q : Fin 128)
    (h0 : (idx 0).val = r.val) (h1 : (idx 1).val = q.val) :
    prodArr2 A X idx = ∑ k : Fin 8192, A (ix2 r k) * X (ix2 k q) := by
  obtain rfl : r = ⟨(idx 0).val, idx2_lt0 idx⟩ := Fin.ext h0.symm
  obtain rfl : q = ⟨(idx 1).val, idx2_lt1 idx⟩ := Fin.ext h1.symm
  rfl

/-- The eight tiles of a row tile add up to the whole contraction. -/
theorem tiles2_sum (A : Vec Ideal S8192x8192 .f32) (X : Vec Ideal S8192x128 .f32) (i : Fin 4) (p : Fin 2048) (q : Fin 128) :
    ∑ s : Fin 8, tileTerm2 A X i s p q
      = ∑ k : Fin 8192, A (ix2 (⟨2048 * i.val + p.val, by omega⟩ : Fin 8192) k) * X (ix2 k q) := by
  unfold tileTerm2
  exact Cert.PolyConv.sum_blocks_8192 (fun k : Fin 8192 => A (ix2 (⟨2048 * i.val + p.val, by omega⟩ : Fin 8192) k) * X (ix2 k q))

section Value
variable (V : (c : Dev nD) → (b : Ref sig .tc) → Buf (Elt Ideal) ((c : Thread nD τ).loc b))

/-- The left operand array as the region finds it, and the right one. -/
abbrev argA2 (c : Dev nD) : Vec Ideal S8192x8192 .f32 := V c main_arg0
abbrev argX2 (c : Dev nD) : Vec Ideal S8192x128 .f32 := V c main_v5

/-- At the point `8 i + 7` the output block holds, at entry `(p, q)`, the whole contraction for row `2048 i + p`. -/
theorem out2_entry (c : Dev nD) (i : Fin 4) (t : Fin cfg2.N) (ht : t.val = 8 * i.val + 7) (p : Fin 2048) (q : Fin 128) :
    (outsAt2 V c t.val t.isLt).1 (ix2 p q)
      = ∑ k : Fin 8192, argA2 V c (ix2 (⟨2048 * i.val + p.val, by omega⟩ : Fin 8192) k) * argX2 V c (ix2 k q) := by
  have h0 : ¬t.val % 8 = 0 := by omega
  have h1 : t.val % 8 = 7 := by omega
  rw [outsAt2_C V c t h0 h1]
  dsimp only
  rw [outC2_eq]
  refine (TileValue.pay2_apply _ _ _ p q).trans ?_
  rw [← tiles2_sum, Fin.sum_univ_castSucc (n := 7)]
  refine congrArg₂ (· + ·) ?_ ?_
  · have same : ∀ (n : ℕ) (hn : n < cfg2.N) (e : n = 8 * i.val + 6),
        (outsAt2 V c n hn).2 (ix2 p q) = (outsAt2 V c (8 * i.val + 6) (e ▸ hn)).2 (ix2 p q) := fun n hn e => by subst e; rfl
    rw [same _ _ (by omega)]
    exact acc2_eq V c i p q 6 (by omega) _
  · exact tile2_eq V c t i ⟨7, by omega⟩ ht p q

/-- An index of the result array is in the block of the point `t` iff each coordinate is in the block's range. -/
theorem mem_blk2 (t : Fin cfg2.N) (idx : S8192x128.Idx) :
    idx ∈ ((cfg2.win 2).blk t).view.set ↔ ∀ a : Fin 2, win2_2.index t a * S2048x128.size a ≤ (idx a).val ∧ (idx a).val < win2_2.index t a * S2048x128.size a + S2048x128.size a := by
  show idx ∈ ((View.whole main_v11).slice (win2_2.rect t)).set ↔ _
  rw [View.set_slice_whole, Rect.mem_set_unit]
  exact Iff.rfl

/-- What the point `8 i + 7` writes back is its block of the product. -/
theorem flushed2_eq (c : Dev nD) (t : Fin cfg2.N) (hf : (cfg2.win 2).flush t = true) :
    (dat2 V c).flushed 2 t = ((cfg2.win 2).blk t).view.read (Elt Ideal) (prodArr2 (argA2 V c) (argX2 V c)) := by
  have h7 : t.val % 8 = 7 := (flush2_2 t).mp hf
  have hN : cfg2.N = 32 := N_2
  have hlt : t.val < 32 := lt_of_lt_of_eq t.isLt hN
  obtain ⟨i, hi⟩ : ∃ i : Fin 4, t.val = 8 * i.val + 7 := ⟨⟨t.val / 8, by omega⟩, by dsimp only; omega⟩
  obtain ⟨-, -, -, -, e4, e5⟩ := idx_facts2 t
  show (cfg2.win 2).cut (grid2.coords t) ((dat2 V c).after 2 t) = _
  rw [after2_2]
  funext y
  obtain ⟨p, q, rfl⟩ : ∃ (p : Fin 2048) (q : Fin 128), y = ix2 p q := ⟨y 0, y 1, eq_ix2 y⟩
  rw [View.read_apply]
  show (outsAt2 V c t.val t.isLt).1 (ix2 p q) = prodArr2 (argA2 V c) (argX2 V c) (((cfg2.win 2).blk t).view.emb (ix2 p q))
  rw [out2_entry V c i t hi p q]
  refine (prodArr2_of _ _ _ _ q ?_ ?_).symm
  · show win2_2.index t (0 : Fin 2) * 2048 + 1 * p.val = 2048 * i.val + p.val; rw [e4]; omega
  · show win2_2.index t (1 : Fin 2) * 128 + 1 * q.val = q.val; rw [e5]; omega

/-- Every row of the result is in the block of the point that ends its row tile. -/
theorem cover2 (idx : S8192x128.Idx) :
    ∃ t : Fin cfg2.N, (cfg2.win 2).flush t = true ∧ idx ∈ ((cfg2.win 2).blk t).view.set := by
  have hN : cfg2.N = 32 := N_2
  have hr : (idx 0).val < 8192 := idx2_lt0 idx
  have hq : (idx 1).val < 128 := idx2_lt1 idx
  refine ⟨⟨8 * ((idx 0).val / 2048) + 7, by omega⟩, (flush2_2 _).mpr (by dsimp only; omega), ?_⟩
  obtain ⟨-, -, -, -, e4, e5⟩ := idx_facts2 (⟨8 * ((idx 0).val / 2048) + 7, by omega⟩ : Fin cfg2.N)
  rw [mem_blk2]
  intro a
  match a with
  | ⟨0, _⟩ =>
    show win2_2.index _ (0 : Fin 2) * 2048 ≤ (idx 0).val ∧ (idx 0).val < win2_2.index _ (0 : Fin 2) * 2048 + 2048
    rw [e4]; dsimp only; omega
  | ⟨1, _⟩ =>
    show win2_2.index _ (1 : Fin 2) * 128 ≤ (idx 1).val ∧ (idx 1).val < win2_2.index _ (1 : Fin 2) * 128 + 128
    rw [e5]; omega

/-- The result array after the region is the product of the two operand arrays as the region finds them. -/
theorem product2 (c : Dev nD) (r : Fin 8192) (q : Fin 128) :
    (dat2 (F := Ideal) V c).arrAt 2 cfg2.N (ix2 r q) = ∑ k : Fin 8192, argA2 V c (ix2 r k) * argX2 V c (ix2 k q) := by
  rw [(dat2 V c).arrAt_eq_of_cover 2 (prodArr2 (argA2 V c) (argX2 V c)) (flushed2_eq V c) cover2]
  exact prodArr2_of _ _ (ix2 r q) r q rfl rfl

end Value

end Cert.KernelIdeal.Hand

end
-- ==== Proof.KernelIdeal.R3.Value.lean ====
import proofs.«132851_j4544075399677_1_alg».proof.Proof.KernelIdeal.R3.Data
import proofs.«132851_j4544075399677_1_alg».proof.Proof.TileValue
import proofs.«132851_j4544075399677_1_alg».proof.Proof.BlockSum
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! Region 3: the result array after the region, entry by entry, is the product of the two operand arrays as
    the region finds them: the sum over all 8192 contracted positions. The accumulator after the point
    `8 i + k` holds the partial sum over the first `k + 1` tiles of 1024 positions; the point `8 i + 7` copies the
    full sum to the output block, which is rows `2048 i … 2048 i + 2047` of the result. -/

variable {F : FTy → Type} [FloatOps F]

theorem hz3 : (![0, 0] : Fin 2 → Nat) = fun _ => 0 := funext fun a => by fin_cases a <;> rfl

/-! ## What each case leaves, as the body's two stored values -/

/-- At k = 0 the accumulator ends at the accumulation step taken from the zero fill. -/
theorem accA3_eq (c : Dev nD) (i : grid3.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : isFirst3 i) (hc1 : ¬isLast3 i) (x0 : Vec F S2048x1024 .f32) (x1 : Vec F S1024x128 .f32) :
    accAfter3_A c i arg2 harg2 arg3 harg3 arg4 harg4 arg5 harg5 hc0 hc1 x0 x1 = k0_pay2 x0 x1 (k0_pay1 (F := F)) := by
  unfold accAfter3_A
  rw [View.read_writes_eq_canon _ _ _ (coverA3_A c i arg2 harg2 arg3 harg3 arg4 harg4 arg5 harg5 hc0 hc1 x0 x1)]
  unfold bodyRun3_A
  dsimp only
  sl_unfold_words
  rw [View.canon_cons_unit_zero (S := S2048x128) hz3, View.readCov_unit_zero (S := S2048x128) _ hz3]
  simp only [View.readAt_eq_ld, harg2.read_unread, harg3.read_unread, View.ld_unit_zero (S := S2048x1024) hz3, View.ld_unit_zero (S := S1024x128) hz3]
  rw [TileValue.pay2_eq3]
  rw [TileValue.pay1_eq3]

/-- At 0 < k < 7 it ends at the accumulation step taken from what the point before left. -/
theorem accB3_eq (c : Dev nD) (i : grid3.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst3 i) (hc1 : ¬isLast3 i) (x0 : Vec F S2048x1024 .f32) (x1 : Vec F S1024x128 .f32) (xa : Vec F S2048x128 .f32) :
    accAfter3_B c i arg2 harg2 arg3 harg3 arg4 harg4 arg5 harg5 hc0 hc1 x0 x1 xa = k0_pay2 x0 x1 xa := by
  unfold accAfter3_B
  rw [View.read_writes_eq_canon _ _ _ (coverA3_B c i arg2 harg2 arg3 harg3 arg4 harg4 arg5 harg5 hc0 hc1 x0 x1 xa)]
  unfold bodyRun3_B
  dsimp only
  rw [View.canon_unit_zero hz3]
  simp only [View.readAt_eq_ld, harg2.read_unread, harg3.read_unread, harg5.read_unread, View.ld_unit_zero (S := S2048x1024) hz3, View.ld_unit_zero (S := S1024x128) hz3, View.ld_unit_zero (S := S2048x128) hz3]
  rw [TileValue.pay2_eq3]

/-- At k = 7 likewise, -/
theorem accC3_eq (c : Dev nD) (i : grid3.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst3 i) (hc1 : isLast3 i) (x0 : Vec F S2048x1024 .f32) (x1 : Vec F S1024x128 .f32) (xa : Vec F S2048x128 .f32) :
    accAfter3_C c i arg2 harg2 arg3 harg3 arg4 harg4 arg5 harg5 hc0 hc1 x0 x1 xa = k0_pay2 x0 x1 xa := by
  unfold accAfter3_C
  rw [View.read_writes_eq_canon _ _ _ (coverA3_C c i arg2 harg2 arg3 harg3 arg4 harg4 arg5 harg5 hc0 hc1 x0 x1 xa)]
  unfold bodyRun3_C
  dsimp only
  sl_unfold_words
  rw [View.canon_unit_zero hz3]
  simp only [View.readAt_eq_ld, harg2.read_unread, harg3.read_unread, harg5.read_unread, View.ld_unit_zero (S := S2048x1024) hz3, View.ld_unit_zero (S := S1024x128) hz3, View.ld_unit_zero (S := S2048x128) hz3]
  rw [TileValue.pay2_eq3]

/-- and the output block is the accumulator just written. -/
theorem outC3_eq (c : Dev nD) (i : grid3.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬isFirst3 i) (hc1 : isLast3 i) (x0 : Vec F S2048x1024 .f32) (x1 : Vec F S1024x128 .f32) (xa : Vec F S2048x128 .f32) :
    outAfter3_C c i arg2 harg2 arg3 harg3 arg4 harg4 arg5 harg5 hc0 hc1 x0 x1 xa = k0_pay2 x0 x1 xa := by
  unfold outAfter3_C
  rw [View.read_writes_eq_canon _ _ _ (coverO3_C c i arg2 harg2 arg3 harg3 arg4 harg4 arg5 harg5 hc0 hc1 x0 x1 xa)]
  unfold bodyRun3_C
  dsimp only
  sl_unfold_words
  rw [View.canon_unit_zero hz3, View.readCov_unit_zero (S := S2048x128) _ hz3]
  simp only [View.readAt_eq_ld, harg2.read_unread, harg3.read_unread, harg5.read_unread, View.ld_unit_zero (S := S2048x1024) hz3, View.ld_unit_zero (S := S1024x128) hz3, View.ld_unit_zero (S := S2048x128) hz3]
  rw [TileValue.pay2_eq3]

/-! ## The windows' blocks at an entry -/

/-- The index maps over the grid: at the point `8 i + s` the left operand's block is row tile `i`, contraction
    tile `s`; the right operand's is contraction tile `s` of its one column tile; the output's is row tile `i`. -/
theorem idx_facts3 : ∀ t : Fin cfg3.N,
    win3_0.index t (0 : Fin 2) = t.val / 8 ∧ win3_0.index t (1 : Fin 2) = t.val % 8
    ∧ win3_1.index t (0 : Fin 2) = t.val % 8 ∧ win3_1.index t (1 : Fin 2) = 0
    ∧ win3_2.index t (0 : Fin 2) = t.val / 8 ∧ win3_2.index t (1 : Fin 2) = 0 :=
  (by decide +kernel : ∀ t : Fin grid3.N, _)

section Value
variable (V : (c : Dev nD) → (b : Ref sig .tc) → Buf (Elt Ideal) ((c : Thread nD τ).loc b))

/-- The left operand's block at the point `8 i + s`, entry `(p, j)`: the array at row `2048 i + p`, column `1024 s + j`. -/
theorem lblk3_apply (c : Dev nD) (t : Fin cfg3.N) (i : Fin 4) (s : Fin 8) (ht : t.val = 8 * i.val + s.val) (p : Fin 2048) (j : Fin 1024) :
    (iblk3 V c 0 t : Vec Ideal S2048x1024 .f32) (ix2 p j)
      = V c main_arg0 (ix2 (⟨2048 * i.val + p.val, by omega⟩ : Fin 8192) (⟨1024 * s.val + j.val, by omega⟩ : Fin 8192)) := by
  obtain ⟨e0, e1, -⟩ := idx_facts3 t
  unfold iblk3
  rw [View.read_apply]
  show V c main_arg0 _ = V c main_arg0 _
  congr 1
  funext a
  apply Fin.ext
  match a with
  | ⟨0, _⟩ => show win3_0.index t (0 : Fin 2) * 2048 + 1 * p.val = 2048 * i.val + p.val; rw [e0]; omega
  | ⟨1, _⟩ => show win3_0.index t (1 : Fin 2) * 1024 + 1 * j.val = 1024 * s.val + j.val; rw [e1]; omega

/-- The right operand's block there, entry `(j, q)`: the array at row `1024 s + j`, column `q`. -/
theorem rblk3_apply (c : Dev nD) (t : Fin cfg3.N) (i : Fin 4) (s : Fin 8) (ht : t.val = 8 * i.val + s.val) (j : Fin 1024) (q : Fin 128) :
    (iblk3 V c 1 t : Vec Ideal S1024x128 .f32) (ix2 j q)
      = V c main_v11 (ix2 (⟨1024 * s.val + j.val, by omega⟩ : Fin 8192) q) := by
  obtain ⟨-, -, e2, e3, -⟩ := idx_facts3 t
  unfold iblk3
  rw [View.read_apply]
  show V c main_v11 _ = V c main_v11 _
  congr 1
  funext a
  apply Fin.ext
  match a with
  | ⟨0, _⟩ => show win3_1.index t (0 : Fin 2) * 1024 + 1 * j.val = 1024 * s.val + j.val; rw [e2]; omega
  | ⟨1, _⟩ => show win3_1.index t (1 : Fin 2) * 128 + 1 * q.val = q.val; rw [e3]; omega

end Value

/-! ## The accumulator point by point -/

/-- The tile at row tile `i` and contraction tile `s`, at entry `(p, q)` of the row tile's block: the sum over the
    tile's 1024 contracted positions. -/
def tileTerm3 (A : Vec Ideal S8192x8192 .f32) (X : Vec Ideal S8192x128 .f32) (i : Fin 4) (s : Fin 8) (p : Fin 2048) (q : Fin 128) : EReal :=
  ∑ j : Fin 1024, A (ix2 (⟨2048 * i.val + p.val, by omega⟩ : Fin 8192) (⟨1024 * s.val + j.val, by omega⟩ : Fin 8192))
    * X (ix2 (⟨1024 * s.val + j.val, by omega⟩ : Fin 8192) q)

/-- Two blocks that read the arrays at the tile's rows and columns multiply to the tile's sum. -/
theorem tile3_of (A : Vec Ideal S8192x8192 .f32) (X : Vec Ideal S8192x128 .f32) (i : Fin 4) (s : Fin 8) (p : Fin 2048) (q : Fin 128)
    (x0 : Vec Ideal S2048x1024 .f32) (x1 : Vec Ideal S1024x128 .f32)
    (hx0 : ∀ j : Fin 1024, x0 (ix2 p j) = A (ix2 (⟨2048 * i.val + p.val, by omega⟩ : Fin 8192) (⟨1024 * s.val + j.val, by omega⟩ : Fin 8192)))
    (hx1 : ∀ j : Fin 1024, x1 (ix2 j q) = X (ix2 (⟨1024 * s.val + j.val, by omega⟩ : Fin 8192) q)) :
    ∑ j : Fin 1024, x0 (ix2 p j) * x1 (ix2 j q) = tileTerm3 A X i s p q := by
  unfold tileTerm3
  exact Finset.sum_congr rfl fun j _ => by rw [hx0 j, hx1 j]

section Value
variable (V : (c : Dev nD) → (b : Ref sig .tc) → Buf (Elt Ideal) ((c : Thread nD τ).loc b))

/-- The product of the two blocks at the point `8 i + s`, at entry `(p, q)`, is that tile's sum. -/
theorem tile3_eq (c : Dev nD) (t : Fin cfg3.N) (i : Fin 4) (s : Fin 8) (ht : t.val = 8 * i.val + s.val) (p : Fin 2048) (q : Fin 128) :
    ∑ j : Fin 1024, (show Vec Ideal S2048x1024 .f32 from iblk3 V c 0 t) (ix2 p j) * (show Vec Ideal S1024x128 .f32 from iblk3 V c 1 t) (ix2 j q)
      = tileTerm3 (V c main_arg0) (V c main_v11) i s p q :=
  tile3_of (V c main_arg0) (V c main_v11) i s p q (iblk3 V c 0 t) (iblk3 V c 1 t)
    (fun j => lblk3_apply V c t i s ht p j) (fun j => rblk3_apply V c t i s ht j q)

/-- After the point `8 i + k` the accumulator holds, at entry `(p, q)`, the sum of the tiles `0 … k`. -/
theorem acc3_eq (c : Dev nD) (i : Fin 4) (p : Fin 2048) (q : Fin 128) :
    ∀ (k : ℕ) (hk : k < 8) (h : 8 * i.val + k < cfg3.N),
      (outsAt3 V c (8 * i.val + k) h).2 (ix2 p q)
        = ∑ s : Fin (k + 1), tileTerm3 (V c main_arg0) (V c main_v11) i ⟨s.val, by omega⟩ p q
  | 0, hk, h => by
    have h0 : (⟨8 * i.val + 0, h⟩ : Fin cfg3.N).val % 8 = 0 := by dsimp only; omega
    have h1 : ¬(⟨8 * i.val + 0, h⟩ : Fin cfg3.N).val % 8 = 7 := by dsimp only; omega
    rw [outsAt3_A V c ⟨8 * i.val + 0, h⟩ h0 h1]
    dsimp only
    rw [accA3_eq]
    refine (TileValue.pay2_apply _ _ _ p q).trans ?_
    rw [TileValue.pay1_apply, zero_add]
    refine Eq.trans ?_ (Fin.sum_univ_one _).symm
    exact tile3_eq V c ⟨8 * i.val + 0, h⟩ i 0 rfl p q
  | k + 1, hk, h => by
    have h0 : ¬(⟨8 * i.val + (k + 1), h⟩ : Fin cfg3.N).val % 8 = 0 := by dsimp only; omega
    have ih := acc3_eq c i p q k (by omega) (Nat.lt_of_succ_lt h)
    by_cases h1 : (⟨8 * i.val + (k + 1), h⟩ : Fin cfg3.N).val % 8 = 7
    · rw [outsAt3_C V c ⟨8 * i.val + (k + 1), h⟩ h0 h1]
      dsimp only
      rw [accC3_eq]
      refine (TileValue.pay2_apply _ _ _ p q).trans ?_
      rw [Fin.sum_univ_castSucc (n := k + 1)]
      refine congrArg₂ (· + ·) ?_ ?_
      · exact ih
      · exact tile3_eq V c ⟨8 * i.val + (k + 1), h⟩ i ⟨k + 1, hk⟩ rfl p q
    · rw [outsAt3_B V c ⟨8 * i.val + (k + 1), h⟩ h0 h1]
      dsimp only
      rw [accB3_eq]
      refine (TileValue.pay2_apply _ _ _ p q).trans ?_
      rw [Fin.sum_univ_castSucc (n := k + 1)]
      refine congrArg₂ (· + ·) ?_ ?_
      · exact ih
      · exact tile3_eq V c ⟨8 * i.val + (k + 1), h⟩ i ⟨k + 1, hk⟩ rfl p q

end Value

/-! ## The output block, the result array -/

/-- The product of the two arrays, entry by entry: the sum over all 8192 contracted positions. -/
def prodArr3 (A : Vec Ideal S8192x8192 .f32) (X : Vec Ideal S8192x128 .f32) : S8192x128.Idx → EReal :=
  fun idx => ∑ k : Fin 8192, A (ix2 (⟨(idx 0).val, idx2_lt0 idx⟩ : Fin 8192) k) * X (ix2 k (⟨(idx 1).val, idx2_lt1 idx⟩ : Fin 128))

/-- It depends on the index through its two coordinates. -/
theorem prodArr3_of (A : Vec Ideal S8192x8192 .f32) (X : Vec Ideal S8192x128 .f32) (idx : S8192x128.Idx) (r : Fin 8192) (q : Fin 128)
    (h0 : (idx 0).val = r.val) (h1 : (idx 1).val = q.val) :
    prodArr3 A X idx = ∑ k : Fin 8192, A (ix2 r k) * X (ix2 k q) := by
  obtain rfl : r = ⟨(idx 0).val, idx2_lt0 idx⟩ := Fin.ext h0.symm
  obtain rfl : q = ⟨(idx 1).val, idx2_lt1 idx⟩ := Fin.ext h1.symm
  rfl

/-- The eight tiles of a row tile add up to the whole contraction. -/
theorem tiles3_sum (A : Vec Ideal S8192x8192 .f32) (X : Vec Ideal S8192x128 .f32) (i : Fin 4) (p : Fin 2048) (q : Fin 128) :
    ∑ s : Fin 8, tileTerm3 A X i s p q
      = ∑ k : Fin 8192, A (ix2 (⟨2048 * i.val + p.val, by omega⟩ : Fin 8192) k) * X (ix2 k q) := by
  unfold tileTerm3
  exact Cert.PolyConv.sum_blocks_8192 (fun k : Fin 8192 => A (ix2 (⟨2048 * i.val + p.val, by omega⟩ : Fin 8192) k) * X (ix2 k q))

section Value
variable (V : (c : Dev nD) → (b : Ref sig .tc) → Buf (Elt Ideal) ((c : Thread nD τ).loc b))

/-- The left operand array as the region finds it, and the right one. -/
abbrev argA3 (c : Dev nD) : Vec Ideal S8192x8192 .f32 := V c main_arg0
abbrev argX3 (c : Dev nD) : Vec Ideal S8192x128 .f32 := V c main_v11

/-- At the point `8 i + 7` the output block holds, at entry `(p, q)`, the whole contraction for row `2048 i + p`. -/
theorem out3_entry (c : Dev nD) (i : Fin 4) (t : Fin cfg3.N) (ht : t.val = 8 * i.val + 7) (p : Fin 2048) (q : Fin 128) :
    (outsAt3 V c t.val t.isLt).1 (ix2 p q)
      = ∑ k : Fin 8192, argA3 V c (ix2 (⟨2048 * i.val + p.val, by omega⟩ : Fin 8192) k) * argX3 V c (ix2 k q) := by
  have h0 : ¬t.val % 8 = 0 := by omega
  have h1 : t.val % 8 = 7 := by omega
  rw [outsAt3_C V c t h0 h1]
  dsimp only
  rw [outC3_eq]
  refine (TileValue.pay2_apply _ _ _ p q).trans ?_
  rw [← tiles3_sum, Fin.sum_univ_castSucc (n := 7)]
  refine congrArg₂ (· + ·) ?_ ?_
  · have same : ∀ (n : ℕ) (hn : n < cfg3.N) (e : n = 8 * i.val + 6),
        (outsAt3 V c n hn).2 (ix2 p q) = (outsAt3 V c (8 * i.val + 6) (e ▸ hn)).2 (ix2 p q) := fun n hn e => by subst e; rfl
    rw [same _ _ (by omega)]
    exact acc3_eq V c i p q 6 (by omega) _
  · exact tile3_eq V c t i ⟨7, by omega⟩ ht p q

/-- An index of the result array is in the block of the point `t` iff each coordinate is in the block's range. -/
theorem mem_blk3 (t : Fin cfg3.N) (idx : S8192x128.Idx) :
    idx ∈ ((cfg3.win 2).blk t).view.set ↔ ∀ a : Fin 2, win3_2.index t a * S2048x128.size a ≤ (idx a).val ∧ (idx a).val < win3_2.index t a * S2048x128.size a + S2048x128.size a := by
  show idx ∈ ((View.whole main_v17).slice (win3_2.rect t)).set ↔ _
  rw [View.set_slice_whole, Rect.mem_set_unit]
  exact Iff.rfl

/-- What the point `8 i + 7` writes back is its block of the product. -/
theorem flushed3_eq (c : Dev nD) (t : Fin cfg3.N) (hf : (cfg3.win 2).flush t = true) :
    (dat3 V c).flushed 2 t = ((cfg3.win 2).blk t).view.read (Elt Ideal) (prodArr3 (argA3 V c) (argX3 V c)) := by
  have h7 : t.val % 8 = 7 := (flush3_2 t).mp hf
  have hN : cfg3.N = 32 := N_3
  have hlt : t.val < 32 := lt_of_lt_of_eq t.isLt hN
  obtain ⟨i, hi⟩ : ∃ i : Fin 4, t.val = 8 * i.val + 7 := ⟨⟨t.val / 8, by omega⟩, by dsimp only; omega⟩
  obtain ⟨-, -, -, -, e4, e5⟩ := idx_facts3 t
  show (cfg3.win 2).cut (grid3.coords t) ((dat3 V c).after 2 t) = _
  rw [after3_2]
  funext y
  obtain ⟨p, q, rfl⟩ : ∃ (p : Fin 2048) (q : Fin 128), y = ix2 p q := ⟨y 0, y 1, eq_ix2 y⟩
  rw [View.read_apply]
  show (outsAt3 V c t.val t.isLt).1 (ix2 p q) = prodArr3 (argA3 V c) (argX3 V c) (((cfg3.win 2).blk t).view.emb (ix2 p q))
  rw [out3_entry V c i t hi p q]
  refine (prodArr3_of _ _ _ _ q ?_ ?_).symm
  · show win3_2.index t (0 : Fin 2) * 2048 + 1 * p.val = 2048 * i.val + p.val; rw [e4]; omega
  · show win3_2.index t (1 : Fin 2) * 128 + 1 * q.val = q.val; rw [e5]; omega

/-- Every row of the result is in the block of the point that ends its row tile. -/
theorem cover3 (idx : S8192x128.Idx) :
    ∃ t : Fin cfg3.N, (cfg3.win 2).flush t = true ∧ idx ∈ ((cfg3.win 2).blk t).view.set := by
  have hN : cfg3.N = 32 := N_3
  have hr : (idx 0).val < 8192 := idx2_lt0 idx
  have hq : (idx 1).val < 128 := idx2_lt1 idx
  refine ⟨⟨8 * ((idx 0).val / 2048) + 7, by omega⟩, (flush3_2 _).mpr (by dsimp only; omega), ?_⟩
  obtain ⟨-, -, -, -, e4, e5⟩ := idx_facts3 (⟨8 * ((idx 0).val / 2048) + 7, by omega⟩ : Fin cfg3.N)
  rw [mem_blk3]
  intro a
  match a with
  | ⟨0, _⟩ =>
    show win3_2.index _ (0 : Fin 2) * 2048 ≤ (idx 0).val ∧ (idx 0).val < win3_2.index _ (0 : Fin 2) * 2048 + 2048
    rw [e4]; dsimp only; omega
  | ⟨1, _⟩ =>
    show win3_2.index _ (1 : Fin 2) * 128 ≤ (idx 1).val ∧ (idx 1).val < win3_2.index _ (1 : Fin 2) * 128 + 128
    rw [e5]; omega

/-- The result array after the region is the product of the two operand arrays as the region finds them. -/
theorem product3 (c : Dev nD) (r : Fin 8192) (q : Fin 128) :
    (dat3 (F := Ideal) V c).arrAt 2 cfg3.N (ix2 r q) = ∑ k : Fin 8192, argA3 V c (ix2 r k) * argX3 V c (ix2 k q) := by
  rw [(dat3 V c).arrAt_eq_of_cover 2 (prodArr3 (argA3 V c) (argX3 V c)) (flushed3_eq V c) cover3]
  exact prodArr3_of _ _ (ix2 r q) r q rfl rfl

end Value

end Cert.KernelIdeal.Hand

end
-- ==== Proof.RefDot.lean ====
/- The reference's one product over the whole arrays, read at one entry at the ideal instance: the sum over
   the 8192 contracted positions of the products of a row of the left array and a column of the right one. -/
import proofs.«132851_j4544075399677_1_alg».proof.ReferenceIdeal
import Idealize.ShloMosaic.Lib.StackMember

noncomputable section

namespace Cert.ReferenceIdeal.RefValue

open Idealize.ShloMosaic Idealize.ShloMosaic.ValueIdx

variable [Facts₀]

/-- The reference's contraction record is the plain rows-by-columns product of an 8192x8192 by an 8192x128
    matrix. -/
theorem dot_eq_plain :
    dot_S8192x8192_S8192x128_S8192x128_1_0_0_1_n_n = DotDims.plain 8192 8192 128 := rfl

/-- The reference's product at entry `(r, c)`. -/
theorem dot_apply (l : Vec Ideal S8192x8192 .f32) (x : Vec Ideal S8192x128 .f32) (r : Fin 8192) (c : Fin 128) :
    Host.dotGeneral (F := Ideal) (φ₁ := .f32) (φ₂ := .f32) dot_S8192x8192_S8192x128_S8192x128_1_0_0_1_n_n none l x (ix2 r c)
      = ∑ k : Fin 8192, l (ix2 r k) * x (ix2 k c) := by
  rw [dot_eq_plain]
  exact StackMember.dotGeneral_plain_apply none l x r c

end Cert.ReferenceIdeal.RefValue
-- ==== Proof.RefSide.lean ====
/-
  The reference: four host matrix products A·X, A·(A·X), …, each scaled by one coefficient of θ and added to the
  running sum, first to last. Its run ends with the result array at that polynomial in A applied to X, the
  arguments unchanged; dropping the result gives its frame.
-/
import proofs.«132851_j4544075399677_1_alg».proof.Defs
import proofs.«132851_j4544075399677_1_alg».proof.Proof.Gen.ReferenceIdeal
import proofs.«132851_j4544075399677_1_alg».proof.Proof.Gen.ReferenceIdeal.Run
import proofs.«132851_j4544075399677_1_alg».proof.Proof.RefDot

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The host's matrix product of an [8192,8192] array with an [8192,128] array. -/
abbrev hdot (a : (⟨S8192x8192, .f32⟩ : BufTy).Contents (Elt F)) (x : (⟨S8192x128, .f32⟩ : BufTy).Contents (Elt F)) :
    (⟨S8192x128, .f32⟩ : BufTy).Contents (Elt F) :=
  Host.dotGeneral dot_S8192x8192_S8192x128_S8192x128_1_0_0_1_n_n none a x

/-- The last step of the polynomial: coefficient k of `θ`, broadcast over the array, times the k-th array, the four
    products summed first to last. -/
def comb (θ : (⟨S4, .f32⟩ : BufTy).Contents (Elt F)) (f0 f1 f2 f3 : (⟨S8192x128, .f32⟩ : BufTy).Contents (Elt F)) :
    (⟨S8192x128, .f32⟩ : BufTy).Contents (Elt F) :=
  addf (addf (addf (mulf (broadcastInDim S8192x128 ![] bcast_S_S8192x128 (shapeCast S_ (extractStridedSlice S1 ![0] θ slices_S4_S1_0) shapeCasts_S1_S_)) f0) (mulf (broadcastInDim S8192x128 ![] bcast_S_S8192x128 (shapeCast S_ (extractStridedSlice S1 ![1] θ slices_S4_S1_1) shapeCasts_S1_S_)) f1)) (mulf (broadcastInDim S8192x128 ![] bcast_S_S8192x128 (shapeCast S_ (extractStridedSlice S1 ![2] θ slices_S4_S1_2) shapeCasts_S1_S_)) f2)) (mulf (broadcastInDim S8192x128 ![] bcast_S_S8192x128 (shapeCast S_ (extractStridedSlice S1 ![3] θ slices_S4_S1_3) shapeCasts_S1_S_)) f3)

/-- θ₀·(A·X) + θ₁·(A·(A·X)) + θ₂·(A·(A·(A·X))) + θ₃·(A·(A·(A·(A·X)))). -/
def poly (a : (⟨S8192x8192, .f32⟩ : BufTy).Contents (Elt F)) (x : (⟨S8192x128, .f32⟩ : BufTy).Contents (Elt F))
    (θ : (⟨S4, .f32⟩ : BufTy).Contents (Elt F)) : (⟨S8192x128, .f32⟩ : BufTy).Contents (Elt F) :=
  comb θ (hdot a x) (hdot a (hdot a x)) (hdot a (hdot a (hdot a x))) (hdot a (hdot a (hdot a (hdot a x))))

/-- The reference's run: the result array at the polynomial of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22)
          = poly (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run (F := F) m ρ

end Cert.ReferenceIdeal.RefValue

end
-- ==== Proof.Bridge.lean ====
/-
  The two programs compute one function. At the ideal instance each region leaves in its result array the full
  product of its two input arrays — the eight tile products accumulated along the contracted axis are the one sum
  over all 8192 terms, addition of extended reals being commutative and associative — which is what the host's
  matrix product computes; region k ≥ 1 is entered with the first argument as launched and region k − 1's result,
  so the four results are A·X, A·(A·X), A·(A·(A·X)), A·(A·(A·(A·X))). Both programs then apply the same last step
  (coefficient k of θ times the k-th product, summed first to last) to the same four arrays.
-/
import proofs.«132851_j4544075399677_1_alg».proof.Defs
import proofs.«132851_j4544075399677_1_alg».proof.Proof.KernelIdeal.Result
import proofs.«132851_j4544075399677_1_alg».proof.Proof.KernelIdeal.R0.Value
import proofs.«132851_j4544075399677_1_alg».proof.Proof.KernelIdeal.R1.Value
import proofs.«132851_j4544075399677_1_alg».proof.Proof.KernelIdeal.R2.Value
import proofs.«132851_j4544075399677_1_alg».proof.Proof.KernelIdeal.R3.Value
import proofs.«132851_j4544075399677_1_alg».proof.Proof.RefSide
import proofs.«132851_j4544075399677_1_alg».proof.Proof.Gen.Pre_finite_inputs
import proofs.«132851_j4544075399677_1_alg».proof.Proof.Kernel.Args

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.Hand
open Cert.ReferenceIdeal.RefValue (hdot comb poly)

variable (m : (ℓ : Loc nD τ sig) → Buf (Elt Ideal) ℓ) (ρ : Dev nD → PrngReg)

/-- Region 0's result is the host product of the first two arguments. -/
theorem P0_eq (c : Dev nD) : (dat0 (F := Ideal) (VE0 m ρ) c).arrAt 2 cfg0.N
    = hdot (F := Ideal) (m ((c : Thread nD τ).loc main_arg0)) (m ((c : Thread nD τ).loc main_arg1)) := by
  funext idx
  obtain ⟨r, q, rfl⟩ : ∃ (r : Fin 8192) (q : Fin 128), idx = ix2 r q := ⟨idx 0, idx 1, eq_ix2 idx⟩
  rw [product0 (VE0 m ρ) c r q]
  exact (Cert.ReferenceIdeal.RefValue.dot_apply _ _ r q).symm

/-- Region 1's result is the host product of the first argument with region 0's result. -/
theorem P1_eq (c : Dev nD) : (dat1 (F := Ideal) (VE1 m ρ) c).arrAt 2 cfg1.N = (hdot (F := Ideal) (m ((c : Thread nD τ).loc main_arg0)) (hdot (F := Ideal) (m ((c : Thread nD τ).loc main_arg0)) (m ((c : Thread nD τ).loc main_arg1)))) := by
  funext idx
  obtain ⟨r, q, rfl⟩ : ∃ (r : Fin 8192) (q : Fin 128), idx = ix2 r q := ⟨idx 0, idx 1, eq_ix2 idx⟩
  rw [product1 (VE1 m ρ) c r q]
  have eA : argA1 (VE1 m ρ) c = (m ((c : Thread nD τ).loc main_arg0)) := WE1_arg0 m ρ c
  have eX : argX1 (VE1 m ρ) c = (hdot (F := Ideal) (m ((c : Thread nD τ).loc main_arg0)) (m ((c : Thread nD τ).loc main_arg1))) := (WE1_v0 m ρ c).trans (P0_eq m ρ c)
  rw [eA, eX]
  exact (Cert.ReferenceIdeal.RefValue.dot_apply _ _ r q).symm

/-- Region 2's result is the host product of the first argument with region 1's result. -/
theorem P2_eq (c : Dev nD) : (dat2 (F := Ideal) (VE2 m ρ) c).arrAt 2 cfg2.N = (hdot (F := Ideal) (m ((c : Thread nD τ).loc main_arg0)) (hdot (F := Ideal) (m ((c : Thread nD τ).loc main_arg0)) (hdot (F := Ideal) (m ((c : Thread nD τ).loc main_arg0)) (m ((c : Thread nD τ).loc main_arg1))))) := by
  funext idx
  obtain ⟨r, q, rfl⟩ : ∃ (r : Fin 8192) (q : Fin 128), idx = ix2 r q := ⟨idx 0, idx 1, eq_ix2 idx⟩
  rw [product2 (VE2 m ρ) c r q]
  have eA : argA2 (VE2 m ρ) c = (m ((c : Thread nD τ).loc main_arg0)) := WE2_arg0 m ρ c
  have eX : argX2 (VE2 m ρ) c = (hdot (F := Ideal) (m ((c : Thread nD τ).loc main_arg0)) (hdot (F := Ideal) (m ((c : Thread nD τ).loc main_arg0)) (m ((c : Thread nD τ).loc main_arg1)))) := (WE2_v5 m ρ c).trans (P1_eq m ρ c)
  rw [eA, eX]
  exact (Cert.ReferenceIdeal.RefValue.dot_apply _ _ r q).symm

/-- Region 3's result is the host product of the first argument with region 2's result. -/
theorem P3_eq (c : Dev nD) : (dat3 (F := Ideal) (VE3 m ρ) c).arrAt 2 cfg3.N = (hdot (F := Ideal) (m ((c : Thread nD τ).loc main_arg0)) (hdot (F := Ideal) (m ((c : Thread nD τ).loc main_arg0)) (hdot (F := Ideal) (m ((c : Thread nD τ).loc main_arg0)) (hdot (F := Ideal) (m ((c : Thread nD τ).loc main_arg0)) (m ((c : Thread nD τ).loc main_arg1)))))) := by
  funext idx
  obtain ⟨r, q, rfl⟩ : ∃ (r : Fin 8192) (q : Fin 128), idx = ix2 r q := ⟨idx 0, idx 1, eq_ix2 idx⟩
  rw [product3 (VE3 m ρ) c r q]
  have eA : argA3 (VE3 m ρ) c = (m ((c : Thread nD τ).loc main_arg0)) := WE3_arg0 m ρ c
  have eX : argX3 (VE3 m ρ) c = (hdot (F := Ideal) (m ((c : Thread nD τ).loc main_arg0)) (hdot (F := Ideal) (m ((c : Thread nD τ).loc main_arg0)) (hdot (F := Ideal) (m ((c : Thread nD τ).loc main_arg0)) (m ((c : Thread nD τ).loc main_arg1))))) := (WE3_v11 m ρ c).trans (P2_eq m ρ c)
  rw [eA, eX]
  exact (Cert.ReferenceIdeal.RefValue.dot_apply _ _ r q).symm

/-- The kernel program's returned array is the reference's polynomial of the arguments. -/
theorem result_eq (c : Dev nD) : WF m ρ c (Proc.devRef .tc main_v22) = poly (F := Ideal) (m ((c : Thread nD τ).loc main_arg0)) (m ((c : Thread nD τ).loc main_arg1)) (m ((c : Thread nD τ).loc main_arg3)) := by
  rw [result m ρ c, P0_eq, P1_eq, P2_eq, P3_eq]
  rfl

end Cert.Bridge

/-! ## The claims -/

namespace Cert.Proof.Claims

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.RefValue.run (F := Ideal) m ρ)

/-- At the ideal instance, from memories agreeing on the arguments, both programs run to the end with the result
    array at the same polynomial of the arguments, and the arguments unchanged. -/
theorem algebraic : Cert.algebraic_KernelIdeal_ReferenceIdeal := by
  intro m ρ m' ρ' _ hagree
  refine ⟨fun c => Cert.KernelIdeal.Hand.WF m ρ c (Proc.devRef .tc Cert.KernelIdeal.main_v22), ?_, ?_⟩
  · exact (θ_run Cert.KernelIdeal.defs _ _).mono (fun _ h c =>
      ⟨h c _ (Cert.KernelIdeal.Hand.mem_uc Cert.KernelIdeal.main_v22 (by decide)),
       (h c _ (Cert.KernelIdeal.Hand.mem_uc Cert.KernelIdeal.main_arg0 (by decide))).trans (Cert.KernelIdeal.Hand.WF_main_arg0 m ρ c),
       (h c _ (Cert.KernelIdeal.Hand.mem_uc Cert.KernelIdeal.main_arg1 (by decide))).trans (Cert.KernelIdeal.Hand.WF_main_arg1 m ρ c),
       (h c _ (Cert.KernelIdeal.Hand.mem_uc Cert.KernelIdeal.main_arg2 (by decide))).trans (Cert.KernelIdeal.Hand.WF_main_arg2 m ρ c),
       (h c _ (Cert.KernelIdeal.Hand.mem_uc Cert.KernelIdeal.main_arg3 (by decide))).trans (Cert.KernelIdeal.Hand.WF_main_arg3 m ρ c)⟩)
      (Cert.KernelIdeal.Hand.run_all (F := Ideal) m ρ)
  · refine (θ_run Cert.ReferenceIdeal.defs _ _).mono (fun _ h c => ⟨(h c).1.trans ?_, (h c).2⟩)
      (Cert.ReferenceIdeal.RefValue.run (F := Ideal) m' ρ')
    rw [(hagree c).1, (hagree c).2.1, (hagree c).2.2.2]
    exact (Cert.Bridge.result_eq m ρ c).symm

end Cert.Proof.Claims

end
-- ==== Proof.lean ====
/-
  The certificate of a polynomial graph filter: h = θ₀·(A·X) + θ₁·(A²·X) + θ₂·(A³·X) + θ₃·(A⁴·X), with A an
  [8192,8192] matrix, X an [8192,128] matrix and θ four coefficients. The kernel program computes each product
  A·(previous) in a region of its own — 4 row tiles of 2048 rows by 8 tiles of 1024 along the contracted axis, the
  tile products added into an accumulator that is reset at the first tile and copied to the result block at the
  last — and scales and sums the results on the host; the reference takes four host matrix products and applies
  the same scaling and summing. The frames: each program runs to the end, faults nowhere and leaves its arguments
  as launched (for the kernel program at the word level and at the ideal instance: its regions one after the
  other, each from the buffer contents the one before left; for the reference: its generated run). The ideal
  pass rewrote nothing, so the idealization is the program's own text. At the ideal instance the two results are
  equal: eight tile sums of 1024 terms are one sum of 8192 terms over the extended reals, where addition is
  commutative and associative, and nothing else differs.
-/
import proofs.«132851_j4544075399677_1_alg».proof.Defs
import proofs.«132851_j4544075399677_1_alg».proof.Proof.Gen.Kernel
import proofs.«132851_j4544075399677_1_alg».proof.Proof.Gen.KernelIdeal
import proofs.«132851_j4544075399677_1_alg».proof.Proof.Gen.ReferenceIdeal
import proofs.«132851_j4544075399677_1_alg».proof.Proof.Gen.Pre_finite_inputs
import proofs.«132851_j4544075399677_1_alg».proof.Proof.Kernel.Args
import proofs.«132851_j4544075399677_1_alg».proof.Proof.Bridge

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, trivial, Cert.Proof.Claims.algebraic⟩

end Cert.Proof

end
